-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v31_0)) (v4 : (c : Dev Cert.KernelIdeal.nD) → Buf (Elt Ideal) ((c.tc : Thread Cert.KernelIdeal.nD Cert.KernelIdeal.τ).loc Cert.KernelIdeal.main_v31_1)) (v5 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v31_0) = v3 c
          ∧ r.2.mem ((c.tc : Thread Cert.KernelIdeal.nD Cert.KernelIdeal.τ).loc Cert.KernelIdeal.main_v31_1) = v4 c
          ∧ r.2.mem ((c.tc : Thread Cert.KernelIdeal.nD Cert.KernelIdeal.τ).loc Cert.KernelIdeal.main_v31_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v27) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x64 : Shape := ⟨2, ![4096, 64]⟩
abbrev S4096x2048 : Shape := ⟨2, ![4096, 2048]⟩
abbrev S4096x256 : Shape := ⟨2, ![4096, 256]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S2048x2560 : Shape := ⟨2, ![2048, 2560]⟩
abbrev S2048x2304 : Shape := ⟨2, ![2048, 2304]⟩
abbrev S1024x2048 : Shape := ⟨2, ![1024, 2048]⟩
abbrev S1024 : Shape := ⟨1, ![1024]⟩
abbrev S6144x832 : Shape := ⟨2, ![6144, 832]⟩
abbrev S6144x2048 : Shape := ⟨2, ![6144, 2048]⟩
abbrev S6144 : Shape := ⟨1, ![6144]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x256 : S_.BroadcastsInDim S4096x256 (![] : Fin 0 → Fin S4096x256.rank)
  reducesTo_S4096x256_S_d0_1 : S4096x256.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S2048x2560 : S_.BroadcastsInDim S2048x2560 (![] : Fin 0 → Fin S2048x2560.rank)
  reducesTo_S2048x2560_S_d0_1 : S2048x2560.ReducesTo [0, 1] S_
  bcast_S_S2048x2304 : S_.BroadcastsInDim S2048x2304 (![] : Fin 0 → Fin S2048x2304.rank)
  reducesTo_S2048x2304_S_d0_1 : S2048x2304.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S6144x832 : S_.BroadcastsInDim S6144x832 (![] : Fin 0 → Fin S6144x832.rank)
  reducesTo_S6144x832_S_d0_1 : S6144x832.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_

variable [Facts]

def fn_part5 {F : FTy → Type} [FloatOps F] (main_arg18 : FVec F S6144 .f32) (main_arg19 : FVec F S6144 .f32) (main_v83 : IVec S_ 1) (main_v84 : FVec F S6144x2048 .f32) (main_cst_32 : FVec F S_ .f32) : IVec S_ 1 :=
  let main_v85 : FVec F S6144x2048 .f32 := broadcastInDim S6144x2048 ![] bcast_S_S6144x2048 main_cst_32
  let main_v86 : IVec S6144x2048 1 := cmpf .olt main_v84 main_v85
  let main_c_33 : IVec S_ 1 := constantI S_ 1 1#1
  let main_v87 : IVec S_ 1 := (fun x v => Host.reduce IntOp.andi x v reducesTo_S6144x2048_S_d0_1 h_S_) main_v86 main_c_33
  let main_v88 : IVec S_ 1 := andi main_v83 main_v87
  let main_v89 : FVec F S6144 .f32 := Host.absf main_arg18
  let main_cst_34 : FVec F S_ .f32 := constant S_ .f32 0x7F800000#32
  let main_v90 : FVec F S6144 .f32 := broadcastInDim S6144 ![] bcast_S_S6144 main_cst_34
  let main_v91 : IVec S6144 1 := cmpf .olt main_v89 main_v90
  let main_c_35 : IVec S_ 1 := constantI S_ 1 1#1
  let main_v92 : IVec S_ 1 := (fun x v => Host.reduce IntOp.andi x v reducesTo_S6144_S_d0 h_S_) main_v91 main_c_35
  let main_v93 : IVec S_ 1 := andi main_v88 main_v92
  let main_v94 : FVec F S6144 .f32 := Host.absf main_arg19
  let main_cst_36 : FVec F S_ .f32 := constant S_ .f32 0x7F800000#32
  let main_v95 : FVec F S6144 .f32 := broadcastInDim S6144 ![] bcast_S_S6144 main_cst_36
  let main_v96 : IVec S6144 1 := cmpf .olt main_v94 main_v95
  let main_c_37 : IVec S_ 1 := constantI S_ 1 1#1
  let main_v97 : IVec S_ 1 := (fun x v => Host.reduce IntOp.andi x v reducesTo_S6144_S_d0 h_S_) main_v96 main_c_37
  let main_v98 : IVec S_ 1 := andi main_v93 main_v97
  main_v98

def fn_part4 {F : FTy → Type} [FloatOps F] (main_arg14 : FVec F S1024x2048 .f32) (main_arg15 : FVec F S1024 .f32) (main_arg16 : FVec F S6144x832 .f32) (main_arg17 : FVec F S6144x2048 .f32) (main_arg18 : FVec F S6144 .f32) (main_arg19 : FVec F S6144 .f32) (main_v63 : IVec S_ 1) (main_v67 : IVec S_ 1) : IVec S_ 1 :=
  let main_v68 : IVec S_ 1 := andi main_v63 main_v67
  let main_v69 : FVec F S1024x2048 .f32 := Host.absf main_arg14
  let main_cst_26 : FVec F S_ .f32 := constant S_ .f32 0x7F800000#32
  let main_v70 : FVec F S1024x2048 .f32 := broadcastInDim S1024x2048 ![] bcast_S_S1024x2048 main_cst_26
  let main_v71 : IVec S1024x2048 1 := cmpf .olt main_v69 main_v70
  let main_c_27 : IVec S_ 1 := constantI S_ 1 1#1
  let main_v72 : IVec S_ 1 := (fun x v => Host.reduce IntOp.andi x v reducesTo_S1024x2048_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S6144x832 .f32 := Host.absf main_arg16
  let main_cst_30 : FVec F S_ .f32 := constant S_ .f32 0x7F800000#32
  let main_v80 : FVec F S6144x832 .f32 := broadcastInDim S6144x832 ![] bcast_S_S6144x832 main_cst_30
  let main_v81 : IVec S6144x832 1 := cmpf .olt main_v79 main_v80
  let main_c_31 : IVec S_ 1 := constantI S_ 1 1#1
  let main_v82 : IVec S_ 1 := (fun x v => Host.reduce IntOp.andi x v reducesTo_S6144x832_S_d0_1 h_S_) main_v81 main_c_31
  let main_v83 : IVec S_ 1 := andi main_v78 main_v82
  let main_v84 : FVec F S6144x2048 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S512 .f32) (main_arg12 : FVec F S2048x2304 .f32) (main_arg13 : FVec F S2048 .f32) (main_arg14 : FVec F S1024x2048 .f32) (main_arg15 : FVec F S1024 .f32) (main_arg16 : FVec F S6144x832 .f32) (main_arg17 : FVec F S6144x2048 .f32) (main_arg18 : FVec F S6144 .f32) (main_arg19 : FVec F S6144 .f32) (main_v48 : IVec S_ 1) (main_v49 : FVec F S512x2048 .f32) (main_v50 : FVec F S512x2048 .f32) : IVec S_ 1 :=
  let main_v51 : IVec S512x2048 1 := cmpf .olt main_v49 main_v50
  let main_c_19 : IVec S_ 1 := constantI S_ 1 1#1
  let main_v52 : IVec S_ 1 := (fun x v => Host.reduce IntOp.andi x v reducesTo_S512x2048_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S2048x2304 .f32 := Host.absf main_arg12
  let main_cst_22 : FVec F S_ .f32 := constant S_ .f32 0x7F800000#32
  let main_v60 : FVec F S2048x2304 .f32 := broadcastInDim S2048x2304 ![] bcast_S_S2048x2304 main_cst_22
  let main_v61 : IVec S2048x2304 1 := cmpf .olt main_v59 main_v60
  let main_c_23 : IVec S_ 1 := constantI S_ 1 1#1
  let main_v62 : IVec S_ 1 := (fun x v => Host.reduce IntOp.andi x v reducesTo_S2048x2304_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_arg18 main_arg19 main_v63 main_v67

def fn_part2 {F : FTy → Type} [FloatOps F] (main_arg7 : FVec F S512 .f32) (main_arg8 : FVec F S2048x2560 .f32) (main_arg9 : FVec F S2048 .f32) (main_arg10 : FVec F S512x2048 .f32) (main_arg11 : FVec F S512 .f32) (main_arg12 : FVec F S2048x2304 .f32) (main_arg13 : FVec F S2048 .f32) (main_arg14 : FVec F S1024x2048 .f32) (main_arg15 : FVec F S1024 .f32) (main_arg16 : FVec F S6144x832 .f32) (main_arg17 : FVec F S6144x2048 .f32) (main_arg18 : FVec F S6144 .f32) (main_arg19 : FVec F S6144 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S2048x2560 .f32 := Host.absf main_arg8
  let main_cst_14 : FVec F S_ .f32 := constant S_ .f32 0x7F800000#32
  let main_v40 : FVec F S2048x2560 .f32 := broadcastInDim S2048x2560 ![] bcast_S_S2048x2560 main_cst_14
  let main_v41 : IVec S2048x2560 1 := cmpf .olt main_v39 main_v40
  let main_c_15 : IVec S_ 1 := constantI S_ 1 1#1
  let main_v42 : IVec S_ 1 := (fun x v => Host.reduce IntOp.andi x v reducesTo_S2048x2560_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S512x2048 .f32 := Host.absf main_arg10
  let main_cst_18 : FVec F S_ .f32 := constant S_ .f32 0x7F800000#32
  let main_v50 : FVec F S512x2048 .f32 := broadcastInDim S512x2048 ![] bcast_S_S512x2048 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S2048x2048 .f32) (main_arg5 : FVec F S2048 .f32) (main_arg6 : FVec F S512x2048 .f32) (main_arg7 : FVec F S512 .f32) (main_arg8 : FVec F S2048x2560 .f32) (main_arg9 : FVec F S2048 .f32) (main_arg10 : FVec F S512x2048 .f32) (main_arg11 : FVec F S512 .f32) (main_arg12 : FVec F S2048x2304 .f32) (main_arg13 : FVec F S2048 .f32) (main_arg14 : FVec F S1024x2048 .f32) (main_arg15 : FVec F S1024 .f32) (main_arg16 : FVec F S6144x832 .f32) (main_arg17 : FVec F S6144x2048 .f32) (main_arg18 : FVec F S6144 .f32) (main_arg19 : FVec F S6144 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S4096x512 .f32) (main_arg1 : FVec F S4096x64 .f32) (main_arg2 : FVec F S4096x2048 .f32) (main_arg3 : FVec F S4096x256 .f32) (main_arg4 : FVec F S2048x2048 .f32) (main_arg5 : FVec F S2048 .f32) (main_arg6 : FVec F S512x2048 .f32) (main_arg7 : FVec F S512 .f32) (main_arg8 : FVec F S2048x2560 .f32) (main_arg9 : FVec F S2048 .f32) (main_arg10 : FVec F S512x2048 .f32) (main_arg11 : FVec F S512 .f32) (main_arg12 : FVec F S2048x2304 .f32) (main_arg13 : FVec F S2048 .f32) (main_arg14 : FVec F S1024x2048 .f32) (main_arg15 : FVec F S1024 .f32) (main_arg16 : FVec F S6144x832 .f32) (main_arg17 : FVec F S6144x2048 .f32) (main_arg18 : FVec F S6144 .f32) (main_arg19 : FVec F S6144 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S4096x512 : Shape := ⟨2, ![4096, 512]⟩
abbrev S4096x64 : Shape := ⟨2, ![4096, 64]⟩
abbrev S4096x2048 : Shape := ⟨2, ![4096, 2048]⟩
abbrev S4096x256 : Shape := ⟨2, ![4096, 256]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S2048x2560 : Shape := ⟨2, ![2048, 2560]⟩
abbrev S2048x2304 : Shape := ⟨2, ![2048, 2304]⟩
abbrev S1024x2048 : Shape := ⟨2, ![1024, 2048]⟩
abbrev S1024 : Shape := ⟨1, ![1024]⟩
abbrev S6144x832 : Shape := ⟨2, ![6144, 832]⟩
abbrev S6144x2048 : Shape := ⟨2, ![6144, 2048]⟩
abbrev S6144 : Shape := ⟨1, ![6144]⟩
abbrev S2048x512 : Shape := ⟨2, ![2048, 512]⟩
abbrev S2560x2048 : Shape := ⟨2, ![2560, 2048]⟩
abbrev S2304x2048 : Shape := ⟨2, ![2304, 2048]⟩
abbrev S256x2048 : Shape := ⟨2, ![256, 2048]⟩
abbrev S2048x1024 : Shape := ⟨2, ![2048, 1024]⟩
abbrev S832x6144 : Shape := ⟨2, ![832, 6144]⟩
abbrev S512x6144 : Shape := ⟨2, ![512, 6144]⟩
abbrev S256x6144 : Shape := ⟨2, ![256, 6144]⟩
abbrev S64x6144 : Shape := ⟨2, ![64, 6144]⟩
abbrev S2048x6144 : Shape := ⟨2, ![2048, 6144]⟩
abbrev S1x2048 : Shape := ⟨2, ![1, 2048]⟩
abbrev S1x512 : Shape := ⟨2, ![1, 512]⟩
abbrev S1x1024 : Shape := ⟨2, ![1, 1024]⟩
abbrev S1x6144 : Shape := ⟨2, ![1, 6144]⟩
abbrev S1x4096 : Shape := ⟨2, ![1, 4096]⟩
abbrev S256x512 : Shape := ⟨2, ![256, 512]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S256x1024 : Shape := ⟨2, ![256, 1024]⟩
abbrev S4096 : Shape := ⟨1, ![4096]⟩
abbrev S128x512 : Shape := ⟨2, ![128, 512]⟩
abbrev S128x256 : Shape := ⟨2, ![128, 256]⟩
abbrev S128x64 : Shape := ⟨2, ![128, 64]⟩
abbrev S128x2048 : Shape := ⟨2, ![128, 2048]⟩
abbrev S128x6144 : Shape := ⟨2, ![128, 6144]⟩

abbrev nBuf : Space → Nat
  | .hbm => 59
  | .vmem => 46
  | .smem => 0
  | _ => 0

abbrev bufTy : (tb : Table) → Fin (tcTables nBuf tb) → BufTy
  | .hbm, ⟨0, _⟩ => ⟨S4096x512, .f32⟩
  | .hbm, ⟨1, _⟩ => ⟨S4096x64, .f32⟩
  | .hbm, ⟨2, _⟩ => ⟨S4096x2048, .f32⟩
  | .hbm, ⟨3, _⟩ => ⟨S4096x256, .f32⟩
  | .hbm, ⟨4, _⟩ => ⟨S2048x2048, .f32⟩
  | .hbm, ⟨5, _⟩ => ⟨S2048, .f32⟩
  | .hbm, ⟨6, _⟩ => ⟨S512x2048, .f32⟩
  | .hbm, ⟨7, _⟩ => ⟨S512, .f32⟩
  | .hbm, ⟨8, _⟩ => ⟨S2048x2560, .f32⟩
  | .hbm, ⟨9, _⟩ => ⟨S2048, .f32⟩
  | .hbm, ⟨10, _⟩ => ⟨S512x2048, .f32⟩
  | .hbm, ⟨11, _⟩ => ⟨S512, .f32⟩
  | .hbm, ⟨12, _⟩ => ⟨S2048x2304, .f32⟩
  | .hbm, ⟨13, _⟩ => ⟨S2048, .f32⟩
  | .hbm, ⟨14, _⟩ => ⟨S1024x2048, .f32⟩
  | .hbm, ⟨15, _⟩ => ⟨S1024, .f32⟩
  | .hbm, ⟨16, _⟩ => ⟨S6144x832, .f32⟩
  | .hbm, ⟨17, _⟩ => ⟨S6144x2048, .f32⟩
  | .hbm, ⟨18, _⟩ => ⟨S6144, .f32⟩
  | .hbm, ⟨19, _⟩ => ⟨S6144, .f32⟩
  | .hbm, ⟨20, _⟩ => ⟨S2048x2048, .f32⟩
  | .hbm, ⟨21, _⟩ => ⟨S2048x2048, .bf16⟩
  | .hbm, ⟨22, _⟩ => ⟨S2048x512, .f32⟩
  | .hbm, ⟨23, _⟩ => ⟨S2048x512, .bf16⟩
  | .hbm, ⟨24, _⟩ => ⟨S2560x2048, .f32⟩
  | .hbm, ⟨25, _⟩ => ⟨S2560x2048, .bf16⟩
  | .hbm, ⟨26, _⟩ => ⟨S512x2048, .bf16⟩
  | .hbm, ⟨27, _⟩ => ⟨S2048x2048, .bf16⟩
  | .hbm, ⟨28, _⟩ => ⟨S2048x512, .f32⟩
  | .hbm, ⟨29, _⟩ => ⟨S2048x512, .bf16⟩
  | .hbm, ⟨30, _⟩ => ⟨S2304x2048, .f32⟩
  | .hbm, ⟨31, _⟩ => ⟨S2304x2048, .bf16⟩
  | .hbm, ⟨32, _⟩ => ⟨S256x2048, .bf16⟩
  | .hbm, ⟨33, _⟩ => ⟨S2048x2048, .bf16⟩
  | .hbm, ⟨34, _⟩ => ⟨S2048x1024, .f32⟩
  | .hbm, ⟨35, _⟩ => ⟨S2048x1024, .bf16⟩
  | .hbm, ⟨36, _⟩ => ⟨S832x6144, .f32⟩
  | .hbm, ⟨37, _⟩ => ⟨S832x6144, .bf16⟩
  | .hbm, ⟨38, _⟩ => ⟨S512x6144, .bf16⟩
  | .hbm, ⟨39, _⟩ => ⟨S256x6144, .bf16⟩
  | .hbm, ⟨40, _⟩ => ⟨S64x6144, .bf16⟩
  | .hbm, ⟨41, _⟩ => ⟨S2048x6144, .f32⟩
  | .hbm, ⟨42, _⟩ => ⟨S2048x6144, .bf16⟩
  | .hbm, ⟨43, _⟩ => ⟨S1x2048, .f32⟩
  | .hbm, ⟨44, _⟩ => ⟨S1x512, .f32⟩
  | .hbm, ⟨45, _⟩ => ⟨S1x2048, .f32⟩
  | .hbm, ⟨46, _⟩ => ⟨S1x512, .f32⟩
  | .hbm, ⟨47, _⟩ => ⟨S1x2048, .f32⟩
  | .hbm, ⟨48, _⟩ => ⟨S1x1024, .f32⟩
  | .hbm, ⟨49, _⟩ => ⟨S1x6144, .f32⟩
  | .hbm, ⟨50, _⟩ => ⟨S1x6144, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S1x4096, .f32⟩
  | .hbm, ⟨55, _⟩ => ⟨S1x4096, .f32⟩
  | .hbm, ⟨56, _⟩ => ⟨S4096, .f32⟩
  | .hbm, ⟨57, _⟩ => ⟨S4096, .f32⟩
  | .hbm, ⟨58, _⟩ => ⟨S4096x2048, .f32⟩
  | .local _ .vmem, ⟨0, _⟩ => ⟨S256x512, .f32⟩
  | .local _ .vmem, ⟨1, _⟩ => ⟨S256x512, .f32⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S2048x2048, .bf16⟩
  | .local _ .vmem, ⟨7, _⟩ => ⟨S1x2048, .f32⟩
  | .local _ .vmem, ⟨8, _⟩ => ⟨S2048x512, .bf16⟩
  | .local _ .vmem, ⟨9, _⟩ => ⟨S1x512, .f32⟩
  | .local _ .vmem, ⟨10, _⟩ => ⟨S512x2048, .bf16⟩
  | .local _ .vmem, ⟨11, _⟩ => ⟨S2048x2048, .bf16⟩
  | .local _ .vmem, ⟨12, _⟩ => ⟨S1x2048, .f32⟩
  | .local _ .vmem, ⟨13, _⟩ => ⟨S2048x512, .bf16⟩
  | .local _ .vmem, ⟨14, _⟩ => ⟨S1x512, .f32⟩
  | .local _ .vmem, ⟨15, _⟩ => ⟨S256x2048, .bf16⟩
  | .local _ .vmem, ⟨16, _⟩ => ⟨S2048x2048, .bf16⟩
  | .local _ .vmem, ⟨17, _⟩ => ⟨S1x2048, .f32⟩
  | .local _ .vmem, ⟨18, _⟩ => ⟨S2048x1024, .bf16⟩
  | .local _ .vmem, ⟨19, _⟩ => ⟨S1x1024, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S128x512, .f32⟩
  | .local _ .vmem, ⟨31, _⟩ => ⟨S128x512, .f32⟩
  | .local _ .vmem, ⟨32, _⟩ => ⟨S128x256, .f32⟩
  | .local _ .vmem, ⟨33, _⟩ => ⟨S128x256, .f32⟩
  | .local _ .vmem, ⟨34, _⟩ => ⟨S128x64, .f32⟩
  | .local _ .vmem, ⟨35, _⟩ => ⟨S128x64, .f32⟩
  | .local _ .vmem, ⟨36, _⟩ => ⟨S128x2048, .f32⟩
  | .local _ .vmem, ⟨37, _⟩ => ⟨S128x2048, .f32⟩
  | .local _ .vmem, ⟨38, _⟩ => ⟨S512x6144, .bf16⟩
  | .local _ .vmem, ⟨39, _⟩ => ⟨S256x6144, .bf16⟩
  | .local _ .vmem, ⟨40, _⟩ => ⟨S64x6144, .bf16⟩
  | .local _ .vmem, ⟨41, _⟩ => ⟨S1x6144, .f32⟩
  | .local _ .vmem, ⟨42, _⟩ => ⟨S2048x6144, .bf16⟩
  | .local _ .vmem, ⟨43, _⟩ => ⟨S1x6144, .f32⟩
  | .local _ .vmem, ⟨44, _⟩ => ⟨S128x2048, .f32⟩
  | .local _ .vmem, ⟨45, _⟩ => ⟨S128x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_v31_2 : Ref sig .tc := ⟨.hbm, 53, rfl⟩
abbrev main_v31_3 : Ref sig .tc := ⟨.hbm, 54, rfl⟩
abbrev main_v31_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg5_0 : Ref sig .tc := ⟨.vmem, 39, rfl⟩
abbrev cc1_stg6_0 : Ref sig .tc := ⟨.vmem, 40, rfl⟩
abbrev cc1_stg7_0 : Ref sig .tc := ⟨.vmem, 41, rfl⟩
abbrev cc1_stg8_0 : Ref sig .tc := ⟨.vmem, 42, rfl⟩
abbrev cc1_stg9_0 : Ref sig .tc := ⟨.vmem, 43, rfl⟩
abbrev cc1_stg10_0 : Ref sig .tc := ⟨.vmem, 44, rfl⟩
abbrev cc1_stg10_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem5_0 : DmaSem sig := 39
abbrev cc1_sem6_0 : DmaSem sig := 40
abbrev cc1_sem7_0 : DmaSem sig := 41
abbrev cc1_sem8_0 : DmaSem sig := 42
abbrev cc1_sem9_0 : DmaSem sig := 43
abbrev cc1_sem10_0 : DmaSem sig := 44
abbrev cc1_sem10_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x6144 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x6144 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x6144 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x6144 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x6144 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x6144 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  transposes_S2048x2048_S2048x2048_1_0 : S2048x2048.Transposes [1, 0] S2048x2048
  bitsLt_bf16_f32 : FTy.bits .bf16 < FTy.bits .f32
  transposes_S512x2048_S2048x512_1_0 : S512x2048.Transposes [1, 0] S2048x512
  transposes_S2048x2560_S2560x2048_1_0 : S2048x2560.Transposes [1, 0] S2560x2048
  slices_S2560x2048_S512x2048_0_0 : S2560x2048.Slices ![0, 0] S512x2048
  slices_S2560x2048_S2048x2048_512_0 : S2560x2048.Slices ![512, 0] S2048x2048
  transposes_S2048x2304_S2304x2048_1_0 : S2048x2304.Transposes [1, 0] S2304x2048
  slices_S2304x2048_S256x2048_0_0 : S2304x2048.Slices ![0, 0] S256x2048
  slices_S2304x2048_S2048x2048_256_0 : S2304x2048.Slices ![256, 0] S2048x2048
  transposes_S1024x2048_S2048x1024_1_0 : S1024x2048.Transposes [1, 0] S2048x1024
  transposes_S6144x832_S832x6144_1_0 : S6144x832.Transposes [1, 0] S832x6144
  slices_S832x6144_S512x6144_0_0 : S832x6144.Slices ![0, 0] S512x6144
  slices_S832x6144_S256x6144_512_0 : S832x6144.Slices ![512, 0] S256x6144
  slices_S832x6144_S64x6144_768_0 : S832x6144.Slices ![768, 0] S64x6144
  transposes_S6144x2048_S2048x6144_1_0 : S6144x2048.Transposes [1, 0] S2048x6144
  shapeCasts_S2048_S1x2048 : S2048.ShapeCasts S1x2048
  shapeCasts_S512_S1x512 : S512.ShapeCasts S1x512
  shapeCasts_S1024_S1x1024 : S1024.ShapeCasts S1x1024
  shapeCasts_S6144_S1x6144 : S6144.ShapeCasts S1x6144
  inb_S256x512_S256x512_0_0 : ∀ a, (![0, 0] : Fin 2 → Nat) a + S256x512.size a ≤ S256x512.size a
  h_S256x512 : 0 < S256x512.numel
  inb_S256x2048_S256x2048_0_0 : ∀ a, (![0, 0] : Fin 2 → Nat) a + S256x2048.size a ≤ S256x2048.size a
  h_S256x2048 : 0 < S256x2048.numel
  inb_S256x256_S256x256_0_0 : ∀ a, (![0, 0] : Fin 2 → Nat) a + S256x256.size a ≤ S256x256.size a
  h_S256x256 : 0 < S256x256.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  slices_S256x512_o0_0_S256x256 : S256x512.Slices ![0, 0] S256x256
  slices_S256x512_o0_256_S256x256 : S256x512.Slices ![0, 256] S256x256
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S256x256_S256 : S256x256.Reduces [1] S256
  shapeCasts_S256_S256x1 : S256.ShapeCasts S256x1
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x1024_o0_0_S256x512 : S256x1024.Slices ![0, 0] S256x512
  slices_S256x1024_o0_512_S256x512 : S256x1024.Slices ![0, 512] S256x512
  reduces_S256x512_S256 : S256x512.Reduces [1] S256
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  shapeCasts_S1x4096_S4096 : S1x4096.ShapeCasts S4096
  inb_S128x512_S128x512_0_0 : ∀ a, (![0, 0] : Fin 2 → Nat) a + S128x512.size a ≤ S128x512.size a
  h_S128x512 : 0 < S128x512.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x64_S128x64_0_0 : ∀ a, (![0, 0] : Fin 2 → Nat) a + S128x64.size a ≤ S128x64.size a
  h_S128x64 : 0 < S128x64.numel
  inb_S128x2048_S128x2048_0_0 : ∀ a, (![0, 0] : Fin 2 → Nat) a + S128x2048.size a ≤ S128x2048.size a
  h_S128x2048 : 0 < S128x2048.numel
  inb_S512x6144_S512x6144_0_0 : ∀ a, (![0, 0] : Fin 2 → Nat) a + S512x6144.size a ≤ S512x6144.size a
  h_S512x6144 : 0 < S512x6144.numel
  shapeCasts_S512x6144_S512x6144 : S512x6144.ShapeCasts S512x6144
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  inb_S64x6144_S64x6144_0_0 : ∀ a, (![0, 0] : Fin 2 → Nat) a + S64x6144.size a ≤ S64x6144.size a
  h_S64x6144 : 0 < S64x6144.numel
  shapeCasts_S64x6144_S64x6144 : S64x6144.ShapeCasts S64x6144
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S128x6144 : S1x6144.Broadcasts S128x6144
  inb_S2048x6144_S2048x6144_0_0 : ∀ a, (![0, 0] : Fin 2 → Nat) a + S2048x6144.size a ≤ S2048x6144.size a
  h_S2048x6144 : 0 < S2048x6144.numel
  shapeCasts_S2048x6144_S2048x6144 : S2048x6144.ShapeCasts S2048x6144
  slices_S128x6144_o0_0_S128x2048 : S128x6144.Slices ![0, 0] S128x2048
  slices_S128x6144_o0_2048_S128x2048 : S128x6144.Slices ![0, 2048] S128x2048
  slices_S128x6144_o0_4096_S128x2048 : S128x6144.Slices ![0, 4096] S128x2048
  dot_S256x2048_S2048x2048_S256x2048_1_0_0_1_n_n_wf : DotDims.WF S256x2048 S2048x2048 S256x2048 [1] [0] [0] [1] [] []
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  dot_S256x256_S256x2048_S256x2048_1_0_0_1_n_n_wf : DotDims.WF S256x256 S256x2048 S256x2048 [1] [0] [0] [1] [] []
  dot_S256x2048_S2048x1024_S256x1024_1_0_0_1_n_n_wf : DotDims.WF S256x2048 S2048x1024 S256x1024 [1] [0] [0] [1] [] []
  dot_S128x512_S512x6144_S128x6144_1_0_0_1_n_n_wf : DotDims.WF S128x512 S512x6144 S128x6144 [1] [0] [0] [1] [] []
  dot_S128x256_S256x6144_S128x6144_1_0_0_1_n_n_wf : DotDims.WF S128x256 S256x6144 S128x6144 [1] [0] [0] [1] [] []
  dot_S128x64_S64x6144_S128x6144_1_0_0_1_n_n_wf : DotDims.WF S128x64 S64x6144 S128x6144 [1] [0] [0] [1] [] []
  dot_S128x2048_S2048x6144_S128x6144_1_0_0_1_n_n_wf : DotDims.WF S128x2048 S2048x6144 S128x6144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .bf16 = 32 ∨ (Rect.block (s := S2048x512) S2048x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .bf16 = 32 ∨ (Rect.block (s := S512x2048) S512x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x512.size a ≤ S2048x512.size a
  hwx0_10 : ∀ i : grid0.Coords, EltTy.bits .bf16 = 32 ∨ (Rect.block (s := S2048x512) S2048x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S256x2048.size a
  hwx0_12 : ∀ i : grid0.Coords, EltTy.bits .bf16 = 32 ∨ (Rect.block (s := S256x2048) S256x2048.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2048x2048.size a ≤ S2048x2048.size a
  hwx0_13 : ∀ i : grid0.Coords, EltTy.bits .bf16 = 32 ∨ (Rect.block (s := S2048x2048) S2048x2048.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2048.size a ≤ S1x2048.size a
  hwx0_14 : ∀ i : grid0.Coords, EltTy.bits .f32 = 32 ∨ (Rect.block (s := S1x2048) S1x2048.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2048x1024.size a ≤ S2048x1024.size a
  hwx0_15 : ∀ i : grid0.Coords, EltTy.bits .bf16 = 32 ∨ (Rect.block (s := S2048x1024) S2048x1024.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S4096x256.size a
  hwx0_17 : ∀ i : grid0.Coords, EltTy.bits .f32 = 32 ∨ (Rect.block (s := S4096x256) S256x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S4096x256.size a
  hwx0_18 : ∀ i : grid0.Coords, EltTy.bits .f32 = 32 ∨ (Rect.block (s := S4096x256) S256x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S4096x256.size a
  hwx0_19 : ∀ i : grid0.Coords, EltTy.bits .f32 = 32 ∨ (Rect.block (s := S4096x256) S256x256.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x256.size a ≤ S1x4096.size a
  hwx0_20 : ∀ i : grid0.Coords, EltTy.bits .f32 = 32 ∨ (Rect.block (s := S1x4096) S1x256.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x4096.size a
  hwx0_21 : ∀ i : grid0.Coords, EltTy.bits .f32 = 32 ∨ (Rect.block (s := S1x4096) S1x256.size (cc0_transform_21 i) (hinb0_21 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S4096x512.size a
  hwx1_0 : ∀ i : grid1.Coords, EltTy.bits .f32 = 32 ∨ (Rect.block (s := S4096x512) S128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S4096x256.size a
  hwx1_1 : ∀ i : grid1.Coords, EltTy.bits .f32 = 32 ∨ (Rect.block (s := S4096x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S4096x64.size a
  hwx1_2 : ∀ i : grid1.Coords, EltTy.bits .f32 = 32 ∨ (Rect.block (s := S4096x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S4096x2048.size a
  hwx1_3 : ∀ i : grid1.Coords, EltTy.bits .f32 = 32 ∨ (Rect.block (s := S4096x2048) S128x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x6144.size a ≤ S512x6144.size a
  hwx1_4 : ∀ i : grid1.Coords, EltTy.bits .bf16 = 32 ∨ (Rect.block (s := S512x6144) S512x6144.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x6144.size a ≤ S256x6144.size a
  hwx1_5 : ∀ i : grid1.Coords, EltTy.bits .bf16 = 32 ∨ (Rect.block (s := S256x6144) S256x6144.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x6144.size a ≤ S64x6144.size a
  hwx1_6 : ∀ i : grid1.Coords, EltTy.bits .bf16 = 32 ∨ (Rect.block (s := S64x6144) S64x6144.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x6144.size a ≤ S1x6144.size a
  hwx1_7 : ∀ i : grid1.Coords, EltTy.bits .f32 = 32 ∨ (Rect.block (s := S1x6144) S1x6144.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2048x6144.size a ≤ S2048x6144.size a
  hwx1_8 : ∀ i : grid1.Coords, EltTy.bits .bf16 = 32 ∨ (Rect.block (s := S2048x6144) S2048x6144.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x6144.size a ≤ S1x6144.size a
  hwx1_9 : ∀ i : grid1.Coords, EltTy.bits .f32 = 32 ∨ (Rect.block (s := S1x6144) S1x6144.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x2048.size a ≤ S4096x2048.size a
  hwx1_10 : ∀ i : grid1.Coords, EltTy.bits .f32 = 32 ∨ (Rect.block (s := S4096x2048) S128x2048.size (cc1_transform_10 i) (hinb1_10 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S128x512_S512x6144_S128x6144_1_0_0_1_n_n : DotDims S128x512 S512x6144 S128x6144 where
  lhsContracting := [1]
  rhsContracting := [0]
  lhsNonContracting := [0]
  rhsNonContracting := [1]
  lhsBatch := []
  rhsBatch := []
  wf := dot_S128x512_S512x6144_S128x6144_1_0_0_1_n_n_wf
def dot_S128x256_S256x6144_S128x6144_1_0_0_1_n_n : DotDims S128x256 S256x6144 S128x6144 where
  lhsContracting := [1]
  rhsContracting := [0]
  lhsNonContracting := [0]
  rhsNonContracting := [1]
  lhsBatch := []
  rhsBatch := []
  wf := dot_S128x256_S256x6144_S128x6144_1_0_0_1_n_n_wf
def dot_S128x64_S64x6144_S128x6144_1_0_0_1_n_n : DotDims S128x64 S64x6144 S128x6144 where
  lhsContracting := [1]
  rhsContracting := [0]
  lhsNonContracting := [0]
  rhsNonContracting := [1]
  lhsBatch := []
  rhsBatch := []
  wf := dot_S128x64_S64x6144_S128x6144_1_0_0_1_n_n_wf
def dot_S128x2048_S2048x6144_S128x6144_1_0_0_1_n_n : DotDims S128x2048 S2048x6144 S128x6144 where
  lhsContracting := [1]
  rhsContracting := [0]
  lhsNonContracting := [0]
  rhsNonContracting := [1]
  lhsBatch := []
  rhsBatch := []
  wf := dot_S128x2048_S2048x6144_S128x6144_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S2048x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S256x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S2048x2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S1x2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S2048x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v28) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v31_0) S256x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v31_1) S256x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v31_2) S256x256.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v31_3) S1x256.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v31_4) S1x256.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

abbrev win1_0 : Pipeline.Window sig grid1 :=
  Pipeline.Window.ofSpec (Memref.whole main_arg0) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_0) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S512x6144.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S256x6144.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S64x6144.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x6144.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S2048x6144.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S1x6144.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v34) S128x2048.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x64 : Shape := ⟨2, ![4096, 64]⟩
abbrev S4096x2048 : Shape := ⟨2, ![4096, 2048]⟩
abbrev S4096x256 : Shape := ⟨2, ![4096, 256]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S2048x2560 : Shape := ⟨2, ![2048, 2560]⟩
abbrev S2048x2304 : Shape := ⟨2, ![2048, 2304]⟩
abbrev S1024x2048 : Shape := ⟨2, ![1024, 2048]⟩
abbrev S1024 : Shape := ⟨1, ![1024]⟩
abbrev S6144x832 : Shape := ⟨2, ![6144, 832]⟩
abbrev S6144x2048 : Shape := ⟨2, ![6144, 2048]⟩
abbrev S6144 : Shape := ⟨1, ![6144]⟩
abbrev S1x2048 : Shape := ⟨2, ![1, 2048]⟩
abbrev S_ : Shape := ⟨0, ![]⟩
abbrev S2048x512 : Shape := ⟨2, ![2048, 512]⟩
abbrev S1x512 : Shape := ⟨2, ![1, 512]⟩
abbrev S4096x2560 : Shape := ⟨2, ![4096, 2560]⟩
abbrev S2560x2048 : Shape := ⟨2, ![2560, 2048]⟩
abbrev S4096x2304 : Shape := ⟨2, ![4096, 2304]⟩
abbrev S2304x2048 : Shape := ⟨2, ![2304, 2048]⟩
abbrev S2048x1024 : Shape := ⟨2, ![2048, 1024]⟩
abbrev S4096x1024 : Shape := ⟨2, ![4096, 1024]⟩
abbrev S1x1024 : Shape := ⟨2, ![1, 1024]⟩
abbrev S4096 : Shape := ⟨1, ![4096]⟩
abbrev S4096x832 : Shape := ⟨2, ![4096, 832]⟩
abbrev S832x6144 : Shape := ⟨2, ![832, 6144]⟩
abbrev S4096x6144 : Shape := ⟨2, ![4096, 6144]⟩
abbrev S1x6144 : Shape := ⟨2, ![1, 6144]⟩
abbrev S2048x6144 : Shape := ⟨2, ![2048, 6144]⟩

abbrev nBuf : Space → Nat
  | .hbm => 161
  | .vmem => 0
  | .smem => 0
  | _ => 0

abbrev hbmTy0_0 (i : Nat) : BufTy := match i % 128 with
  | 0 => ⟨S4096x512, .f32⟩
  | 1 => ⟨S4096x64, .f32⟩
  | 2 => ⟨S4096x2048, .f32⟩
  | 3 => ⟨S4096x256, .f32⟩
  | 4 => ⟨S2048x2048, .f32⟩
  | 5 => ⟨S2048, .f32⟩
  | 6 => ⟨S512x2048, .f32⟩
  | 7 => ⟨S512, .f32⟩
  | 8 => ⟨S2048x2560, .f32⟩
  | 9 => ⟨S2048, .f32⟩
  | 10 => ⟨S512x2048, .f32⟩
  | 11 => ⟨S512, .f32⟩
  | 12 => ⟨S2048x2304, .f32⟩
  | 13 => ⟨S2048, .f32⟩
  | 14 => ⟨S1024x2048, .f32⟩
  | 15 => ⟨S1024, .f32⟩
  | 16 => ⟨S6144x832, .f32⟩
  | 17 => ⟨S6144x2048, .f32⟩
  | 18 => ⟨S6144, .f32⟩
  | 19 => ⟨S6144, .f32⟩
  | 20 => ⟨S2048x2048, .f32⟩
  | 21 => ⟨S4096x2048, .f32⟩
  | 22 => ⟨S1x2048, .f32⟩
  | 23 => ⟨S4096x2048, .f32⟩
  | 24 => ⟨S4096x2048, .f32⟩
  | 25 => ⟨S_, .f32⟩
  | 26 => ⟨S4096x2048, .f32⟩
  | 27 => ⟨S4096x2048, .f32⟩
  | 28 => ⟨S2048x512, .f32⟩
  | 29 => ⟨S4096x512, .f32⟩
  | 30 => ⟨S1x512, .f32⟩
  | 31 => ⟨S4096x512, .f32⟩
  | 32 => ⟨S4096x512, .f32⟩
  | 33 => ⟨S4096x256, .f32⟩
  | 34 => ⟨S4096x256, .f32⟩
  | 35 => ⟨S4096x2560, .f32⟩
  | 36 => ⟨S2560x2048, .f32⟩
  | 37 => ⟨S4096x2048, .f32⟩
  | 38 => ⟨S1x2048, .f32⟩
  | 39 => ⟨S4096x2048, .f32⟩
  | 40 => ⟨S4096x2048, .f32⟩
  | 41 => ⟨S_, .f32⟩
  | 42 => ⟨S4096x2048, .f32⟩
  | 43 => ⟨S4096x2048, .f32⟩
  | 44 => ⟨S2048x512, .f32⟩
  | 45 => ⟨S4096x512, .f32⟩
  | 46 => ⟨S1x512, .f32⟩
  | 47 => ⟨S4096x512, .f32⟩
  | 48 => ⟨S4096x512, .f32⟩
  | 49 => ⟨S4096x256, .f32⟩
  | 50 => ⟨S4096x256, .f32⟩
  | 51 => ⟨S_, .f32⟩
  | 52 => ⟨S_, .f32⟩
  | 53 => ⟨S_, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S4096x256, .f32⟩
  | 64 => ⟨S4096x256, .f32⟩
  | 65 => ⟨S4096x2304, .f32⟩
  | 66 => ⟨S2304x2048, .f32⟩
  | 67 => ⟨S4096x2048, .f32⟩
  | 68 => ⟨S1x2048, .f32⟩
  | 69 => ⟨S4096x2048, .f32⟩
  | 70 => ⟨S4096x2048, .f32⟩
  | 71 => ⟨S_, .f32⟩
  | 72 => ⟨S4096x2048, .f32⟩
  | 73 => ⟨S4096x2048, .f32⟩
  | 74 => ⟨S2048x1024, .f32⟩
  | 75 => ⟨S4096x1024, .f32⟩
  | 76 => ⟨S1x1024, .f32⟩
  | 77 => ⟨S4096x1024, .f32⟩
  | 78 => ⟨S4096x1024, .f32⟩
  | 79 => ⟨S4096x512, .f32⟩
  | 80 => ⟨S4096x512, .f32⟩
  | 81 => ⟨S_, .f32⟩
  | 82 => ⟨S_, .f32⟩
  | 83 => ⟨S_, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S_, .f32⟩
  | 96 => ⟨S4096, .f32⟩
  | 97 => ⟨S_, .f32⟩
  | 98 => ⟨S4096, .f32⟩
  | 99 => ⟨S4096, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S4096x256, .f32⟩
  | 106 => ⟨S4096x256, .f32⟩
  | 107 => ⟨S4096x256, .f32⟩
  | 108 => ⟨S4096x256, .f32⟩
  | 109 => ⟨S_, .f32⟩
  | 110 => ⟨S4096x256, .f32⟩
  | 111 => ⟨S4096x256, .f32⟩
  | 112 => ⟨S_, .f32⟩
  | 113 => ⟨S4096, .f32⟩
  | 114 => ⟨S_, .f32⟩
  | 115 => ⟨S4096, .f32⟩
  | 116 => ⟨S4096, .f32⟩
  | 117 => ⟨S4096x832, .f32⟩
  | 118 => ⟨S832x6144, .f32⟩
  | 119 => ⟨S4096x6144, .f32⟩
  | 120 => ⟨S1x6144, .f32⟩
  | 121 => ⟨S4096x6144, .f32⟩
  | 122 => ⟨S4096x6144, .f32⟩
  | 123 => ⟨S2048x6144, .f32⟩
  | 124 => ⟨S4096x6144, .f32⟩
  | 125 => ⟨S1x6144, .f32⟩
  | 126 => ⟨S4096x6144, .f32⟩
  | 127 => ⟨S4096x6144, .f32⟩
  | _ => ⟨S4096x512, .f32⟩

abbrev hbmTy0_1 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S4096x2048, .f32⟩
  | 5 => ⟨S4096x2048, .f32⟩
  | 6 => ⟨S4096x2048, .f32⟩
  | 7 => ⟨S4096x2048, .f32⟩
  | 8 => ⟨S4096x2048, .f32⟩
  | 9 => ⟨S_, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S4096x2048, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S_, .f32⟩
  | 22 => ⟨S4096x2048, .f32⟩
  | 23 => ⟨S4096x2048, .f32⟩
  | 24 => ⟨S4096x2048, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S4096x2048, .f32⟩
  | 31 => ⟨S4096x2048, .f32⟩
  | 32 => ⟨S4096x2048, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call1_cst : Ref sig .tc := ⟨.hbm, 41, rfl⟩
abbrev main_call1_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v27 : Ref sig .tc := ⟨.hbm, 58, rfl⟩
abbrev main_cst_1 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call3_cst : Ref sig .tc := ⟨.hbm, 71, rfl⟩
abbrev main_call3_v0 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_2 : Ref sig .tc := ⟨.hbm, 81, rfl⟩
abbrev main_cst_3 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_4 : Ref sig .tc := ⟨.hbm, 95, rfl⟩
abbrev main_v54 : Ref sig .tc := ⟨.hbm, 96, rfl⟩
abbrev main_cst_5 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_6 : Ref sig .tc := ⟨.hbm, 109, rfl⟩
abbrev main_v66 : Ref sig .tc := ⟨.hbm, 110, rfl⟩
abbrev main_v67 : Ref sig .tc := ⟨.hbm, 111, rfl⟩
abbrev main_cst_7 : Ref sig .tc := ⟨.hbm, 112, rfl⟩
abbrev main_v68 : Ref sig .tc := ⟨.hbm, 113, rfl⟩
abbrev main_cst_8 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_9 : Ref sig .tc := ⟨.hbm, 137, rfl⟩
abbrev main_v91 : Ref sig .tc := ⟨.hbm, 138, rfl⟩
abbrev main_v92 : Ref sig .tc := ⟨.hbm, 139, rfl⟩
abbrev main_cst_10 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_11 : Ref sig .tc := ⟨.hbm, 146, rfl⟩
abbrev main_v98 : Ref sig .tc := ⟨.hbm, 147, rfl⟩
abbrev main_v99 : Ref sig .tc := ⟨.hbm, 148, rfl⟩
abbrev main_cst_12 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_13 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  transposes_S512x2048_S2048x512_1_0 : S512x2048.Transposes [1, 0] S2048x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  slices_S4096x512_S4096x256_0_0 : S4096x512.Slices ![0, 0] S4096x256
  slices_S4096x512_S4096x256_0_256 : S4096x512.Slices ![0, 256] S4096x256
  concatenates_S4096x512_S4096x2048_S4096x2560_d1 : Shape.Concatenates [S4096x512, S4096x2048] S4096x2560 1
  transposes_S2048x2560_S2560x2048_1_0 : S2048x2560.Transposes [1, 0] S2560x2048
  bcast_S_S4096x256 : S_.BroadcastsInDim S4096x256 (![] : Fin 0 → Fin S4096x256.rank)
  concatenates_S4096x256_S4096x2048_S4096x2304_d1 : Shape.Concatenates [S4096x256, S4096x2048] S4096x2304 1
  transposes_S2048x2304_S2304x2048_1_0 : S2048x2304.Transposes [1, 0] S2304x2048
  transposes_S1024x2048_S2048x1024_1_0 : S1024x2048.Transposes [1, 0] S2048x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S4096x1024_S4096x512_0_0 : S4096x1024.Slices ![0, 0] S4096x512
  slices_S4096x1024_S4096x512_0_512 : S4096x1024.Slices ![0, 512] S4096x512
  bcast_S_S4096x512 : S_.BroadcastsInDim S4096x512 (![] : Fin 0 → Fin S4096x512.rank)
  reducesTo_S4096x512_S4096_d1 : S4096x512.ReducesTo [1] S4096
  h_S_ : 0 < S_.numel
  bcast_S_S4096 : S_.BroadcastsInDim S4096 (![] : Fin 0 → Fin S4096.rank)
  reducesTo_S4096x256_S4096_d1 : S4096x256.ReducesTo [1] S4096
  concatenates_S4096x512_S4096x256_S4096x64_S4096x832_d1 : Shape.Concatenates [S4096x512, S4096x256, S4096x64] S4096x832 1
  transposes_S6144x832_S832x6144_1_0 : S6144x832.Transposes [1, 0] S832x6144
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  transposes_S6144x2048_S2048x6144_1_0 : S6144x2048.Transposes [1, 0] S2048x6144
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  dot_S4096x2048_S2048x2048_S4096x2048_1_0_0_1_n_n_wf : DotDims.WF S4096x2048 S2048x2048 S4096x2048 [1] [0] [0] [1] [] []
  dot_S4096x2048_S2048x512_S4096x512_1_0_0_1_n_n_wf : DotDims.WF S4096x2048 S2048x512 S4096x512 [1] [0] [0] [1] [] []
  dot_S4096x2560_S2560x2048_S4096x2048_1_0_0_1_n_n_wf : DotDims.WF S4096x2560 S2560x2048 S4096x2048 [1] [0] [0] [1] [] []
  dot_S4096x2304_S2304x2048_S4096x2048_1_0_0_1_n_n_wf : DotDims.WF S4096x2304 S2304x2048 S4096x2048 [1] [0] [0] [1] [] []
  dot_S4096x2048_S2048x1024_S4096x1024_1_0_0_1_n_n_wf : DotDims.WF S4096x2048 S2048x1024 S4096x1024 [1] [0] [0] [1] [] []
  dot_S4096x832_S832x6144_S4096x6144_1_0_0_1_n_n_wf : DotDims.WF S4096x832 S832x6144 S4096x6144 [1] [0] [0] [1] [] []
  dot_S4096x2048_S2048x6144_S4096x6144_1_0_0_1_n_n_wf : DotDims.WF S4096x2048 S2048x6144 S4096x6144 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf
def dot_S4096x2560_S2560x2048_S4096x2048_1_0_0_1_n_n : DotDims S4096x2560 S2560x2048 S4096x2048 where
  lhsContracting := [1]
  rhsContracting := [0]
  lhsNonContracting := [0]
  rhsNonContracting := [1]
  lhsBatch := []
  rhsBatch := []
  wf := dot_S4096x2560_S2560x2048_S4096x2048_1_0_0_1_n_n_wf
def dot_S4096x2304_S2304x2048_S4096x2048_1_0_0_1_n_n : DotDims S4096x2304 S2304x2048 S4096x2048 where
  lhsContracting := [1]
  rhsContracting := [0]
  lhsNonContracting := [0]
  rhsNonContracting := [1]
  lhsBatch := []
  rhsBatch := []
  wf := dot_S4096x2304_S2304x2048_S4096x2048_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x832_S832x6144_S4096x6144_1_0_0_1_n_n : DotDims S4096x832 S832x6144 S4096x6144 where
  lhsContracting := [1]
  rhsContracting := [0]
  lhsNonContracting := [0]
  rhsNonContracting := [1]
  lhsBatch := []
  rhsBatch := []
  wf := dot_S4096x832_S832x6144_S4096x6144_1_0_0_1_n_n_wf
def dot_S4096x2048_S2048x6144_S4096x6144_1_0_0_1_n_n : DotDims S4096x2048 S2048x6144 S4096x6144 where
  lhsContracting := [1]
  rhsContracting := [0]
  lhsNonContracting := [0]
  rhsNonContracting := [1]
  lhsBatch := []
  rhsBatch := []
  wf := dot_S4096x2048_S2048x6144_S4096x6144_1_0_0_1_n_n_wf

class Facts : Prop extends Facts₀ where

variable [Facts]
-- ==== Proof.KRun.lean ====
/-
  The kernel program's run with the WHOLE last boundary in its post: every weakly fair execution of @main terminates,
  nothing faulting, and every buffer the TensorCore holds outside a call ends at the contents the fold through @main's
  four segments assigns it (`Gen.W4`: the two host stretches applied, each call's arrays at what its write-backs
  leave). The frame claim keeps only the argument arrays of this post; the value claim reads the six results off it.
-/
import proofs.«141820_j69552700391572_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main from any memory with zero counters ends with every unscoped TensorCore buffer at the last
    boundary's contents. -/
theorem run_W4 : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.KV

end
-- ==== Proof.KRead.lean ====
/-
  What the two calls find in their arrays, and where the six results sit at the end. The host operations before the
  fused call only re-lay the weights (a transpose, a change of format, a cut of rows) and the biases (a vector as one
  row); between the calls the two loss rows are re-laid as vectors. So at the fused call's entry each staged array is
  an argument, or a named re-laying of one; at the recurrent call's entry likewise, except the latent, which is the
  fused call's first result; and at the end the six results are the recurrent call's array, the two loss rows as vectors,
  and the fused call's first three arrays.
-/
import proofs.«141820_j69552700391572_2_alg».proof.Proof.Gen.KernelIdeal.Frame
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## At the fused call's entry -/

theorem W1_main_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_v1 (c : Dev nD) : (W1 m ρ c (Proc.devRef .tc main_v1) : FVec F S2048x2048 .bf16) = truncf .bf16 (transpose S2048x2048 [1, 0] (m ((c : Thread nD τ).loc main_arg4)) transposes_S2048x2048_S2048x2048_1_0) bitsLt_bf16_f32 := by
  dsimp only [W1, hostOps0]; after_results; try rfl
theorem W1_main_v3 (c : Dev nD) : (W1 m ρ c (Proc.devRef .tc main_v3) : FVec F S2048x512 .bf16) = truncf .bf16 (transpose S2048x512 [1, 0] (m ((c : Thread nD τ).loc main_arg6)) transposes_S512x2048_S2048x512_1_0) bitsLt_bf16_f32 := by
  dsimp only [W1, hostOps0]; after_results; try rfl
theorem W1_main_v6 (c : Dev nD) : (W1 m ρ c (Proc.devRef .tc main_v6) : FVec F S512x2048 .bf16) = extractStridedSlice S512x2048 ![0, 0] (truncf .bf16 (transpose S2560x2048 [1, 0] (m ((c : Thread nD τ).loc main_arg8)) transposes_S2048x2560_S2560x2048_1_0) bitsLt_bf16_f32) slices_S2560x2048_S512x2048_0_0 := by
  dsimp only [W1, hostOps0]; after_results; try rfl
theorem W1_main_v7 (c : Dev nD) : (W1 m ρ c (Proc.devRef .tc main_v7) : FVec F S2048x2048 .bf16) = extractStridedSlice S2048x2048 ![512, 0] (truncf .bf16 (transpose S2560x2048 [1, 0] (m ((c : Thread nD τ).loc main_arg8)) transposes_S2048x2560_S2560x2048_1_0) bitsLt_bf16_f32) slices_S2560x2048_S2048x2048_512_0 := by
  dsimp only [W1, hostOps0]; after_results; try rfl
theorem W1_main_v9 (c : Dev nD) : (W1 m ρ c (Proc.devRef .tc main_v9) : FVec F S2048x512 .bf16) = truncf .bf16 (transpose S2048x512 [1, 0] (m ((c : Thread nD τ).loc main_arg10)) transposes_S512x2048_S2048x512_1_0) bitsLt_bf16_f32 := by
  dsimp only [W1, hostOps0]; after_results; try rfl
theorem W1_main_v12 (c : Dev nD) : (W1 m ρ c (Proc.devRef .tc main_v12) : FVec F S256x2048 .bf16) = extractStridedSlice S256x2048 ![0, 0] (truncf .bf16 (transpose S2304x2048 [1, 0] (m ((c : Thread nD τ).loc main_arg12)) transposes_S2048x2304_S2304x2048_1_0) bitsLt_bf16_f32) slices_S2304x2048_S256x2048_0_0 := by
  dsimp only [W1, hostOps0]; after_results; try rfl
theorem W1_main_v13 (c : Dev nD) : (W1 m ρ c (Proc.devRef .tc main_v13) : FVec F S2048x2048 .bf16) = extractStridedSlice S2048x2048 ![256, 0] (truncf .bf16 (transpose S2304x2048 [1, 0] (m ((c : Thread nD τ).loc main_arg12)) transposes_S2048x2304_S2304x2048_1_0) bitsLt_bf16_f32) slices_S2304x2048_S2048x2048_256_0 := by
  dsimp only [W1, hostOps0]; after_results; try rfl
theorem W1_main_v15 (c : Dev nD) : (W1 m ρ c (Proc.devRef .tc main_v15) : FVec F S2048x1024 .bf16) = truncf .bf16 (transpose S2048x1024 [1, 0] (m ((c : Thread nD τ).loc main_arg14)) transposes_S1024x2048_S2048x1024_1_0) bitsLt_bf16_f32 := by
  dsimp only [W1, hostOps0]; after_results; try rfl
theorem W1_main_v18 (c : Dev nD) : (W1 m ρ c (Proc.devRef .tc main_v18) : FVec F S512x6144 .bf16) = extractStridedSlice S512x6144 ![0, 0] (truncf .bf16 (transpose S832x6144 [1, 0] (m ((c : Thread nD τ).loc main_arg16)) transposes_S6144x832_S832x6144_1_0) bitsLt_bf16_f32) slices_S832x6144_S512x6144_0_0 := by
  dsimp only [W1, hostOps0]; after_results; try rfl
theorem W1_main_v19 (c : Dev nD) : (W1 m ρ c (Proc.devRef .tc main_v19) : FVec F S256x6144 .bf16) = extractStridedSlice S256x6144 ![512, 0] (truncf .bf16 (transpose S832x6144 [1, 0] (m ((c : Thread nD τ).loc main_arg16)) transposes_S6144x832_S832x6144_1_0) bitsLt_bf16_f32) slices_S832x6144_S256x6144_512_0 := by
  dsimp only [W1, hostOps0]; after_results; try rfl
theorem W1_main_v20 (c : Dev nD) : (W1 m ρ c (Proc.devRef .tc main_v20) : FVec F S64x6144 .bf16) = extractStridedSlice S64x6144 ![768, 0] (truncf .bf16 (transpose S832x6144 [1, 0] (m ((c : Thread nD τ).loc main_arg16)) transposes_S6144x832_S832x6144_1_0) bitsLt_bf16_f32) slices_S832x6144_S64x6144_768_0 := by
  dsimp only [W1, hostOps0]; after_results; try rfl
theorem W1_main_v22 (c : Dev nD) : (W1 m ρ c (Proc.devRef .tc main_v22) : FVec F S2048x6144 .bf16) = truncf .bf16 (transpose S2048x6144 [1, 0] (m ((c : Thread nD τ).loc main_arg17)) transposes_S6144x2048_S2048x6144_1_0) bitsLt_bf16_f32 := by
  dsimp only [W1, hostOps0]; after_results; try rfl
theorem W1_main_v23 (c : Dev nD) : (W1 m ρ c (Proc.devRef .tc main_v23) : FVec F S1x2048 .f32) = shapeCast S1x2048 (m ((c : Thread nD τ).loc main_arg5)) shapeCasts_S2048_S1x2048 := by
  dsimp only [W1, hostOps0]; after_results; try rfl
theorem W1_main_v24 (c : Dev nD) : (W1 m ρ c (Proc.devRef .tc main_v24) : FVec F S1x512 .f32) = shapeCast S1x512 (m ((c : Thread nD τ).loc main_arg7)) shapeCasts_S512_S1x512 := by
  dsimp only [W1, hostOps0]; after_results; try rfl
theorem W1_main_v25 (c : Dev nD) : (W1 m ρ c (Proc.devRef .tc main_v25) : FVec F S1x2048 .f32) = shapeCast S1x2048 (m ((c : Thread nD τ).loc main_arg9)) shapeCasts_S2048_S1x2048 := by
  dsimp only [W1, hostOps0]; after_results; try rfl
theorem W1_main_v26 (c : Dev nD) : (W1 m ρ c (Proc.devRef .tc main_v26) : FVec F S1x512 .f32) = shapeCast S1x512 (m ((c : Thread nD τ).loc main_arg11)) shapeCasts_S512_S1x512 := by
  dsimp only [W1, hostOps0]; after_results; try rfl
theorem W1_main_v27 (c : Dev nD) : (W1 m ρ c (Proc.devRef .tc main_v27) : FVec F S1x2048 .f32) = shapeCast S1x2048 (m ((c : Thread nD τ).loc main_arg13)) shapeCasts_S2048_S1x2048 := by
  dsimp only [W1, hostOps0]; after_results; try rfl
theorem W1_main_v28 (c : Dev nD) : (W1 m ρ c (Proc.devRef .tc main_v28) : FVec F S1x1024 .f32) = shapeCast S1x1024 (m ((c : Thread nD τ).loc main_arg15)) shapeCasts_S1024_S1x1024 := by
  dsimp only [W1, hostOps0]; after_results; try rfl
theorem W1_main_v29 (c : Dev nD) : (W1 m ρ c (Proc.devRef .tc main_v29) : FVec F S1x6144 .f32) = shapeCast S1x6144 (m ((c : Thread nD τ).loc main_arg18)) shapeCasts_S6144_S1x6144 := by
  dsimp only [W1, hostOps0]; after_results; try rfl
theorem W1_main_v30 (c : Dev nD) : (W1 m ρ c (Proc.devRef .tc main_v30) : FVec F S1x6144 .f32) = shapeCast S1x6144 (m ((c : Thread nD τ).loc main_arg19)) shapeCasts_S6144_S1x6144 := by
  dsimp only [W1, hostOps0]; after_results; try rfl

/-! ## Between the calls: what the fused call leaves, and the recurrent call's entry -/

/-- A buffer the fused call does not stage keeps its entry contents. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-- An input array of the fused call is not written by it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

theorem W3_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v31_0 (c : Dev nD) : W3 m ρ c (Proc.devRef .tc main_v31_0) = W2 m ρ c (Proc.devRef .tc main_v31_0) :=
  StableHlo.after_of_forall_not_mem (b := Proc.devRef .tc main_v31_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v31_1 (c : Dev nD) : W3 m ρ c (Proc.devRef .tc main_v31_1) = W2 m ρ c (Proc.devRef .tc main_v31_1) :=
  StableHlo.after_of_forall_not_mem (b := Proc.devRef .tc main_v31_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v31_2 (c : Dev nD) : W3 m ρ c (Proc.devRef .tc main_v31_2) = W2 m ρ c (Proc.devRef .tc main_v31_2) :=
  StableHlo.after_of_forall_not_mem (b := Proc.devRef .tc main_v31_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v18 (c : Dev nD) : W3 m ρ c (Proc.devRef .tc main_v18) = W2 m ρ c (Proc.devRef .tc main_v18) :=
  StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v19 (c : Dev nD) : W3 m ρ c (Proc.devRef .tc main_v19) = W2 m ρ c (Proc.devRef .tc main_v19) :=
  StableHlo.after_of_forall_not_mem (b := Proc.devRef .tc main_v19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v20 (c : Dev nD) : W3 m ρ c (Proc.devRef .tc main_v20) = W2 m ρ c (Proc.devRef .tc main_v20) :=
  StableHlo.after_of_forall_not_mem (b := Proc.devRef .tc main_v20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v22 (c : Dev nD) : W3 m ρ c (Proc.devRef .tc main_v22) = W2 m ρ c (Proc.devRef .tc main_v22) :=
  StableHlo.after_of_forall_not_mem (b := Proc.devRef .tc main_v22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v29 (c : Dev nD) : W3 m ρ c (Proc.devRef .tc main_v29) = W2 m ρ c (Proc.devRef .tc main_v29) :=
  StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v30 (c : Dev nD) : W3 m ρ c (Proc.devRef .tc main_v30) = W2 m ρ c (Proc.devRef .tc main_v30) :=
  StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v32 (c : Dev nD) : (W3 m ρ c (Proc.devRef .tc main_v32) : FVec F S4096 .f32) = shapeCast S4096 (W2 m ρ c (Proc.devRef .tc main_v31_3)) shapeCasts_S1x4096_S4096 := by
  dsimp only [W3, hostOps1]; after_results; try rfl
theorem W3_main_v33 (c : Dev nD) : (W3 m ρ c (Proc.devRef .tc main_v33) : FVec F S4096 .f32) = shapeCast S4096 (W2 m ρ c (Proc.devRef .tc main_v31_4)) shapeCasts_S1x4096_S4096 := by
  dsimp only [W3, hostOps1]; after_results; try rfl

/-! ## At the end -/

theorem W4_keep (c : Dev nD) (b : Ref sig .tc) (hb : ∀ w, Pipeline.arrRef spec1 w ≠ b) :
    W4 m ρ c (Proc.devRef .tc b) = W3 m ρ c (Proc.devRef .tc b) := W4_of_ne m ρ c b hb

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- The new state is the recurrent call's output array. -/
theorem W4_h (c : Dev nD) : W4 m ρ c (Proc.devRef .tc main_v34) = (dat1 (V3 m ρ) c).arrAt 10 cfg1.N := W4_arr m ρ c 10

/-- The sampled latent is the fused call's first output array (the recurrent call reads it and leaves it). -/
theorem W4_z (c : Dev nD) : W4 m ρ c (Proc.devRef .tc main_v31_0) = (dat0 (V1 m ρ) c).arrAt 17 cfg0.N :=
  ((W4_in m ρ c 1 rfl).trans (W3_main_v31_0 m ρ c)).trans (W2_arr m ρ c 17)

theorem W4_muq (c : Dev nD) : W4 m ρ c (Proc.devRef .tc main_v31_1) = (dat0 (V1 m ρ) c).arrAt 18 cfg0.N :=
  ((W4_keep m ρ c main_v31_1 (by decide)).trans (W3_main_v31_1 m ρ c)).trans (W2_arr m ρ c 18)

theorem W4_lvq (c : Dev nD) : W4 m ρ c (Proc.devRef .tc main_v31_2) = (dat0 (V1 m ρ) c).arrAt 19 cfg0.N :=
  ((W4_keep m ρ c main_v31_2 (by decide)).trans (W3_main_v31_2 m ρ c)).trans (W2_arr m ρ c 19)

/-- The KL vector is the fused call's fourth output array, a row, re-laid as a vector. -/
theorem W4_kl (c : Dev nD) : (W4 m ρ c (Proc.devRef .tc main_v32) : FVec F S4096 .f32)
    = shapeCast S4096 ((dat0 (V1 m ρ) c).arrAt 20 cfg0.N) shapeCasts_S1x4096_S4096 :=
  ((W4_keep m ρ c main_v32 (by decide)).trans (W3_main_v32 m ρ c)).trans (by rw [W2_arr m ρ c 20])

theorem W4_nll (c : Dev nD) : (W4 m ρ c (Proc.devRef .tc main_v33) : FVec F S4096 .f32)
    = shapeCast S4096 ((dat0 (V1 m ρ) c).arrAt 21 cfg0.N) shapeCasts_S1x4096_S4096 :=
  ((W4_keep m ρ c main_v33 (by decide)).trans (W3_main_v33 m ρ c)).trans (by rw [W2_arr m ρ c 21])

end Cert.KernelIdeal.KV

end
-- ==== Proof.EntryDefs.lean ====
/-
  What each call must find in its arrays for its blocks to be rows and transposed slices of the whole arrays: the
  activations themselves, each weight matrix transposed (and cut along its input axis where the reference
  concatenates inputs), each bias as one row.
-/
import proofs.«141820_j69552700391572_2_alg».proof.KernelIdeal
import Idealize.ShloMosaic.Lib.ValueIdx
import Idealize.ShloMosaic.PureOps.Ideal

noncomputable section

namespace Cert.KernelIdeal.KV

open Cert.KernelIdeal Idealize.ShloMosaic Idealize.ShloMosaic.TcCoe Idealize.SL.Sem Idealize.ShloMosaic.ValueIdx

/-- The fused call's seventeen input arrays, as the arguments `a0 … a15` (the action `a1` is not read by it). -/
structure Entry0 (V : (c : Dev nD) → (b : Ref sig .tc) → Buf (Elt Ideal) ((c : Thread nD τ).loc b)) (c : Dev nD)
    (a0 : (⟨S4096x512, .f32⟩ : BufTy).Contents (Elt Ideal)) (a2 : (⟨S4096x2048, .f32⟩ : BufTy).Contents (Elt Ideal)) (a3 : (⟨S4096x256, .f32⟩ : BufTy).Contents (Elt Ideal))
    (a4 : (⟨S2048x2048, .f32⟩ : BufTy).Contents (Elt Ideal)) (a5 : (⟨S2048, .f32⟩ : BufTy).Contents (Elt Ideal)) (a6 : (⟨S512x2048, .f32⟩ : BufTy).Contents (Elt Ideal)) (a7 : (⟨S512, .f32⟩ : BufTy).Contents (Elt Ideal))
    (a8 : (⟨S2048x2560, .f32⟩ : BufTy).Contents (Elt Ideal)) (a9 : (⟨S2048, .f32⟩ : BufTy).Contents (Elt Ideal)) (a10 : (⟨S512x2048, .f32⟩ : BufTy).Contents (Elt Ideal)) (a11 : (⟨S512, .f32⟩ : BufTy).Contents (Elt Ideal))
    (a12 : (⟨S2048x2304, .f32⟩ : BufTy).Contents (Elt Ideal)) (a13 : (⟨S2048, .f32⟩ : BufTy).Contents (Elt Ideal)) (a14 : (⟨S1024x2048, .f32⟩ : BufTy).Contents (Elt Ideal)) (a15 : (⟨S1024, .f32⟩ : BufTy).Contents (Elt Ideal)) : Prop where
  e0 : V c main_arg0 = a0
  e1 : V c main_arg2 = a2
  e2 : V c main_arg3 = a3
  e3 : ∀ (k : Fin 2048) (n : Fin 2048), V c main_v1 (ix2 k n) = a4 (ix2 n k)
  e4 : ∀ n : Fin 2048, V c main_v23 (ix2 (0 : Fin 1) n) = a5 (ix1 n)
  e5 : ∀ (k : Fin 2048) (n : Fin 512), V c main_v3 (ix2 k n) = a6 (ix2 n k)
  e6 : ∀ n : Fin 512, V c main_v24 (ix2 (0 : Fin 1) n) = a7 (ix1 n)
  e7 : ∀ (k : Fin 512) (n : Fin 2048), V c main_v6 (ix2 k n) = a8 (ix2 n (⟨k.val, by omega⟩ : Fin 2560))
  e8 : ∀ (k : Fin 2048) (n : Fin 2048), V c main_v7 (ix2 k n) = a8 (ix2 n (⟨512 + k.val, by omega⟩ : Fin 2560))
  e9 : ∀ n : Fin 2048, V c main_v25 (ix2 (0 : Fin 1) n) = a9 (ix1 n)
  e10 : ∀ (k : Fin 2048) (n : Fin 512), V c main_v9 (ix2 k n) = a10 (ix2 n k)
  e11 : ∀ n : Fin 512, V c main_v26 (ix2 (0 : Fin 1) n) = a11 (ix1 n)
  e12 : ∀ (k : Fin 256) (n : Fin 2048), V c main_v12 (ix2 k n) = a12 (ix2 n (⟨k.val, by omega⟩ : Fin 2304))
  e13 : ∀ (k : Fin 2048) (n : Fin 2048), V c main_v13 (ix2 k n) = a12 (ix2 n (⟨256 + k.val, by omega⟩ : Fin 2304))
  e14 : ∀ n : Fin 2048, V c main_v27 (ix2 (0 : Fin 1) n) = a13 (ix1 n)
  e15 : ∀ (k : Fin 2048) (n : Fin 1024), V c main_v15 (ix2 k n) = a14 (ix2 n k)
  e16 : ∀ n : Fin 1024, V c main_v28 (ix2 (0 : Fin 1) n) = a15 (ix1 n)

/-- The recurrent call's ten input arrays, as the arguments and the latent `zt` the fused call left. -/
structure Entry1 (V : (c : Dev nD) → (b : Ref sig .tc) → Buf (Elt Ideal) ((c : Thread nD τ).loc b)) (c : Dev nD)
    (a0 : (⟨S4096x512, .f32⟩ : BufTy).Contents (Elt Ideal)) (a1 : (⟨S4096x64, .f32⟩ : BufTy).Contents (Elt Ideal)) (a2 : (⟨S4096x2048, .f32⟩ : BufTy).Contents (Elt Ideal)) (zt : (⟨S4096x256, .f32⟩ : BufTy).Contents (Elt Ideal))
    (a16 : (⟨S6144x832, .f32⟩ : BufTy).Contents (Elt Ideal)) (a17 : (⟨S6144x2048, .f32⟩ : BufTy).Contents (Elt Ideal)) (a18 : (⟨S6144, .f32⟩ : BufTy).Contents (Elt Ideal)) (a19 : (⟨S6144, .f32⟩ : BufTy).Contents (Elt Ideal)) : Prop where
  e0 : V c main_arg0 = a0
  e1 : V c main_v31_0 = zt
  e2 : V c main_arg1 = a1
  e3 : V c main_arg2 = a2
  e4 : ∀ (k : Fin 512) (n : Fin 6144), V c main_v18 (ix2 k n) = a16 (ix2 n (⟨k.val, by omega⟩ : Fin 832))
  e5 : ∀ (k : Fin 256) (n : Fin 6144), V c main_v19 (ix2 k n) = a16 (ix2 n (⟨512 + k.val, by omega⟩ : Fin 832))
  e6 : ∀ (k : Fin 64) (n : Fin 6144), V c main_v20 (ix2 k n) = a16 (ix2 n (⟨768 + k.val, by omega⟩ : Fin 832))
  e7 : ∀ n : Fin 6144, V c main_v29 (ix2 (0 : Fin 1) n) = a18 (ix1 n)
  e8 : ∀ (k : Fin 2048) (n : Fin 6144), V c main_v22 (ix2 k n) = a17 (ix2 n k)
  e9 : ∀ n : Fin 6144, V c main_v30 (ix2 (0 : Fin 1) n) = a19 (ix1 n)

end Cert.KernelIdeal.KV

end
-- ==== Proof.Entry.lean ====
/-
  The two calls find what they need: the host operations before each call re-lay the arguments exactly so.
-/
import proofs.«141820_j69552700391572_2_alg».proof.Proof.KRead
import proofs.«141820_j69552700391572_2_alg».proof.Proof.EntryDefs
import Idealize.ShloMosaic.Lib.ValueLayout
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx

/-- A transposed matrix, its format changed, read at `(j, i)`: the matrix at `(i, j)`. -/
theorem tr_at {a b : ℕ} (x : FVec Ideal ⟨2, ![a, b]⟩ .f32) (h : (⟨2, ![a, b]⟩ : Shape).Transposes [1, 0] ⟨2, ![b, a]⟩)
    (hb : FTy.bits .bf16 < FTy.bits .f32) (j : Fin b) (i : Fin a) :
    (truncf .bf16 (transpose ⟨2, ![b, a]⟩ [1, 0] x h) hb : FVec Ideal ⟨2, ![b, a]⟩ .bf16) (ix2 j i) = x (ix2 i j) :=
  transpose_ix2_apply x h j i

/-- Rows `o … o + r - 1` of a transposed matrix, its format changed, read at `(k, n)`: the matrix at `(n, o + k)`. -/
theorem tr_cut_at {a b r : ℕ} (o : ℕ) (x : FVec Ideal ⟨2, ![a, b]⟩ .f32)
    (h : (⟨2, ![a, b]⟩ : Shape).Transposes [1, 0] ⟨2, ![b, a]⟩) (hb : FTy.bits .bf16 < FTy.bits .f32)
    (hs : (⟨2, ![b, a]⟩ : Shape).Slices ![o, 0] ⟨2, ![r, a]⟩) (k : Fin r) (n : Fin a) (k' : Fin b) (hk : k'.val = o + k.val) :
    extractStridedSlice ⟨2, ![r, a]⟩ ![o, 0]
      (truncf .bf16 (transpose ⟨2, ![b, a]⟩ [1, 0] x h) hb : FVec Ideal ⟨2, ![b, a]⟩ .bf16) hs (ix2 k n) = x (ix2 n k') :=
  (slice2_axis0_apply o _ hs k n k' hk).trans (transpose_ix2_apply x h k' n)

/-- A vector as one row, read at `(0, n)`: the vector at `n`. -/
theorem row_at {a : ℕ} (x : FVec Ideal ⟨1, ![a]⟩ .f32) (h : (⟨1, ![a]⟩ : Shape).ShapeCasts ⟨2, ![1, a]⟩) (n : Fin a) :
    shapeCast ⟨2, ![1, a]⟩ x h (ix2 (0 : Fin 1) n) = x (ix1 n) :=
  shapeCast_a_1a_apply x h 0 n

variable (m : (ℓ : Loc nD τ sig) → Buf (Elt Ideal) ℓ) (ρ : Dev nD → PrngReg)

/-- At the fused call's entry its arrays are the arguments, re-laid. -/
theorem entry0 (c : Dev nD) : Entry0 (V1 m ρ) c (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  exact
    { e0 := W1_main_arg0 m ρ c
      e1 := W1_main_arg2 m ρ c
      e2 := W1_main_arg3 m ρ c
      e3 := fun k n => (congrFun (W1_main_v1 m ρ c) (ix2 k n)).trans (tr_at _ _ _ k n)
      e4 := fun n => (congrFun (W1_main_v23 m ρ c) (ix2 (0 : Fin 1) n)).trans (row_at _ _ n)
      e5 := fun k n => (congrFun (W1_main_v3 m ρ c) (ix2 k n)).trans (tr_at _ _ _ k n)
      e6 := fun n => (congrFun (W1_main_v24 m ρ c) (ix2 (0 : Fin 1) n)).trans (row_at _ _ n)
      e7 := fun k n => (congrFun (W1_main_v6 m ρ c) (ix2 k n)).trans (tr_cut_at 0 _ _ _ _ k n _ (Nat.zero_add _).symm)
      e8 := fun k n => (congrFun (W1_main_v7 m ρ c) (ix2 k n)).trans (tr_cut_at 512 _ _ _ _ k n _ rfl)
      e9 := fun n => (congrFun (W1_main_v25 m ρ c) (ix2 (0 : Fin 1) n)).trans (row_at _ _ n)
      e10 := fun k n => (congrFun (W1_main_v9 m ρ c) (ix2 k n)).trans (tr_at _ _ _ k n)
      e11 := fun n => (congrFun (W1_main_v26 m ρ c) (ix2 (0 : Fin 1) n)).trans (row_at _ _ n)
      e12 := fun k n => (congrFun (W1_main_v12 m ρ c) (ix2 k n)).trans (tr_cut_at 0 _ _ _ _ k n _ (Nat.zero_add _).symm)
      e13 := fun k n => (congrFun (W1_main_v13 m ρ c) (ix2 k n)).trans (tr_cut_at 256 _ _ _ _ k n _ rfl)
      e14 := fun n => (congrFun (W1_main_v27 m ρ c) (ix2 (0 : Fin 1) n)).trans (row_at _ _ n)
      e15 := fun k n => (congrFun (W1_main_v15 m ρ c) (ix2 k n)).trans (tr_at _ _ _ k n)
      e16 := fun n => (congrFun (W1_main_v28 m ρ c) (ix2 (0 : Fin 1) n)).trans (row_at _ _ n) }

/-- At the recurrent call's entry its arrays are the arguments, re-laid, and the latent the fused call wrote. -/
theorem entry1 (c : Dev nD) : Entry1 (V3 m ρ) c (m ((c : Thread nD τ).loc main_arg0)) (m ((c : Thread nD τ).loc main_arg1)) (m ((c : Thread nD τ).loc main_arg2)) ((dat0 (V1 m ρ) c).arrAt 17 cfg0.N) (m ((c : Thread nD τ).loc main_arg16)) (m ((c : Thread nD τ).loc main_arg17)) (m ((c : Thread nD τ).loc main_arg18)) (m ((c : Thread nD τ).loc main_arg19)) := by
  exact
    { e0 := ((W3_main_arg0 m ρ c).trans (W2_in m ρ c 0 rfl)).trans (W1_main_arg0 m ρ c)
      e1 := (W3_main_v31_0 m ρ c).trans (W2_arr m ρ c 17)
      e2 := ((W3_main_arg1 m ρ c).trans (W2_keep m ρ c main_arg1 (by decide))).trans (W1_main_arg1 m ρ c)
      e3 := ((W3_main_arg2 m ρ c).trans (W2_in m ρ c 1 rfl)).trans (W1_main_arg2 m ρ c)
      e4 := fun k n => (congrFun (((W3_main_v18 m ρ c).trans (W2_keep m ρ c main_v18 (by decide))).trans (W1_main_v18 m ρ c)) (ix2 k n)).trans (tr_cut_at 0 _ _ _ _ k n _ (Nat.zero_add _).symm)
      e5 := fun k n => (congrFun (((W3_main_v19 m ρ c).trans (W2_keep m ρ c main_v19 (by decide))).trans (W1_main_v19 m ρ c)) (ix2 k n)).trans (tr_cut_at 512 _ _ _ _ k n _ rfl)
      e6 := fun k n => (congrFun (((W3_main_v20 m ρ c).trans (W2_keep m ρ c main_v20 (by decide))).trans (W1_main_v20 m ρ c)) (ix2 k n)).trans (tr_cut_at 768 _ _ _ _ k n _ rfl)
      e7 := fun n => (congrFun (((W3_main_v29 m ρ c).trans (W2_keep m ρ c main_v29 (by decide))).trans (W1_main_v29 m ρ c)) (ix2 (0 : Fin 1) n)).trans (row_at _ _ n)
      e8 := fun k n => (congrFun (((W3_main_v22 m ρ c).trans (W2_keep m ρ c main_v22 (by decide))).trans (W1_main_v22 m ρ c)) (ix2 k n)).trans (tr_at _ _ _ k n)
      e9 := fun n => (congrFun (((W3_main_v30 m ρ c).trans (W2_keep m ρ c main_v30 (by decide))).trans (W1_main_v30 m ρ c)) (ix2 (0 : Fin 1) n)).trans (row_at _ _ n) }

end Cert.KernelIdeal.KV

end
-- ==== Proof.Rows.lean ====
/-
  The row of the whole [4096, n] arrays that row `p` of a row block stands for: the fused call cuts the 4096 rows
  into 16 blocks of 256, the recurrent call into 32 blocks of 128.
-/

namespace Cert.Bridge

/-- Row `p` of the `t`-th block of 256 rows. -/
abbrev row256 (t : Fin 16) (p : Fin 256) : Fin 4096 := ⟨256 * t.val + p.val, by omega⟩

/-- Row `p` of the `t`-th block of 128 rows. -/
abbrev row128 (t : Fin 32) (p : Fin 128) : Fin 4096 := ⟨128 * t.val + p.val, by omega⟩

end Cert.Bridge
-- ==== Proof.Blocks0.lean ====
/-
  The fused call's windows as rows of their arrays, whatever the arrays hold when the call is entered (`V`). Its grid
  is 16 points; point `t` stages rows `256 t … 256 t + 255` of the observation, the state and the noise, every weight
  matrix and bias row whole, and writes back rows `256 t …` of the latent, the posterior mean and log-variance and
  columns `256 t …` of the two loss rows. Every index of an output array lies in the block of the point `row / 256`.
-/
import proofs.«141820_j69552700391572_2_alg».proof.Proof.Gen.KernelIdeal.Frame
import proofs.«141820_j69552700391572_2_alg».proof.Proof.Rows
import Idealize.ShloMosaic.Lib.Pipeline.Value
import Idealize.ShloMosaic.Lib.ValueIdx

set_option maxRecDepth 16384

noncomputable section

namespace Cert.KernelIdeal.R0

open Cert.KernelIdeal Cert.KernelIdeal.Gen Cert.Bridge
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- A grid point of this call as a literal index. -/
def tt (t : Fin cfg0.N) : Fin 16 := ⟨t.val, by have h : t.val < grid0.N := t.isLt; have := N_0; omega⟩

theorem hz2 : (![0, 0] : Fin 2 → Nat) = fun _ => 0 := funext fun a => by fin_cases a <;> rfl

/-! ## The printed index maps, decided over the grid -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = t.val ∧ win0_17.index t (1 : Fin 2) = 0 :=
  (by decide +kernel : ∀ t : Fin grid0.N, _)
theorem idx_18 : ∀ t : Fin cfg0.N, win0_18.index t (0 : Fin 2) = t.val ∧ win0_18.index t (1 : Fin 2) = 0 :=
  (by decide +kernel : ∀ t : Fin grid0.N, _)
theorem idx_19 : ∀ t : Fin cfg0.N, win0_19.index t (0 : Fin 2) = t.val ∧ win0_19.index t (1 : Fin 2) = 0 :=
  (by decide +kernel : ∀ t : Fin grid0.N, _)
theorem idx_20 : ∀ t : Fin cfg0.N, win0_20.index t (0 : Fin 2) = 0 ∧ win0_20.index t (1 : Fin 2) = t.val :=
  (by decide +kernel : ∀ t : Fin grid0.N, _)
theorem idx_21 : ∀ t : Fin cfg0.N, win0_21.index t (0 : Fin 2) = 0 ∧ win0_21.index t (1 : Fin 2) = t.val :=
  (by decide +kernel : ∀ t : Fin grid0.N, _)

/-! ## An input window's block, read as rows of its array -/

theorem rd_0 (c : Dev nD) (t : Fin cfg0.N) (p : Fin 256) (k : Fin 512) :
    iblk0 V c 0 t (ix2 p k) = V c main_arg0 (ix2 (row256 (tt t) p) k) := by
  obtain ⟨e0, e1⟩ := idx_0 t
  show V c main_arg0 (((cfg0.win 0).blk t).view.emb (ix2 p k)) = _
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 512 + 1 * k.val = k.val; omega
theorem rd_1 (c : Dev nD) (t : Fin cfg0.N) (p : Fin 256) (k : Fin 2048) :
    iblk0 V c 1 t (ix2 p k) = V c main_arg2 (ix2 (row256 (tt t) p) k) := by
  obtain ⟨e0, e1⟩ := idx_1 t
  show V c main_arg2 (((cfg0.win 1).blk t).view.emb (ix2 p k)) = _
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 2048 + 1 * k.val = k.val; omega
theorem rd_2 (c : Dev nD) (t : Fin cfg0.N) (p : Fin 256) (k : Fin 256) :
    iblk0 V c 2 t (ix2 p k) = V c main_arg3 (ix2 (row256 (tt t) p) k) := by
  obtain ⟨e0, e1⟩ := idx_2 t
  show V c main_arg3 (((cfg0.win 2).blk t).view.emb (ix2 p k)) = _
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 256 + 1 * k.val = k.val; omega
theorem rd_3 (c : Dev nD) (t : Fin cfg0.N) (p : Fin 2048) (k : Fin 2048) :
    iblk0 V c 3 t (ix2 p k) = V c main_v1 (ix2 p k) := by
  obtain ⟨e0, e1⟩ := idx_3 t
  show V c main_v1 (((cfg0.win 3).blk t).view.emb (ix2 p k)) = _
  refine congrArg _ (funext fun a => Fin.ext ?_)
  match a with
  | ⟨0, _⟩ => show win0_3.index t (0 : Fin 2) * 2048 + 1 * p.val = p.val; omega
  | ⟨1, _⟩ => show win0_3.index t (1 : Fin 2) * 2048 + 1 * k.val = k.val; omega
theorem rd_4 (c : Dev nD) (t : Fin cfg0.N) (p : Fin 1) (k : Fin 2048) :
    iblk0 V c 4 t (ix2 p k) = V c main_v23 (ix2 p k) := by
  obtain ⟨e0, e1⟩ := idx_4 t
  show V c main_v23 (((cfg0.win 4).blk t).view.emb (ix2 p k)) = _
  refine congrArg _ (funext fun a => Fin.ext ?_)
  match a with
  | ⟨0, _⟩ => show win0_4.index t (0 : Fin 2) * 1 + 1 * p.val = p.val; omega
  | ⟨1, _⟩ => show win0_4.index t (1 : Fin 2) * 2048 + 1 * k.val = k.val; omega
theorem rd_5 (c : Dev nD) (t : Fin cfg0.N) (p : Fin 2048) (k : Fin 512) :
    iblk0 V c 5 t (ix2 p k) = V c main_v3 (ix2 p k) := by
  obtain ⟨e0, e1⟩ := idx_5 t
  show V c main_v3 (((cfg0.win 5).blk t).view.emb (ix2 p k)) = _
  refine congrArg _ (funext fun a => Fin.ext ?_)
  match a with
  | ⟨0, _⟩ => show win0_5.index t (0 : Fin 2) * 2048 + 1 * p.val = p.val; omega
  | ⟨1, _⟩ => show win0_5.index t (1 : Fin 2) * 512 + 1 * k.val = k.val; omega
theorem rd_6 (c : Dev nD) (t : Fin cfg0.N) (p : Fin 1) (k : Fin 512) :
    iblk0 V c 6 t (ix2 p k) = V c main_v24 (ix2 p k) := by
  obtain ⟨e0, e1⟩ := idx_6 t
  show V c main_v24 (((cfg0.win 6).blk t).view.emb (ix2 p k)) = _
  refine congrArg _ (funext fun a => Fin.ext ?_)
  match a with
  | ⟨0, _⟩ => show win0_6.index t (0 : Fin 2) * 1 + 1 * p.val = p.val; omega
  | ⟨1, _⟩ => show win0_6.index t (1 : Fin 2) * 512 + 1 * k.val = k.val; omega
theorem rd_7 (c : Dev nD) (t : Fin cfg0.N) (p : Fin 512) (k : Fin 2048) :
    iblk0 V c 7 t (ix2 p k) = V c main_v6 (ix2 p k) := by
  obtain ⟨e0, e1⟩ := idx_7 t
  show V c main_v6 (((cfg0.win 7).blk t).view.emb (ix2 p k)) = _
  refine congrArg _ (funext fun a => Fin.ext ?_)
  match a with
  | ⟨0, _⟩ => show win0_7.index t (0 : Fin 2) * 512 + 1 * p.val = p.val; omega
  | ⟨1, _⟩ => show win0_7.index t (1 : Fin 2) * 2048 + 1 * k.val = k.val; omega
theorem rd_8 (c : Dev nD) (t : Fin cfg0.N) (p : Fin 2048) (k : Fin 2048) :
    iblk0 V c 8 t (ix2 p k) = V c main_v7 (ix2 p k) := by
  obtain ⟨e0, e1⟩ := idx_8 t
  show V c main_v7 (((cfg0.win 8).blk t).view.emb (ix2 p k)) = _
  refine congrArg _ (funext fun a => Fin.ext ?_)
  match a with
  | ⟨0, _⟩ => show win0_8.index t (0 : Fin 2) * 2048 + 1 * p.val = p.val; omega
  | ⟨1, _⟩ => show win0_8.index t (1 : Fin 2) * 2048 + 1 * k.val = k.val; omega
theorem rd_9 (c : Dev nD) (t : Fin cfg0.N) (p : Fin 1) (k : Fin 2048) :
    iblk0 V c 9 t (ix2 p k) = V c main_v25 (ix2 p k) := by
  obtain ⟨e0, e1⟩ := idx_9 t
  show V c main_v25 (((cfg0.win 9).blk t).view.emb (ix2 p k)) = _
  refine congrArg _ (funext fun a => Fin.ext ?_)
  match a with
  | ⟨0, _⟩ => show win0_9.index t (0 : Fin 2) * 1 + 1 * p.val = p.val; omega
  | ⟨1, _⟩ => show win0_9.index t (1 : Fin 2) * 2048 + 1 * k.val = k.val; omega
theorem rd_10 (c : Dev nD) (t : Fin cfg0.N) (p : Fin 2048) (k : Fin 512) :
    iblk0 V c 10 t (ix2 p k) = V c main_v9 (ix2 p k) := by
  obtain ⟨e0, e1⟩ := idx_10 t
  show V c main_v9 (((cfg0.win 10).blk t).view.emb (ix2 p k)) = _
  refine congrArg _ (funext fun a => Fin.ext ?_)
  match a with
  | ⟨0, _⟩ => show win0_10.index t (0 : Fin 2) * 2048 + 1 * p.val = p.val; omega
  | ⟨1, _⟩ => show win0_10.index t (1 : Fin 2) * 512 + 1 * k.val = k.val; omega
theorem rd_11 (c : Dev nD) (t : Fin cfg0.N) (p : Fin 1) (k : Fin 512) :
    iblk0 V c 11 t (ix2 p k) = V c main_v26 (ix2 p k) := by
  obtain ⟨e0, e1⟩ := idx_11 t
  show V c main_v26 (((cfg0.win 11).blk t).view.emb (ix2 p k)) = _
  refine congrArg _ (funext fun a => Fin.ext ?_)
  match a with
  | ⟨0, _⟩ => show win0_11.index t (0 : Fin 2) * 1 + 1 * p.val = p.val; omega
  | ⟨1, _⟩ => show win0_11.index t (1 : Fin 2) * 512 + 1 * k.val = k.val; omega
theorem rd_12 (c : Dev nD) (t : Fin cfg0.N) (p : Fin 256) (k : Fin 2048) :
    iblk0 V c 12 t (ix2 p k) = V c main_v12 (ix2 p k) := by
  obtain ⟨e0, e1⟩ := idx_12 t
  show V c main_v12 (((cfg0.win 12).blk t).view.emb (ix2 p k)) = _
  refine congrArg _ (funext fun a => Fin.ext ?_)
  match a with
  | ⟨0, _⟩ => show win0_12.index t (0 : Fin 2) * 256 + 1 * p.val = p.val; omega
  | ⟨1, _⟩ => show win0_12.index t (1 : Fin 2) * 2048 + 1 * k.val = k.val; omega
theorem rd_13 (c : Dev nD) (t : Fin cfg0.N) (p : Fin 2048) (k : Fin 2048) :
    iblk0 V c 13 t (ix2 p k) = V c main_v13 (ix2 p k) := by
  obtain ⟨e0, e1⟩ := idx_13 t
  show V c main_v13 (((cfg0.win 13).blk t).view.emb (ix2 p k)) = _
  refine congrArg _ (funext fun a => Fin.ext ?_)
  match a with
  | ⟨0, _⟩ => show win0_13.index t (0 : Fin 2) * 2048 + 1 * p.val = p.val; omega
  | ⟨1, _⟩ => show win0_13.index t (1 : Fin 2) * 2048 + 1 * k.val = k.val; omega
theorem rd_14 (c : Dev nD) (t : Fin cfg0.N) (p : Fin 1) (k : Fin 2048) :
    iblk0 V c 14 t (ix2 p k) = V c main_v27 (ix2 p k) := by
  obtain ⟨e0, e1⟩ := idx_14 t
  show V c main_v27 (((cfg0.win 14).blk t).view.emb (ix2 p k)) = _
  refine congrArg _ (funext fun a => Fin.ext ?_)
  match a with
  | ⟨0, _⟩ => show win0_14.index t (0 : Fin 2) * 1 + 1 * p.val = p.val; omega
  | ⟨1, _⟩ => show win0_14.index t (1 : Fin 2) * 2048 + 1 * k.val = k.val; omega
theorem rd_15 (c : Dev nD) (t : Fin cfg0.N) (p : Fin 2048) (k : Fin 1024) :
    iblk0 V c 15 t (ix2 p k) = V c main_v15 (ix2 p k) := by
  obtain ⟨e0, e1⟩ := idx_15 t
  show V c main_v15 (((cfg0.win 15).blk t).view.emb (ix2 p k)) = _
  refine congrArg _ (funext fun a => Fin.ext ?_)
  match a with
  | ⟨0, _⟩ => show win0_15.index t (0 : Fin 2) * 2048 + 1 * p.val = p.val; omega
  | ⟨1, _⟩ => show win0_15.index t (1 : Fin 2) * 1024 + 1 * k.val = k.val; omega
theorem rd_16 (c : Dev nD) (t : Fin cfg0.N) (p : Fin 1) (k : Fin 1024) :
    iblk0 V c 16 t (ix2 p k) = V c main_v28 (ix2 p k) := by
  obtain ⟨e0, e1⟩ := idx_16 t
  show V c main_v28 (((cfg0.win 16).blk t).view.emb (ix2 p k)) = _
  refine congrArg _ (funext fun a => Fin.ext ?_)
  match a with
  | ⟨0, _⟩ => show win0_16.index t (0 : Fin 2) * 1 + 1 * p.val = p.val; omega
  | ⟨1, _⟩ => show win0_16.index t (1 : Fin 2) * 1024 + 1 * k.val = k.val; omega

/-! ## Where an output window's block lands, and the cover -/

theorem emb_17 (t : Fin cfg0.N) (p : Fin 256) (k : Fin 256) :
    ((cfg0.win 17).blk t).view.emb (ix2 p k) = ix2 (row256 (tt t) p) k := by
  obtain ⟨e0, e1⟩ := idx_17 t
  refine funext fun a => Fin.ext ?_
  match a with
  | ⟨0, _⟩ => show win0_17.index t (0 : Fin 2) * 256 + 1 * p.val = 256 * t.val + p.val; omega
  | ⟨1, _⟩ => show win0_17.index t (1 : Fin 2) * 256 + 1 * k.val = k.val; omega

theorem mem_blk_17 (t : Fin cfg0.N) (i : S4096x256.Idx) :
    i ∈ ((cfg0.win 17).blk t).view.set ↔ ∀ a : Fin 2, win0_17.index t a * S256x256.size a ≤ (i a).val ∧ (i a).val < win0_17.index t a * S256x256.size a + S256x256.size a := by
  show i ∈ ((View.whole main_v31_0).slice (win0_17.rect t)).set ↔ _
  rw [View.set_slice_whole, Rect.mem_set_unit]
  exact Iff.rfl

theorem cover_17 (i : S4096x256.Idx) : ∃ t : Fin cfg0.N, (cfg0.win 17).flush t = true ∧ i ∈ ((cfg0.win 17).blk t).view.set := by
  have hi0 : (i 0).val < 4096 := (i 0).isLt
  have hi1 : (i 1).val < 256 := (i 1).isLt
  have hN : grid0.N = 16 := N_0
  let t : Fin cfg0.N := ⟨(i 0).val / 256, by show _ < grid0.N; omega⟩
  have ht : t.val = (i 0).val / 256 := rfl
  obtain ⟨e0, e1⟩ := idx_17 t
  refine ⟨t, flush0_17 t, ?_⟩
  rw [mem_blk_17]
  intro a
  match a with
  | ⟨0, _⟩ => show win0_17.index t (0 : Fin 2) * 256 ≤ (i 0).val ∧ (i 0).val < win0_17.index t (0 : Fin 2) * 256 + 256; omega
  | ⟨1, _⟩ => show win0_17.index t (1 : Fin 2) * 256 ≤ (i 1).val ∧ (i 1).val < win0_17.index t (1 : Fin 2) * 256 + 256; omega

theorem emb_18 (t : Fin cfg0.N) (p : Fin 256) (k : Fin 256) :
    ((cfg0.win 18).blk t).view.emb (ix2 p k) = ix2 (row256 (tt t) p) k := by
  obtain ⟨e0, e1⟩ := idx_18 t
  refine funext fun a => Fin.ext ?_
  match a with
  | ⟨0, _⟩ => show win0_18.index t (0 : Fin 2) * 256 + 1 * p.val = 256 * t.val + p.val; omega
  | ⟨1, _⟩ => show win0_18.index t (1 : Fin 2) * 256 + 1 * k.val = k.val; omega

theorem mem_blk_18 (t : Fin cfg0.N) (i : S4096x256.Idx) :
    i ∈ ((cfg0.win 18).blk t).view.set ↔ ∀ a : Fin 2, win0_18.index t a * S256x256.size a ≤ (i a).val ∧ (i a).val < win0_18.index t a * S256x256.size a + S256x256.size a := by
  show i ∈ ((View.whole main_v31_1).slice (win0_18.rect t)).set ↔ _
  rw [View.set_slice_whole, Rect.mem_set_unit]
  exact Iff.rfl

theorem cover_18 (i : S4096x256.Idx) : ∃ t : Fin cfg0.N, (cfg0.win 18).flush t = true ∧ i ∈ ((cfg0.win 18).blk t).view.set := by
  have hi0 : (i 0).val < 4096 := (i 0).isLt
  have hi1 : (i 1).val < 256 := (i 1).isLt
  have hN : grid0.N = 16 := N_0
  let t : Fin cfg0.N := ⟨(i 0).val / 256, by show _ < grid0.N; omega⟩
  have ht : t.val = (i 0).val / 256 := rfl
  obtain ⟨e0, e1⟩ := idx_18 t
  refine ⟨t, flush0_18 t, ?_⟩
  rw [mem_blk_18]
  intro a
  match a with
  | ⟨0, _⟩ => show win0_18.index t (0 : Fin 2) * 256 ≤ (i 0).val ∧ (i 0).val < win0_18.index t (0 : Fin 2) * 256 + 256; omega
  | ⟨1, _⟩ => show win0_18.index t (1 : Fin 2) * 256 ≤ (i 1).val ∧ (i 1).val < win0_18.index t (1 : Fin 2) * 256 + 256; omega

theorem emb_19 (t : Fin cfg0.N) (p : Fin 256) (k : Fin 256) :
    ((cfg0.win 19).blk t).view.emb (ix2 p k) = ix2 (row256 (tt t) p) k := by
  obtain ⟨e0, e1⟩ := idx_19 t
  refine funext fun a => Fin.ext ?_
  match a with
  | ⟨0, _⟩ => show win0_19.index t (0 : Fin 2) * 256 + 1 * p.val = 256 * t.val + p.val; omega
  | ⟨1, _⟩ => show win0_19.index t (1 : Fin 2) * 256 + 1 * k.val = k.val; omega

theorem mem_blk_19 (t : Fin cfg0.N) (i : S4096x256.Idx) :
    i ∈ ((cfg0.win 19).blk t).view.set ↔ ∀ a : Fin 2, win0_19.index t a * S256x256.size a ≤ (i a).val ∧ (i a).val < win0_19.index t a * S256x256.size a + S256x256.size a := by
  show i ∈ ((View.whole main_v31_2).slice (win0_19.rect t)).set ↔ _
  rw [View.set_slice_whole, Rect.mem_set_unit]
  exact Iff.rfl

theorem cover_19 (i : S4096x256.Idx) : ∃ t : Fin cfg0.N, (cfg0.win 19).flush t = true ∧ i ∈ ((cfg0.win 19).blk t).view.set := by
  have hi0 : (i 0).val < 4096 := (i 0).isLt
  have hi1 : (i 1).val < 256 := (i 1).isLt
  have hN : grid0.N = 16 := N_0
  let t : Fin cfg0.N := ⟨(i 0).val / 256, by show _ < grid0.N; omega⟩
  have ht : t.val = (i 0).val / 256 := rfl
  obtain ⟨e0, e1⟩ := idx_19 t
  refine ⟨t, flush0_19 t, ?_⟩
  rw [mem_blk_19]
  intro a
  match a with
  | ⟨0, _⟩ => show win0_19.index t (0 : Fin 2) * 256 ≤ (i 0).val ∧ (i 0).val < win0_19.index t (0 : Fin 2) * 256 + 256; omega
  | ⟨1, _⟩ => show win0_19.index t (1 : Fin 2) * 256 ≤ (i 1).val ∧ (i 1).val < win0_19.index t (1 : Fin 2) * 256 + 256; omega

theorem emb_20 (t : Fin cfg0.N) (p : Fin 1) (k : Fin 256) :
    ((cfg0.win 20).blk t).view.emb (ix2 p k) = ix2 p (row256 (tt t) k) := by
  obtain ⟨e0, e1⟩ := idx_20 t
  refine funext fun a => Fin.ext ?_
  match a with
  | ⟨0, _⟩ => show win0_20.index t (0 : Fin 2) * 1 + 1 * p.val = p.val; omega
  | ⟨1, _⟩ => show win0_20.index t (1 : Fin 2) * 256 + 1 * k.val = 256 * t.val + k.val; omega

theorem mem_blk_20 (t : Fin cfg0.N) (i : S1x4096.Idx) :
    i ∈ ((cfg0.win 20).blk t).view.set ↔ ∀ a : Fin 2, win0_20.index t a * S1x256.size a ≤ (i a).val ∧ (i a).val < win0_20.index t a * S1x256.size a + S1x256.size a := by
  show i ∈ ((View.whole main_v31_3).slice (win0_20.rect t)).set ↔ _
  rw [View.set_slice_whole, Rect.mem_set_unit]
  exact Iff.rfl

theorem cover_20 (i : S1x4096.Idx) : ∃ t : Fin cfg0.N, (cfg0.win 20).flush t = true ∧ i ∈ ((cfg0.win 20).blk t).view.set := by
  have hi0 : (i 0).val < 1 := (i 0).isLt
  have hi1 : (i 1).val < 4096 := (i 1).isLt
  have hN : grid0.N = 16 := N_0
  let t : Fin cfg0.N := ⟨(i 1).val / 256, by show _ < grid0.N; omega⟩
  have ht : t.val = (i 1).val / 256 := rfl
  obtain ⟨e0, e1⟩ := idx_20 t
  refine ⟨t, flush0_20 t, ?_⟩
  rw [mem_blk_20]
  intro a
  match a with
  | ⟨0, _⟩ => show win0_20.index t (0 : Fin 2) * 1 ≤ (i 0).val ∧ (i 0).val < win0_20.index t (0 : Fin 2) * 1 + 1; omega
  | ⟨1, _⟩ => show win0_20.index t (1 : Fin 2) * 256 ≤ (i 1).val ∧ (i 1).val < win0_20.index t (1 : Fin 2) * 256 + 256; omega

theorem emb_21 (t : Fin cfg0.N) (p : Fin 1) (k : Fin 256) :
    ((cfg0.win 21).blk t).view.emb (ix2 p k) = ix2 p (row256 (tt t) k) := by
  obtain ⟨e0, e1⟩ := idx_21 t
  refine funext fun a => Fin.ext ?_
  match a with
  | ⟨0, _⟩ => show win0_21.index t (0 : Fin 2) * 1 + 1 * p.val = p.val; omega
  | ⟨1, _⟩ => show win0_21.index t (1 : Fin 2) * 256 + 1 * k.val = 256 * t.val + k.val; omega

theorem mem_blk_21 (t : Fin cfg0.N) (i : S1x4096.Idx) :
    i ∈ ((cfg0.win 21).blk t).view.set ↔ ∀ a : Fin 2, win0_21.index t a * S1x256.size a ≤ (i a).val ∧ (i a).val < win0_21.index t a * S1x256.size a + S1x256.size a := by
  show i ∈ ((View.whole main_v31_4).slice (win0_21.rect t)).set ↔ _
  rw [View.set_slice_whole, Rect.mem_set_unit]
  exact Iff.rfl

theorem cover_21 (i : S1x4096.Idx) : ∃ t : Fin cfg0.N, (cfg0.win 21).flush t = true ∧ i ∈ ((cfg0.win 21).blk t).view.set := by
  have hi0 : (i 0).val < 1 := (i 0).isLt
  have hi1 : (i 1).val < 4096 := (i 1).isLt
  have hN : grid0.N = 16 := N_0
  let t : Fin cfg0.N := ⟨(i 1).val / 256, by show _ < grid0.N; omega⟩
  have ht : t.val = (i 1).val / 256 := rfl
  obtain ⟨e0, e1⟩ := idx_21 t
  refine ⟨t, flush0_21 t, ?_⟩
  rw [mem_blk_21]
  intro a
  match a with
  | ⟨0, _⟩ => show win0_21.index t (0 : Fin 2) * 1 ≤ (i 0).val ∧ (i 0).val < win0_21.index t (0 : Fin 2) * 1 + 1; omega
  | ⟨1, _⟩ => show win0_21.index t (1 : Fin 2) * 256 ≤ (i 1).val ∧ (i 1).val < win0_21.index t (1 : Fin 2) * 256 + 256; omega

end Cert.KernelIdeal.R0

end
-- ==== Proof.BridgeEnc.lean ====
/-
  The encoder of the fused call against the reference, on one block of 256 rows. The block computes
  `relu (x · Wxᵀ + h · Whᵀ + b₁)`, then the statistics `· W₂ᵀ + b₂`, cut into the posterior mean and the log-variance,
  the latter clipped to [-10, 10], and the latent `μ + ε · exp (½ · logvar)`. The reference joins `[x, h]` along the
  feature axis and multiplies once by the whole first weight matrix: the sum over the 2560 joined coordinates is the
  sum over the first 512 plus the sum over the other 2048. Everything else is the same operation on both sides,
  row by row.
-/
import proofs.«141820_j69552700391572_2_alg».proof.Proof.Gen.KernelIdeal.Skeleton
import proofs.«141820_j69552700391572_2_alg».proof.Proof.Gen.ReferenceIdeal.Read
import proofs.«141820_j69552700391572_2_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open Cert.KernelIdeal.Gen Cert.ReferenceIdeal.Read

namespace Cert.Bridge.Enc

/-- A [256, 512] by [512, 2048] product into the zero block, read at `(p, n)`: the sum over the contracted coordinate of
    the row's entries times the column's. -/
theorem mm_x (l : FVec Ideal Cert.KernelIdeal.S256x512 .bf16) (r : FVec Ideal Cert.KernelIdeal.S512x2048 .bf16) (p : Fin 256) (n : Fin 2048) :
    matmul Cert.KernelIdeal.dot_S256x512_S512x2048_S256x2048_1_0_0_1_n_n none l r (constant Cert.KernelIdeal.S256x2048 .f32 0x00000000#32) (ix2 p n)
      = ∑ k : Fin 512, l (ix2 p k) * r (ix2 k n) := by
  show FloatOps.matmul Cert.KernelIdeal.dot_S256x512_S512x2048_S256x2048_1_0_0_1_n_n none l r (constant Cert.KernelIdeal.S256x2048 .f32 0x00000000#32) (ix2 p n) = _
  rw [Ideal.matmul_constant_zero_apply, ← Equiv.sum_comp (ValueIdx.contrEquiv1 Cert.KernelIdeal.dot_S256x512_S512x2048_S256x2048_1_0_0_1_n_n 512 rfl rfl).symm]
  refine Finset.sum_congr rfl fun k _ => ?_
  have hk := ValueIdx.contrEquiv1_symm_val Cert.KernelIdeal.dot_S256x512_S512x2048_S256x2048_1_0_0_1_n_n 512 rfl rfl k
  have el : Cert.KernelIdeal.dot_S256x512_S512x2048_S256x2048_1_0_0_1_n_n.lhsIdx (ix2 p n) ((ValueIdx.contrEquiv1 Cert.KernelIdeal.dot_S256x512_S512x2048_S256x2048_1_0_0_1_n_n 512 rfl rfl).symm k) = ix2 p k := funext fun a => Fin.ext (by
    match a with
    | ⟨0, _⟩ =>
      show (Cert.KernelIdeal.dot_S256x512_S512x2048_S256x2048_1_0_0_1_n_n.lhsIdx (ix2 p n) _ 0).val = p.val
      unfold DotDims.lhsIdx
      rw [dif_neg (show ¬(0 : Fin Cert.KernelIdeal.S256x512.rank) ∈ Cert.KernelIdeal.dot_S256x512_S512x2048_S256x2048_1_0_0_1_n_n.lhsBatch by decide), dif_pos (show (0 : Fin Cert.KernelIdeal.S256x512.rank) ∈ Cert.KernelIdeal.dot_S256x512_S512x2048_S256x2048_1_0_0_1_n_n.lhsNonContracting by decide)]
      rfl
    | ⟨1, _⟩ => exact (Cert.KernelIdeal.dot_S256x512_S512x2048_S256x2048_1_0_0_1_n_n.lhsIdx_val_of_single rfl (ix2 p n) _).trans hk)
  have er : Cert.KernelIdeal.dot_S256x512_S512x2048_S256x2048_1_0_0_1_n_n.rhsIdx (ix2 p n) ((ValueIdx.contrEquiv1 Cert.KernelIdeal.dot_S256x512_S512x2048_S256x2048_1_0_0_1_n_n 512 rfl rfl).symm k) = ix2 k n := funext fun a => Fin.ext (by
    match a with
    | ⟨0, _⟩ => exact (Cert.KernelIdeal.dot_S256x512_S512x2048_S256x2048_1_0_0_1_n_n.rhsIdx_val_of_single rfl (ix2 p n) _).trans hk
    | ⟨1, _⟩ =>
      show (Cert.KernelIdeal.dot_S256x512_S512x2048_S256x2048_1_0_0_1_n_n.rhsIdx (ix2 p n) _ 1).val = n.val
      unfold DotDims.rhsIdx
      rw [dif_neg (show ¬(1 : Fin Cert.KernelIdeal.S512x2048.rank) ∈ Cert.KernelIdeal.dot_S256x512_S512x2048_S256x2048_1_0_0_1_n_n.rhsBatch by decide), dif_pos (show (1 : Fin Cert.KernelIdeal.S512x2048.rank) ∈ Cert.KernelIdeal.dot_S256x512_S512x2048_S256x2048_1_0_0_1_n_n.rhsNonContracting by decide)]
      rfl)
  rw [el, er]

/-- A [256, 2048] by [2048, 2048] product into the zero block, read at `(p, n)`: the sum over the contracted coordinate of
    the row's entries times the column's. -/
theorem mm_h (l : FVec Ideal Cert.KernelIdeal.S256x2048 .bf16) (r : FVec Ideal Cert.KernelIdeal.S2048x2048 .bf16) (p : Fin 256) (n : Fin 2048) :
    matmul Cert.KernelIdeal.dot_S256x2048_S2048x2048_S256x2048_1_0_0_1_n_n none l r (constant Cert.KernelIdeal.S256x2048 .f32 0x00000000#32) (ix2 p n)
      = ∑ k : Fin 2048, l (ix2 p k) * r (ix2 k n) := by
  show FloatOps.matmul Cert.KernelIdeal.dot_S256x2048_S2048x2048_S256x2048_1_0_0_1_n_n none l r (constant Cert.KernelIdeal.S256x2048 .f32 0x00000000#32) (ix2 p n) = _
  rw [Ideal.matmul_constant_zero_apply, ← Equiv.sum_comp (ValueIdx.contrEquiv1 Cert.KernelIdeal.dot_S256x2048_S2048x2048_S256x2048_1_0_0_1_n_n 2048 rfl rfl).symm]
  refine Finset.sum_congr rfl fun k _ => ?_
  have hk := ValueIdx.contrEquiv1_symm_val Cert.KernelIdeal.dot_S256x2048_S2048x2048_S256x2048_1_0_0_1_n_n 2048 rfl rfl k
  have el : Cert.KernelIdeal.dot_S256x2048_S2048x2048_S256x2048_1_0_0_1_n_n.lhsIdx (ix2 p n) ((ValueIdx.contrEquiv1 Cert.KernelIdeal.dot_S256x2048_S2048x2048_S256x2048_1_0_0_1_n_n 2048 rfl rfl).symm k) = ix2 p k := funext fun a => Fin.ext (by
    match a with
    | ⟨0, _⟩ =>
      show (Cert.KernelIdeal.dot_S256x2048_S2048x2048_S256x2048_1_0_0_1_n_n.lhsIdx (ix2 p n) _ 0).val = p.val
      unfold DotDims.lhsIdx
      rw [dif_neg (show ¬(0 : Fin Cert.KernelIdeal.S256x2048.rank) ∈ Cert.KernelIdeal.dot_S256x2048_S2048x2048_S256x2048_1_0_0_1_n_n.lhsBatch by decide), dif_pos (show (0 : Fin Cert.KernelIdeal.S256x2048.rank) ∈ Cert.KernelIdeal.dot_S256x2048_S2048x2048_S256x2048_1_0_0_1_n_n.lhsNonContracting by decide)]
      rfl
    | ⟨1, _⟩ => exact (Cert.KernelIdeal.dot_S256x2048_S2048x2048_S256x2048_1_0_0_1_n_n.lhsIdx_val_of_single rfl (ix2 p n) _).trans hk)
  have er : Cert.KernelIdeal.dot_S256x2048_S2048x2048_S256x2048_1_0_0_1_n_n.rhsIdx (ix2 p n) ((ValueIdx.contrEquiv1 Cert.KernelIdeal.dot_S256x2048_S2048x2048_S256x2048_1_0_0_1_n_n 2048 rfl rfl).symm k) = ix2 k n := funext fun a => Fin.ext (by
    match a with
    | ⟨0, _⟩ => exact (Cert.KernelIdeal.dot_S256x2048_S2048x2048_S256x2048_1_0_0_1_n_n.rhsIdx_val_of_single rfl (ix2 p n) _).trans hk
    | ⟨1, _⟩ =>
      show (Cert.KernelIdeal.dot_S256x2048_S2048x2048_S256x2048_1_0_0_1_n_n.rhsIdx (ix2 p n) _ 1).val = n.val
      unfold DotDims.rhsIdx
      rw [dif_neg (show ¬(1 : Fin Cert.KernelIdeal.S2048x2048.rank) ∈ Cert.KernelIdeal.dot_S256x2048_S2048x2048_S256x2048_1_0_0_1_n_n.rhsBatch by decide), dif_pos (show (1 : Fin Cert.KernelIdeal.S2048x2048.rank) ∈ Cert.KernelIdeal.dot_S256x2048_S2048x2048_S256x2048_1_0_0_1_n_n.rhsNonContracting by decide)]
      rfl)
  rw [el, er]

/-- A [256, 2048] by [2048, 512] product into the zero block, read at `(p, n)`: the sum over the contracted coordinate of
    the row's entries times the column's. -/
theorem mm_s (l : FVec Ideal Cert.KernelIdeal.S256x2048 .bf16) (r : FVec Ideal Cert.KernelIdeal.S2048x512 .bf16) (p : Fin 256) (n : Fin 512) :
    matmul Cert.KernelIdeal.dot_S256x2048_S2048x512_S256x512_1_0_0_1_n_n none l r (constant Cert.KernelIdeal.S256x512 .f32 0x00000000#32) (ix2 p n)
      = ∑ k : Fin 2048, l (ix2 p k) * r (ix2 k n) := by
  show FloatOps.matmul Cert.KernelIdeal.dot_S256x2048_S2048x512_S256x512_1_0_0_1_n_n none l r (constant Cert.KernelIdeal.S256x512 .f32 0x00000000#32) (ix2 p n) = _
  rw [Ideal.matmul_constant_zero_apply, ← Equiv.sum_comp (ValueIdx.contrEquiv1 Cert.KernelIdeal.dot_S256x2048_S2048x512_S256x512_1_0_0_1_n_n 2048 rfl rfl).symm]
  refine Finset.sum_congr rfl fun k _ => ?_
  have hk := ValueIdx.contrEquiv1_symm_val Cert.KernelIdeal.dot_S256x2048_S2048x512_S256x512_1_0_0_1_n_n 2048 rfl rfl k
  have el : Cert.KernelIdeal.dot_S256x2048_S2048x512_S256x512_1_0_0_1_n_n.lhsIdx (ix2 p n) ((ValueIdx.contrEquiv1 Cert.KernelIdeal.dot_S256x2048_S2048x512_S256x512_1_0_0_1_n_n 2048 rfl rfl).symm k) = ix2 p k := funext fun a => Fin.ext (by
    match a with
    | ⟨0, _⟩ =>
      show (Cert.KernelIdeal.dot_S256x2048_S2048x512_S256x512_1_0_0_1_n_n.lhsIdx (ix2 p n) _ 0).val = p.val
      unfold DotDims.lhsIdx
      rw [dif_neg (show ¬(0 : Fin Cert.KernelIdeal.S256x2048.rank) ∈ Cert.KernelIdeal.dot_S256x2048_S2048x512_S256x512_1_0_0_1_n_n.lhsBatch by decide), dif_pos (show (0 : Fin Cert.KernelIdeal.S256x2048.rank) ∈ Cert.KernelIdeal.dot_S256x2048_S2048x512_S256x512_1_0_0_1_n_n.lhsNonContracting by decide)]
      rfl
    | ⟨1, _⟩ => exact (Cert.KernelIdeal.dot_S256x2048_S2048x512_S256x512_1_0_0_1_n_n.lhsIdx_val_of_single rfl (ix2 p n) _).trans hk)
  have er : Cert.KernelIdeal.dot_S256x2048_S2048x512_S256x512_1_0_0_1_n_n.rhsIdx (ix2 p n) ((ValueIdx.contrEquiv1 Cert.KernelIdeal.dot_S256x2048_S2048x512_S256x512_1_0_0_1_n_n 2048 rfl rfl).symm k) = ix2 k n := funext fun a => Fin.ext (by
    match a with
    | ⟨0, _⟩ => exact (Cert.KernelIdeal.dot_S256x2048_S2048x512_S256x512_1_0_0_1_n_n.rhsIdx_val_of_single rfl (ix2 p n) _).trans hk
    | ⟨1, _⟩ =>
      show (Cert.KernelIdeal.dot_S256x2048_S2048x512_S256x512_1_0_0_1_n_n.rhsIdx (ix2 p n) _ 1).val = n.val
      unfold DotDims.rhsIdx
      rw [dif_neg (show ¬(1 : Fin Cert.KernelIdeal.S2048x512.rank) ∈ Cert.KernelIdeal.dot_S256x2048_S2048x512_S256x512_1_0_0_1_n_n.rhsBatch by decide), dif_pos (show (1 : Fin Cert.KernelIdeal.S2048x512.rank) ∈ Cert.KernelIdeal.dot_S256x2048_S2048x512_S256x512_1_0_0_1_n_n.rhsNonContracting by decide)]
      rfl)
  rw [el, er]

/-- The two partial products of the first layer at `(p, j)`: the observation row against the first 512 rows of the
    transposed weight plus the state row against the remaining 2048 (the format changes are the identity). -/
theorem pay7_apply (b0 : Vec Ideal Cert.KernelIdeal.S256x512 .f32) (b1 : Vec Ideal Cert.KernelIdeal.S256x2048 .f32)
    (b7 : Vec Ideal Cert.KernelIdeal.S512x2048 .bf16) (b8 : Vec Ideal Cert.KernelIdeal.S2048x2048 .bf16) (p : Fin 256) (j : Fin 2048) :
    k0_pay7 b0 b1 b7 b8 (ix2 p j)
      = (∑ k : Fin 512, b0 (ix2 p k) * b7 (ix2 k j)) + ∑ k : Fin 2048, b1 (ix2 p k) * b8 (ix2 k j) := by
  show matmul Cert.KernelIdeal.dot_S256x512_S512x2048_S256x2048_1_0_0_1_n_n none
        (truncf .bf16 b0 bitsLt_bf16_f32 : FVec Ideal Cert.KernelIdeal.S256x512 .bf16)
        (shapeCast Cert.KernelIdeal.S512x2048 b7 shapeCasts_S512x2048_S512x2048 : FVec Ideal Cert.KernelIdeal.S512x2048 .bf16)
        (constant Cert.KernelIdeal.S256x2048 .f32 0x00000000#32) (ix2 p j)
      + matmul Cert.KernelIdeal.dot_S256x2048_S2048x2048_S256x2048_1_0_0_1_n_n none
        (truncf .bf16 b1 bitsLt_bf16_f32 : FVec Ideal Cert.KernelIdeal.S256x2048 .bf16)
        (shapeCast Cert.KernelIdeal.S2048x2048 b8 shapeCasts_S2048x2048_S2048x2048 : FVec Ideal Cert.KernelIdeal.S2048x2048 .bf16)
        (constant Cert.KernelIdeal.S256x2048 .f32 0x00000000#32) (ix2 p j) = _
  rw [mm_x, mm_h, shapeCast_self, shapeCast_self]
  rfl

/-- The bias row broadcast over the block's rows, at `(p, j)`. -/
theorem pay8_apply (b9 : Vec Ideal Cert.KernelIdeal.S1x2048 .f32) (p : Fin 256) (j : Fin 2048) :
    k0_pay8 b9 (ix2 p j) = b9 (ix2 (0 : Fin 1) j) := by
  show broadcastTo Cert.KernelIdeal.S256x2048 (shapeCast Cert.KernelIdeal.S1x2048 b9 shapeCasts_S1x2048_S1x2048) broadcasts_S1x2048_S256x2048 (ix2 p j) = _
  rw [broadcastTo_1b_ab_apply, shapeCast_self]

/-- The statistics at `(p, n)`: the rectified hidden row against the column of the second weight, plus the bias. -/
theorem pay9_apply (v30 v33 : FVec Ideal Cert.KernelIdeal.S256x2048 .f32) (b10 : Vec Ideal Cert.KernelIdeal.S2048x512 .bf16)
    (b11 : Vec Ideal Cert.KernelIdeal.S1x512 .f32) (p : Fin 256) (n : Fin 512) :
    k0_pay9 v30 v33 b10 b11 (ix2 p n)
      = (∑ k : Fin 2048, max (v30 (ix2 p k) + v33 (ix2 p k)) (Ideal.ofBits .f32 0x00000000#32) * b10 (ix2 k n))
        + b11 (ix2 (0 : Fin 1) n) := by
  show matmul Cert.KernelIdeal.dot_S256x2048_S2048x512_S256x512_1_0_0_1_n_n none
        (truncf .bf16 (maximumf (addf v30 v33) (broadcast Cert.KernelIdeal.S256x2048 (Scalar.ofBits .f32 0x00000000#32))) bitsLt_bf16_f32 : FVec Ideal Cert.KernelIdeal.S256x2048 .bf16)
        (shapeCast Cert.KernelIdeal.S2048x512 b10 shapeCasts_S2048x512_S2048x512 : FVec Ideal Cert.KernelIdeal.S2048x512 .bf16)
        (constant Cert.KernelIdeal.S256x512 .f32 0x00000000#32) (ix2 p n)
      + broadcastTo Cert.KernelIdeal.S256x512 (shapeCast Cert.KernelIdeal.S1x512 b11 shapeCasts_S1x512_S1x512) broadcasts_S1x512_S256x512 (ix2 p n) = _
  rw [mm_s, broadcastTo_1b_ab_apply, shapeCast_self, shapeCast_self]
  rfl

/-- The posterior mean is the statistics' first 256 columns. -/
theorem pay10_apply (v30 v33 : FVec Ideal Cert.KernelIdeal.S256x2048 .f32) (b10 : Vec Ideal Cert.KernelIdeal.S2048x512 .bf16)
    (b11 : Vec Ideal Cert.KernelIdeal.S1x512 .f32) (p : Fin 256) (q : Fin 256) :
    k0_pay10 v30 v33 b10 b11 (ix2 p q) = k0_pay9 v30 v33 b10 b11 (ix2 p (⟨q.val, by omega⟩ : Fin 512)) := by
  show extractStridedSlice Cert.KernelIdeal.S256x256 ![0, 0] (k0_pay9 v30 v33 b10 b11) slices_S256x512_o0_0_S256x256 (ix2 p q) = _
  exact slice2_axis1_apply 0 _ _ p q _ (Nat.zero_add _).symm

/-- The log-variance is the statistics' last 256 columns, clipped to [-10, 10]. -/
theorem pay11_apply (v30 v33 : FVec Ideal Cert.KernelIdeal.S256x2048 .f32) (b10 : Vec Ideal Cert.KernelIdeal.S2048x512 .bf16)
    (b11 : Vec Ideal Cert.KernelIdeal.S1x512 .f32) (p : Fin 256) (q : Fin 256) :
    k0_pay11 v30 v33 b10 b11 (ix2 p q)
      = min (Ideal.ofBits .f32 0x41200000#32) (max (Ideal.ofBits .f32 0xC1200000#32)
          (k0_pay9 v30 v33 b10 b11 (ix2 p (⟨256 + q.val, by omega⟩ : Fin 512)))) := by
  show min (Ideal.ofBits .f32 0x41200000#32) (max (Ideal.ofBits .f32 0xC1200000#32)
      (extractStridedSlice Cert.KernelIdeal.S256x256 ![0, 256] (k0_pay9 v30 v33 b10 b11) slices_S256x512_o0_256_S256x256 (ix2 p q))) = _
  rw [slice2_axis1_apply 256 _ _ p q (⟨256 + q.val, by omega⟩ : Fin 512) rfl]

/-- The sampled latent: the mean plus the noise times the exponential of half the clipped log-variance. -/
theorem pay12_apply (b2 : Vec Ideal Cert.KernelIdeal.S256x256 .f32) (v30 v33 : FVec Ideal Cert.KernelIdeal.S256x2048 .f32)
    (b10 : Vec Ideal Cert.KernelIdeal.S2048x512 .bf16) (b11 : Vec Ideal Cert.KernelIdeal.S1x512 .f32) (p : Fin 256) (q : Fin 256) :
    k0_pay12 b2 v30 v33 b10 b11 (ix2 p q)
      = k0_pay10 v30 v33 b10 b11 (ix2 p q)
        + b2 (ix2 p q) * Ideal.exp (Ideal.ofBits .f32 0x3F000000#32 * k0_pay11 v30 v33 b10 b11 (ix2 p q)) := by
  unfold k0_pay12
  rfl

/-- The first layer's product on the whole arrays at `(r, j)`: the sum over the 2560 joined input features splits at 512
    into the observation's features and the state's, each against its columns of the weight. -/
theorem v15_split (a0 : (⟨Cert.ReferenceIdeal.S4096x512, .f32⟩ : BufTy).Contents (Elt Ideal)) (a2 : (⟨Cert.ReferenceIdeal.S4096x2048, .f32⟩ : BufTy).Contents (Elt Ideal)) (a8 : (⟨Cert.ReferenceIdeal.S2048x2560, .f32⟩ : BufTy).Contents (Elt Ideal)) (r : Fin 4096) (j : Fin 2048) :
    val_main_v15 (F := Ideal) a0 a2 a8 (ix2 r j)
      = (∑ k : Fin 512, a0 (ix2 r k) * a8 (ix2 j (⟨k.val, by omega⟩ : Fin 2560)))
        + ∑ k : Fin 2048, a2 (ix2 r k) * a8 (ix2 j (⟨512 + k.val, by omega⟩ : Fin 2560)) := by
  rw [val_main_v15_apply]
  refine (Fin.sum_univ_add (a := 512) (b := 2048) (fun k : Fin 2560 =>
    val_main_v13 (F := Ideal) a0 a2 (lidx_main_v15 (ix2 r j) k) * val_main_v14 (F := Ideal) a8 (ridx_main_v15 (ix2 r j) k))).trans ?_
  refine congrArg₂ (· + ·) (Finset.sum_congr rfl fun k _ => ?_) (Finset.sum_congr rfl fun k _ => ?_)
  · refine congrArg₂ (· * ·) ?_ ?_
    · unfold val_main_v13
      exact concatenate_pair_apply_left (t := Cert.ReferenceIdeal.S4096x2560) (s₁ := Cert.ReferenceIdeal.S4096x512) (s₂ := Cert.ReferenceIdeal.S4096x2048) 1 a0 a2
        Cert.ReferenceIdeal.Gen.concatenates_S4096x512_S4096x2048_S4096x2560_d1 (lidx_main_v15 (ix2 r j) (Fin.castAdd 2048 k)) rfl (ix2 r k) (fun b => match b with
        | ⟨0, _⟩ => rfl
        | ⟨1, _⟩ => rfl)
    · rw [val_main_v14_apply]
      exact congrArg a8 (funext fun a => Fin.ext (by match a with | ⟨0, _⟩ => rfl | ⟨1, _⟩ => rfl))
  · refine congrArg₂ (· * ·) ?_ ?_
    · unfold val_main_v13
      exact concatenate_pair_apply_right (t := Cert.ReferenceIdeal.S4096x2560) (s₁ := Cert.ReferenceIdeal.S4096x512) (s₂ := Cert.ReferenceIdeal.S4096x2048) 1 a0 a2
        Cert.ReferenceIdeal.Gen.concatenates_S4096x512_S4096x2048_S4096x2560_d1 (lidx_main_v15 (ix2 r j) (Fin.natAdd 512 k)) rfl rfl (ix2 r k) (fun b => match b with
        | ⟨0, _⟩ => fun _ => rfl
        | ⟨1, _⟩ => fun h => absurd rfl h) (by show k.val + 512 = 512 + k.val; omega)
    · rw [val_main_v14_apply]
      exact congrArg a8 (funext fun a => Fin.ext (by match a with | ⟨0, _⟩ => rfl | ⟨1, _⟩ => rfl))

/-- The first bias broadcast over the rows, at `(r, j)`. -/
theorem v17_at (a9 : (⟨Cert.ReferenceIdeal.S2048, .f32⟩ : BufTy).Contents (Elt Ideal)) (r : Fin 4096) (j : Fin 2048) :
    val_main_v17 (F := Ideal) a9 (ix2 r j) = a9 (ix1 j) := by
  rw [val_main_v17_apply, val_main_v16_apply]
  exact congrArg a9 (funext fun a => Fin.ext (by match a with | ⟨0, _⟩ => rfl))

/-- The rectified hidden layer on the whole arrays at `(r, j)`. -/
theorem v19_at (a0 : (⟨Cert.ReferenceIdeal.S4096x512, .f32⟩ : BufTy).Contents (Elt Ideal)) (a2 : (⟨Cert.ReferenceIdeal.S4096x2048, .f32⟩ : BufTy).Contents (Elt Ideal)) (a8 : (⟨Cert.ReferenceIdeal.S2048x2560, .f32⟩ : BufTy).Contents (Elt Ideal)) (a9 : (⟨Cert.ReferenceIdeal.S2048, .f32⟩ : BufTy).Contents (Elt Ideal)) (r : Fin 4096) (j : Fin 2048) :
    val_main_v19 (F := Ideal) a0 a2 a8 a9 (ix2 r j)
      = max (((∑ k : Fin 512, a0 (ix2 r k) * a8 (ix2 j (⟨k.val, by omega⟩ : Fin 2560)))
          + ∑ k : Fin 2048, a2 (ix2 r k) * a8 (ix2 j (⟨512 + k.val, by omega⟩ : Fin 2560))) + a9 (ix1 j))
        (Ideal.ofBits .f32 0x00000000#32) := by
  show max (val_main_v15 (F := Ideal) a0 a2 a8 (ix2 r j) + val_main_v17 (F := Ideal) a9 (ix2 r j))
    (val_main_call1_v0 (F := Ideal) (ix2 r j)) = _
  rw [v15_split, v17_at, val_main_call1_v0_apply]
  rfl

/-- The statistics on the whole arrays at `(r, n)`: the hidden row against the row of the second weight, plus the bias. -/
theorem v24_at (a0 : (⟨Cert.ReferenceIdeal.S4096x512, .f32⟩ : BufTy).Contents (Elt Ideal)) (a2 : (⟨Cert.ReferenceIdeal.S4096x2048, .f32⟩ : BufTy).Contents (Elt Ideal)) (a8 : (⟨Cert.ReferenceIdeal.S2048x2560, .f32⟩ : BufTy).Contents (Elt Ideal)) (a9 : (⟨Cert.ReferenceIdeal.S2048, .f32⟩ : BufTy).Contents (Elt Ideal))
    (a10 : (⟨Cert.ReferenceIdeal.S512x2048, .f32⟩ : BufTy).Contents (Elt Ideal)) (a11 : (⟨Cert.ReferenceIdeal.S512, .f32⟩ : BufTy).Contents (Elt Ideal)) (r : Fin 4096) (n : Fin 512) :
    val_main_v24 (F := Ideal) a0 a2 a8 a9 a10 a11 (ix2 r n)
      = (∑ k : Fin 2048, val_main_v19 (F := Ideal) a0 a2 a8 a9 (ix2 r k) * a10 (ix2 n k)) + a11 (ix1 n) := by
  show val_main_v21 (F := Ideal) a0 a2 a8 a9 a10 (ix2 r n) + val_main_v23 (F := Ideal) a11 (ix2 r n) = _
  rw [val_main_v21_apply, val_main_v23_apply, val_main_v22_apply]
  refine congrArg₂ (· + ·) (Finset.sum_congr rfl fun k _ => ?_) ?_
  · rw [val_main_v20_apply]
    refine congrArg₂ (· * ·) ?_ ?_
    · exact congrArg (val_main_v19 (F := Ideal) a0 a2 a8 a9) (funext fun a => Fin.ext (by match a with | ⟨0, _⟩ => rfl | ⟨1, _⟩ => rfl))
    · exact congrArg a10 (funext fun a => Fin.ext (by match a with | ⟨0, _⟩ => rfl | ⟨1, _⟩ => rfl))
  · exact congrArg a11 (funext fun a => Fin.ext (by match a with | ⟨0, _⟩ => rfl))

variable (t : Fin 16)
  (b0 : Vec Ideal Cert.KernelIdeal.S256x512 .f32) (b1 : Vec Ideal Cert.KernelIdeal.S256x2048 .f32) (b2 : Vec Ideal Cert.KernelIdeal.S256x256 .f32)
  (b7 : Vec Ideal Cert.KernelIdeal.S512x2048 .bf16) (b8 : Vec Ideal Cert.KernelIdeal.S2048x2048 .bf16) (b9 : Vec Ideal Cert.KernelIdeal.S1x2048 .f32)
  (b10 : Vec Ideal Cert.KernelIdeal.S2048x512 .bf16) (b11 : Vec Ideal Cert.KernelIdeal.S1x512 .f32)
  (a0 : (⟨Cert.ReferenceIdeal.S4096x512, .f32⟩ : BufTy).Contents (Elt Ideal)) (a2 : (⟨Cert.ReferenceIdeal.S4096x2048, .f32⟩ : BufTy).Contents (Elt Ideal)) (a3 : (⟨Cert.ReferenceIdeal.S4096x256, .f32⟩ : BufTy).Contents (Elt Ideal))
  (a8 : (⟨Cert.ReferenceIdeal.S2048x2560, .f32⟩ : BufTy).Contents (Elt Ideal)) (a9 : (⟨Cert.ReferenceIdeal.S2048, .f32⟩ : BufTy).Contents (Elt Ideal)) (a10 : (⟨Cert.ReferenceIdeal.S512x2048, .f32⟩ : BufTy).Contents (Elt Ideal)) (a11 : (⟨Cert.ReferenceIdeal.S512, .f32⟩ : BufTy).Contents (Elt Ideal))

/-- The blocks the fused call loads at grid point `t`, as rows and transposed slices of the whole arrays: the
    observation, state and noise rows `256 t + p`; the encoder's first weight matrix transposed and cut at column 512 of
    its input axis; its second weight matrix transposed; the biases as one row each. -/
structure EncBlocks : Prop where
  h0 : ∀ (p : Fin 256) (k : Fin 512), b0 (ix2 p k) = a0 (ix2 (row256 t p) k)
  h1 : ∀ (p : Fin 256) (k : Fin 2048), b1 (ix2 p k) = a2 (ix2 (row256 t p) k)
  h2 : ∀ (p : Fin 256) (k : Fin 256), b2 (ix2 p k) = a3 (ix2 (row256 t p) k)
  h7 : ∀ (k : Fin 512) (n : Fin 2048), b7 (ix2 k n) = a8 (ix2 n (⟨k.val, by omega⟩ : Fin 2560))
  h8 : ∀ (k : Fin 2048) (n : Fin 2048), b8 (ix2 k n) = a8 (ix2 n (⟨512 + k.val, by omega⟩ : Fin 2560))
  h9 : ∀ n : Fin 2048, b9 (ix2 (0 : Fin 1) n) = a9 (ix1 n)
  h10 : ∀ (k : Fin 2048) (n : Fin 512), b10 (ix2 k n) = a10 (ix2 n k)
  h11 : ∀ n : Fin 512, b11 (ix2 (0 : Fin 1) n) = a11 (ix1 n)

variable {t b0 b1 b2 b7 b8 b9 b10 b11 a0 a2 a3 a8 a9 a10 a11}

/-- The rectified hidden layer of the block is the reference's at the block's rows: the split sums agree factor by
    factor, and the bias row is the bias. -/
theorem hidden_block (H : EncBlocks t b0 b1 b2 b7 b8 b9 b10 b11 a0 a2 a3 a8 a9 a10 a11) (p : Fin 256) (j : Fin 2048) :
    max (k0_pay7 b0 b1 b7 b8 (ix2 p j) + k0_pay8 b9 (ix2 p j)) (Ideal.ofBits .f32 0x00000000#32)
      = val_main_v19 (F := Ideal) a0 a2 a8 a9 (ix2 (row256 t p) j) := by
  rw [pay7_apply, pay8_apply, v19_at, H.h9 j]
  refine congrArg (fun x => max (x + a9 (ix1 j)) (Ideal.ofBits .f32 0x00000000#32)) ?_
  refine congrArg₂ (· + ·) (Finset.sum_congr rfl fun k _ => ?_) (Finset.sum_congr rfl fun k _ => ?_)
  · rw [H.h0 p k, H.h7 k j]
  · rw [H.h1 p k, H.h8 k j]

/-- The statistics of the block are the reference's at the block's rows. -/
theorem stats_block (H : EncBlocks t b0 b1 b2 b7 b8 b9 b10 b11 a0 a2 a3 a8 a9 a10 a11) (p : Fin 256) (n : Fin 512) :
    k0_pay9 (k0_pay7 b0 b1 b7 b8) (k0_pay8 b9) b10 b11 (ix2 p n)
      = val_main_v24 (F := Ideal) a0 a2 a8 a9 a10 a11 (ix2 (row256 t p) n) := by
  rw [pay9_apply, v24_at, H.h11 n]
  refine congrArg (· + a11 (ix1 n)) (Finset.sum_congr rfl fun k _ => ?_)
  rw [hidden_block H p k, H.h10 k n]

/-- The posterior mean the block computes is the reference's, row by row. -/
theorem muq_block (H : EncBlocks t b0 b1 b2 b7 b8 b9 b10 b11 a0 a2 a3 a8 a9 a10 a11) (p : Fin 256) (q : Fin 256) :
    k0_pay10 (k0_pay7 b0 b1 b7 b8) (k0_pay8 b9) b10 b11 (ix2 p q)
      = val_main_v25 (F := Ideal) a0 a2 a8 a9 a10 a11 (ix2 (row256 t p) q) := by
  rw [pay10_apply, stats_block H, val_main_v25_apply]
  exact congrArg (val_main_v24 (F := Ideal) a0 a2 a8 a9 a10 a11) (funext fun a => Fin.ext (by
    match a with | ⟨0, _⟩ => rfl | ⟨1, _⟩ => rfl))

/-- The clipped posterior log-variance likewise. -/
theorem lvq_block (H : EncBlocks t b0 b1 b2 b7 b8 b9 b10 b11 a0 a2 a3 a8 a9 a10 a11) (p : Fin 256) (q : Fin 256) :
    k0_pay11 (k0_pay7 b0 b1 b7 b8) (k0_pay8 b9) b10 b11 (ix2 p q)
      = val_main_v27 (F := Ideal) a0 a2 a8 a9 a10 a11 (ix2 (row256 t p) q) := by
  rw [pay11_apply, stats_block H]
  show _ = min (val_main_call2_v4 (F := Ideal) (ix2 (row256 t p) q))
    (max (val_main_call2_v1 (F := Ideal) (ix2 (row256 t p) q))
      (val_main_v26 (F := Ideal) a0 a2 a8 a9 a10 a11 (ix2 (row256 t p) q)))
  rw [val_main_call2_v4_apply, val_main_call2_v1_apply, val_main_v26_apply]
  refine congrArg₂ min rfl (congrArg₂ max rfl ?_)
  exact congrArg (val_main_v24 (F := Ideal) a0 a2 a8 a9 a10 a11) (funext fun a => Fin.ext (by
    match a with | ⟨0, _⟩ => rfl | ⟨1, _⟩ => rfl))

/-- The sampled latent likewise. -/
theorem z_block (H : EncBlocks t b0 b1 b2 b7 b8 b9 b10 b11 a0 a2 a3 a8 a9 a10 a11) (p : Fin 256) (q : Fin 256) :
    k0_pay12 b2 (k0_pay7 b0 b1 b7 b8) (k0_pay8 b9) b10 b11 (ix2 p q)
      = val_main_v32 (F := Ideal) a0 a2 a3 a8 a9 a10 a11 (ix2 (row256 t p) q) := by
  rw [pay12_apply, muq_block H, lvq_block H, H.h2 p q]
  show _ = val_main_v25 (F := Ideal) a0 a2 a8 a9 a10 a11 (ix2 (row256 t p) q)
    + a3 (ix2 (row256 t p) q) * Ideal.exp (val_main_v28 (F := Ideal) (ix2 (row256 t p) q)
      * val_main_v27 (F := Ideal) a0 a2 a8 a9 a10 a11 (ix2 (row256 t p) q))
  rw [val_main_v28_apply]
  rfl

end Cert.Bridge.Enc

end
-- ==== Proof.BridgeNll.lean ====
/-
  The decoder and the negative log-likelihood of the fused call against the reference, on one block of 256 rows. The
  block computes `relu (z · Wzᵀ + h · Whᵀ + b₁)`, the output statistics `· W₂ᵀ + b₂` cut into the mean and the
  log-variance, the latter clipped, and `½ · Σ ((x - μ)² · exp (-logvar) + logvar)` along each row. The reference joins
  `[z, h]` and multiplies once: the sum over the 2304 joined coordinates splits as 256 + 2048. The kernel negates as
  `0 - x`, the reference by negation; the kernel's lane sum and the host's reduction are the same sum over the row.
-/
import proofs.«141820_j69552700391572_2_alg».proof.Proof.Gen.KernelIdeal.Skeleton
import proofs.«141820_j69552700391572_2_alg».proof.Proof.Gen.ReferenceIdeal.Read
import proofs.«141820_j69552700391572_2_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open Cert.KernelIdeal.Gen Cert.ReferenceIdeal.Read

namespace Cert.Bridge.Nll

variable (t : Fin 16)
  (b0 : Vec Ideal Cert.KernelIdeal.S256x512 .f32) (b1 : Vec Ideal Cert.KernelIdeal.S256x2048 .f32)
  (zb : FVec Ideal Cert.KernelIdeal.S256x256 .f32)
  (b12 : Vec Ideal Cert.KernelIdeal.S256x2048 .bf16) (b13 : Vec Ideal Cert.KernelIdeal.S2048x2048 .bf16) (b14 : Vec Ideal Cert.KernelIdeal.S1x2048 .f32)
  (b15 : Vec Ideal Cert.KernelIdeal.S2048x1024 .bf16) (b16 : Vec Ideal Cert.KernelIdeal.S1x1024 .f32)
  (a0 : (⟨Cert.ReferenceIdeal.S4096x512, .f32⟩ : BufTy).Contents (Elt Ideal)) (a2 : (⟨Cert.ReferenceIdeal.S4096x2048, .f32⟩ : BufTy).Contents (Elt Ideal)) (a3 : (⟨Cert.ReferenceIdeal.S4096x256, .f32⟩ : BufTy).Contents (Elt Ideal))
  (a8 : (⟨Cert.ReferenceIdeal.S2048x2560, .f32⟩ : BufTy).Contents (Elt Ideal)) (a9 : (⟨Cert.ReferenceIdeal.S2048, .f32⟩ : BufTy).Contents (Elt Ideal)) (a10 : (⟨Cert.ReferenceIdeal.S512x2048, .f32⟩ : BufTy).Contents (Elt Ideal)) (a11 : (⟨Cert.ReferenceIdeal.S512, .f32⟩ : BufTy).Contents (Elt Ideal))
  (a12 : (⟨Cert.ReferenceIdeal.S2048x2304, .f32⟩ : BufTy).Contents (Elt Ideal)) (a13 : (⟨Cert.ReferenceIdeal.S2048, .f32⟩ : BufTy).Contents (Elt Ideal)) (a14 : (⟨Cert.ReferenceIdeal.S1024x2048, .f32⟩ : BufTy).Contents (Elt Ideal)) (a15 : (⟨Cert.ReferenceIdeal.S1024, .f32⟩ : BufTy).Contents (Elt Ideal))

/-- The blocks the decoder part of the fused call reads at grid point `t`: the observation and state rows
    `256 t + p`, the sampled latent `zb` of those rows (already the reference's), the decoder's first weight matrix
    transposed and cut at column 256 of its input axis, its second weight matrix transposed, the biases as rows. -/
structure DecBlocks : Prop where
  h0 : ∀ (p : Fin 256) (k : Fin 512), b0 (ix2 p k) = a0 (ix2 (row256 t p) k)
  h1 : ∀ (p : Fin 256) (k : Fin 2048), b1 (ix2 p k) = a2 (ix2 (row256 t p) k)
  hz : ∀ (p : Fin 256) (k : Fin 256), zb (ix2 p k) = val_main_v32 (F := Ideal) a0 a2 a3 a8 a9 a10 a11 (ix2 (row256 t p) k)
  h12 : ∀ (k : Fin 256) (n : Fin 2048), b12 (ix2 k n) = a12 (ix2 n (⟨k.val, by omega⟩ : Fin 2304))
  h13 : ∀ (k : Fin 2048) (n : Fin 2048), b13 (ix2 k n) = a12 (ix2 n (⟨256 + k.val, by omega⟩ : Fin 2304))
  h14 : ∀ n : Fin 2048, b14 (ix2 (0 : Fin 1) n) = a13 (ix1 n)
  h15 : ∀ (k : Fin 2048) (n : Fin 1024), b15 (ix2 k n) = a14 (ix2 n k)
  h16 : ∀ n : Fin 1024, b16 (ix2 (0 : Fin 1) n) = a15 (ix1 n)

variable {t b0 b1 zb b12 b13 b14 b15 b16 a0 a2 a3 a8 a9 a10 a11 a12 a13 a14 a15}

/-- The latent's product with its slice of the decoder's first weight matrix, stated over the latent block as a
    variable (the fused call's term has the latent's own expression there). -/
def zdot (zb : FVec Ideal Cert.KernelIdeal.S256x256 .f32) (b12 : Vec Ideal Cert.KernelIdeal.S256x2048 .bf16) : FVec Ideal Cert.KernelIdeal.S256x2048 .f32 :=
  matmul Cert.KernelIdeal.dot_S256x256_S256x2048_S256x2048_1_0_0_1_n_n none (truncf .bf16 zb bitsLt_bf16_f32)
    (shapeCast Cert.KernelIdeal.S256x2048 b12 shapeCasts_S256x2048_S256x2048 : FVec Ideal Cert.KernelIdeal.S256x2048 .bf16) (constant Cert.KernelIdeal.S256x2048 .f32 0x00000000#32)

/-! ### The block's three matrix products read at an index -/

theorem mmZ_l0 (i : Cert.KernelIdeal.S256x2048.Idx) (q : Cert.KernelIdeal.dot_S256x256_S256x2048_S256x2048_1_0_0_1_n_n.contr.Idx) :
    (Cert.KernelIdeal.dot_S256x256_S256x2048_S256x2048_1_0_0_1_n_n.lhsIdx i q 0).val = (i 0).val := by
  unfold DotDims.lhsIdx
  rw [dif_neg (show ¬(0 : Fin Cert.KernelIdeal.S256x256.rank) ∈ Cert.KernelIdeal.dot_S256x256_S256x2048_S256x2048_1_0_0_1_n_n.lhsBatch by decide), dif_pos (show (0 : Fin Cert.KernelIdeal.S256x256.rank) ∈ Cert.KernelIdeal.dot_S256x256_S256x2048_S256x2048_1_0_0_1_n_n.lhsNonContracting by decide)]
  rfl
theorem mmZ_l1 (i : Cert.KernelIdeal.S256x2048.Idx) (q : Cert.KernelIdeal.dot_S256x256_S256x2048_S256x2048_1_0_0_1_n_n.contr.Idx) :
    (Cert.KernelIdeal.dot_S256x256_S256x2048_S256x2048_1_0_0_1_n_n.lhsIdx i q 1).val = (q ⟨0, by decide⟩).val :=
  Cert.KernelIdeal.dot_S256x256_S256x2048_S256x2048_1_0_0_1_n_n.lhsIdx_val_of_single rfl i q
theorem mmZ_r0 (i : Cert.KernelIdeal.S256x2048.Idx) (q : Cert.KernelIdeal.dot_S256x256_S256x2048_S256x2048_1_0_0_1_n_n.contr.Idx) :
    (Cert.KernelIdeal.dot_S256x256_S256x2048_S256x2048_1_0_0_1_n_n.rhsIdx i q 0).val = (q ⟨0, by decide⟩).val :=
  Cert.KernelIdeal.dot_S256x256_S256x2048_S256x2048_1_0_0_1_n_n.rhsIdx_val_of_single rfl i q
theorem mmZ_r1 (i : Cert.KernelIdeal.S256x2048.Idx) (q : Cert.KernelIdeal.dot_S256x256_S256x2048_S256x2048_1_0_0_1_n_n.contr.Idx) :
    (Cert.KernelIdeal.dot_S256x256_S256x2048_S256x2048_1_0_0_1_n_n.rhsIdx i q 1).val = (i 1).val := by
  unfold DotDims.rhsIdx
  rw [dif_neg (show ¬(1 : Fin Cert.KernelIdeal.S256x2048.rank) ∈ Cert.KernelIdeal.dot_S256x256_S256x2048_S256x2048_1_0_0_1_n_n.rhsBatch by decide), dif_pos (show (1 : Fin Cert.KernelIdeal.S256x2048.rank) ∈ Cert.KernelIdeal.dot_S256x256_S256x2048_S256x2048_1_0_0_1_n_n.rhsNonContracting by decide)]
  rfl
/-- The block product into the zero accumulator, read at `(p, n)`: the sum over the contracted coordinate. -/
theorem mmZ_apply {φ₁ φ₂ : FTy} (l : FVec Ideal Cert.KernelIdeal.S256x256 φ₁) (r : FVec Ideal Cert.KernelIdeal.S256x2048 φ₂) (p : Fin 256) (n : Fin 2048) :
    matmul Cert.KernelIdeal.dot_S256x256_S256x2048_S256x2048_1_0_0_1_n_n none l r (constant Cert.KernelIdeal.S256x2048 .f32 0x00000000#32) (ix2 p n)
      = ∑ k : Fin 256, l (ix2 p k) * r (ix2 k n) := by
  refine (Ideal.matmul_constant_zero_apply Cert.KernelIdeal.dot_S256x256_S256x2048_S256x2048_1_0_0_1_n_n none l r (ix2 p n)).trans ?_
  rw [← Equiv.sum_comp (ValueIdx.contrEquiv1 Cert.KernelIdeal.dot_S256x256_S256x2048_S256x2048_1_0_0_1_n_n 256 rfl rfl).symm]
  refine Finset.sum_congr rfl fun k _ => ?_
  have hk := ValueIdx.contrEquiv1_symm_val Cert.KernelIdeal.dot_S256x256_S256x2048_S256x2048_1_0_0_1_n_n 256 rfl rfl k
  have el : Cert.KernelIdeal.dot_S256x256_S256x2048_S256x2048_1_0_0_1_n_n.lhsIdx (ix2 p n) ((ValueIdx.contrEquiv1 Cert.KernelIdeal.dot_S256x256_S256x2048_S256x2048_1_0_0_1_n_n 256 rfl rfl).symm k) = ix2 p k := funext fun a => Fin.ext (by
    match a with
    | ⟨0, _⟩ => exact mmZ_l0 _ _
    | ⟨1, _⟩ => exact (mmZ_l1 _ _).trans hk)
  have er : Cert.KernelIdeal.dot_S256x256_S256x2048_S256x2048_1_0_0_1_n_n.rhsIdx (ix2 p n) ((ValueIdx.contrEquiv1 Cert.KernelIdeal.dot_S256x256_S256x2048_S256x2048_1_0_0_1_n_n 256 rfl rfl).symm k) = ix2 k n := funext fun a => Fin.ext (by
    match a with
    | ⟨0, _⟩ => exact (mmZ_r0 _ _).trans hk
    | ⟨1, _⟩ => exact mmZ_r1 _ _)
  rw [el, er]

theorem mmH_l0 (i : Cert.KernelIdeal.S256x2048.Idx) (q : Cert.KernelIdeal.dot_S256x2048_S2048x2048_S256x2048_1_0_0_1_n_n.contr.Idx) :
    (Cert.KernelIdeal.dot_S256x2048_S2048x2048_S256x2048_1_0_0_1_n_n.lhsIdx i q 0).val = (i 0).val := by
  unfold DotDims.lhsIdx
  rw [dif_neg (show ¬(0 : Fin Cert.KernelIdeal.S256x2048.rank) ∈ Cert.KernelIdeal.dot_S256x2048_S2048x2048_S256x2048_1_0_0_1_n_n.lhsBatch by decide), dif_pos (show (0 : Fin Cert.KernelIdeal.S256x2048.rank) ∈ Cert.KernelIdeal.dot_S256x2048_S2048x2048_S256x2048_1_0_0_1_n_n.lhsNonContracting by decide)]
  rfl
theorem mmH_l1 (i : Cert.KernelIdeal.S256x2048.Idx) (q : Cert.KernelIdeal.dot_S256x2048_S2048x2048_S256x2048_1_0_0_1_n_n.contr.Idx) :
    (Cert.KernelIdeal.dot_S256x2048_S2048x2048_S256x2048_1_0_0_1_n_n.lhsIdx i q 1).val = (q ⟨0, by decide⟩).val :=
  Cert.KernelIdeal.dot_S256x2048_S2048x2048_S256x2048_1_0_0_1_n_n.lhsIdx_val_of_single rfl i q
theorem mmH_r0 (i : Cert.KernelIdeal.S256x2048.Idx) (q : Cert.KernelIdeal.dot_S256x2048_S2048x2048_S256x2048_1_0_0_1_n_n.contr.Idx) :
    (Cert.KernelIdeal.dot_S256x2048_S2048x2048_S256x2048_1_0_0_1_n_n.rhsIdx i q 0).val = (q ⟨0, by decide⟩).val :=
  Cert.KernelIdeal.dot_S256x2048_S2048x2048_S256x2048_1_0_0_1_n_n.rhsIdx_val_of_single rfl i q
theorem mmH_r1 (i : Cert.KernelIdeal.S256x2048.Idx) (q : Cert.KernelIdeal.dot_S256x2048_S2048x2048_S256x2048_1_0_0_1_n_n.contr.Idx) :
    (Cert.KernelIdeal.dot_S256x2048_S2048x2048_S256x2048_1_0_0_1_n_n.rhsIdx i q 1).val = (i 1).val := by
  unfold DotDims.rhsIdx
  rw [dif_neg (show ¬(1 : Fin Cert.KernelIdeal.S2048x2048.rank) ∈ Cert.KernelIdeal.dot_S256x2048_S2048x2048_S256x2048_1_0_0_1_n_n.rhsBatch by decide), dif_pos (show (1 : Fin Cert.KernelIdeal.S2048x2048.rank) ∈ Cert.KernelIdeal.dot_S256x2048_S2048x2048_S256x2048_1_0_0_1_n_n.rhsNonContracting by decide)]
  rfl
/-- The block product into the zero accumulator, read at `(p, n)`: the sum over the contracted coordinate. -/
theorem mmH_apply {φ₁ φ₂ : FTy} (l : FVec Ideal Cert.KernelIdeal.S256x2048 φ₁) (r : FVec Ideal Cert.KernelIdeal.S2048x2048 φ₂) (p : Fin 256) (n : Fin 2048) :
    matmul Cert.KernelIdeal.dot_S256x2048_S2048x2048_S256x2048_1_0_0_1_n_n none l r (constant Cert.KernelIdeal.S256x2048 .f32 0x00000000#32) (ix2 p n)
      = ∑ k : Fin 2048, l (ix2 p k) * r (ix2 k n) := by
  refine (Ideal.matmul_constant_zero_apply Cert.KernelIdeal.dot_S256x2048_S2048x2048_S256x2048_1_0_0_1_n_n none l r (ix2 p n)).trans ?_
  rw [← Equiv.sum_comp (ValueIdx.contrEquiv1 Cert.KernelIdeal.dot_S256x2048_S2048x2048_S256x2048_1_0_0_1_n_n 2048 rfl rfl).symm]
  refine Finset.sum_congr rfl fun k _ => ?_
  have hk := ValueIdx.contrEquiv1_symm_val Cert.KernelIdeal.dot_S256x2048_S2048x2048_S256x2048_1_0_0_1_n_n 2048 rfl rfl k
  have el : Cert.KernelIdeal.dot_S256x2048_S2048x2048_S256x2048_1_0_0_1_n_n.lhsIdx (ix2 p n) ((ValueIdx.contrEquiv1 Cert.KernelIdeal.dot_S256x2048_S2048x2048_S256x2048_1_0_0_1_n_n 2048 rfl rfl).symm k) = ix2 p k := funext fun a => Fin.ext (by
    match a with
    | ⟨0, _⟩ => exact mmH_l0 _ _
    | ⟨1, _⟩ => exact (mmH_l1 _ _).trans hk)
  have er : Cert.KernelIdeal.dot_S256x2048_S2048x2048_S256x2048_1_0_0_1_n_n.rhsIdx (ix2 p n) ((ValueIdx.contrEquiv1 Cert.KernelIdeal.dot_S256x2048_S2048x2048_S256x2048_1_0_0_1_n_n 2048 rfl rfl).symm k) = ix2 k n := funext fun a => Fin.ext (by
    match a with
    | ⟨0, _⟩ => exact (mmH_r0 _ _).trans hk
    | ⟨1, _⟩ => exact mmH_r1 _ _)
  rw [el, er]

theorem mmO_l0 (i : Cert.KernelIdeal.S256x1024.Idx) (q : Cert.KernelIdeal.dot_S256x2048_S2048x1024_S256x1024_1_0_0_1_n_n.contr.Idx) :
    (Cert.KernelIdeal.dot_S256x2048_S2048x1024_S256x1024_1_0_0_1_n_n.lhsIdx i q 0).val = (i 0).val := by
  unfold DotDims.lhsIdx
  rw [dif_neg (show ¬(0 : Fin Cert.KernelIdeal.S256x2048.rank) ∈ Cert.KernelIdeal.dot_S256x2048_S2048x1024_S256x1024_1_0_0_1_n_n.lhsBatch by decide), dif_pos (show (0 : Fin Cert.KernelIdeal.S256x2048.rank) ∈ Cert.KernelIdeal.dot_S256x2048_S2048x1024_S256x1024_1_0_0_1_n_n.lhsNonContracting by decide)]
  rfl
theorem mmO_l1 (i : Cert.KernelIdeal.S256x1024.Idx) (q : Cert.KernelIdeal.dot_S256x2048_S2048x1024_S256x1024_1_0_0_1_n_n.contr.Idx) :
    (Cert.KernelIdeal.dot_S256x2048_S2048x1024_S256x1024_1_0_0_1_n_n.lhsIdx i q 1).val = (q ⟨0, by decide⟩).val :=
  Cert.KernelIdeal.dot_S256x2048_S2048x1024_S256x1024_1_0_0_1_n_n.lhsIdx_val_of_single rfl i q
theorem mmO_r0 (i : Cert.KernelIdeal.S256x1024.Idx) (q : Cert.KernelIdeal.dot_S256x2048_S2048x1024_S256x1024_1_0_0_1_n_n.contr.Idx) :
    (Cert.KernelIdeal.dot_S256x2048_S2048x1024_S256x1024_1_0_0_1_n_n.rhsIdx i q 0).val = (q ⟨0, by decide⟩).val :=
  Cert.KernelIdeal.dot_S256x2048_S2048x1024_S256x1024_1_0_0_1_n_n.rhsIdx_val_of_single rfl i q
theorem mmO_r1 (i : Cert.KernelIdeal.S256x1024.Idx) (q : Cert.KernelIdeal.dot_S256x2048_S2048x1024_S256x1024_1_0_0_1_n_n.contr.Idx) :
    (Cert.KernelIdeal.dot_S256x2048_S2048x1024_S256x1024_1_0_0_1_n_n.rhsIdx i q 1).val = (i 1).val := by
  unfold DotDims.rhsIdx
  rw [dif_neg (show ¬(1 : Fin Cert.KernelIdeal.S2048x1024.rank) ∈ Cert.KernelIdeal.dot_S256x2048_S2048x1024_S256x1024_1_0_0_1_n_n.rhsBatch by decide), dif_pos (show (1 : Fin Cert.KernelIdeal.S2048x1024.rank) ∈ Cert.KernelIdeal.dot_S256x2048_S2048x1024_S256x1024_1_0_0_1_n_n.rhsNonContracting by decide)]
  rfl
/-- The block product into the zero accumulator, read at `(p, n)`: the sum over the contracted coordinate. -/
theorem mmO_apply {φ₁ φ₂ : FTy} (l : FVec Ideal Cert.KernelIdeal.S256x2048 φ₁) (r : FVec Ideal Cert.KernelIdeal.S2048x1024 φ₂) (p : Fin 256) (n : Fin 1024) :
    matmul Cert.KernelIdeal.dot_S256x2048_S2048x1024_S256x1024_1_0_0_1_n_n none l r (constant Cert.KernelIdeal.S256x1024 .f32 0x00000000#32) (ix2 p n)
      = ∑ k : Fin 2048, l (ix2 p k) * r (ix2 k n) := by
  refine (Ideal.matmul_constant_zero_apply Cert.KernelIdeal.dot_S256x2048_S2048x1024_S256x1024_1_0_0_1_n_n none l r (ix2 p n)).trans ?_
  rw [← Equiv.sum_comp (ValueIdx.contrEquiv1 Cert.KernelIdeal.dot_S256x2048_S2048x1024_S256x1024_1_0_0_1_n_n 2048 rfl rfl).symm]
  refine Finset.sum_congr rfl fun k _ => ?_
  have hk := ValueIdx.contrEquiv1_symm_val Cert.KernelIdeal.dot_S256x2048_S2048x1024_S256x1024_1_0_0_1_n_n 2048 rfl rfl k
  have el : Cert.KernelIdeal.dot_S256x2048_S2048x1024_S256x1024_1_0_0_1_n_n.lhsIdx (ix2 p n) ((ValueIdx.contrEquiv1 Cert.KernelIdeal.dot_S256x2048_S2048x1024_S256x1024_1_0_0_1_n_n 2048 rfl rfl).symm k) = ix2 p k := funext fun a => Fin.ext (by
    match a with
    | ⟨0, _⟩ => exact mmO_l0 _ _
    | ⟨1, _⟩ => exact (mmO_l1 _ _).trans hk)
  have er : Cert.KernelIdeal.dot_S256x2048_S2048x1024_S256x1024_1_0_0_1_n_n.rhsIdx (ix2 p n) ((ValueIdx.contrEquiv1 Cert.KernelIdeal.dot_S256x2048_S2048x1024_S256x1024_1_0_0_1_n_n 2048 rfl rfl).symm k) = ix2 k n := funext fun a => Fin.ext (by
    match a with
    | ⟨0, _⟩ => exact (mmO_r0 _ _).trans hk
    | ⟨1, _⟩ => exact mmO_r1 _ _)
  rw [el, er]

/-! ### The block's decoder, stage by stage, as vectors -/

/-- The block's hidden layer: the latent's product plus the state's, plus the bias row, cut at zero. -/
def hidV (v4 : FVec Ideal Cert.KernelIdeal.S256x2048 .bf16) (v76 : FVec Ideal Cert.KernelIdeal.S256x2048 .f32)
    (v77 : Vec Ideal Cert.KernelIdeal.S2048x2048 .bf16) (v81 : Vec Ideal Cert.KernelIdeal.S1x2048 .f32) :
    FVec Ideal Cert.KernelIdeal.S256x2048 .f32 :=
  maximumf (addf (addf v76 (matmul Cert.KernelIdeal.dot_S256x2048_S2048x2048_S256x2048_1_0_0_1_n_n none v4
      (shapeCast Cert.KernelIdeal.S2048x2048 v77 shapeCasts_S2048x2048_S2048x2048 : FVec Ideal Cert.KernelIdeal.S2048x2048 .bf16)
      (constant Cert.KernelIdeal.S256x2048 .f32 0x00000000#32)))
    (broadcastTo Cert.KernelIdeal.S256x2048 (shapeCast Cert.KernelIdeal.S1x2048 v81 shapeCasts_S1x2048_S1x2048 : FVec Ideal Cert.KernelIdeal.S1x2048 .f32)
      broadcasts_S1x2048_S256x2048))
    (broadcast Cert.KernelIdeal.S256x2048 (Scalar.ofBits .f32 0x00000000#32))

/-- The block's output layer: the hidden layer's product plus the bias row. -/
def doutV (v86 : FVec Ideal Cert.KernelIdeal.S256x2048 .f32) (v88 : Vec Ideal Cert.KernelIdeal.S2048x1024 .bf16)
    (v91 : Vec Ideal Cert.KernelIdeal.S1x1024 .f32) : FVec Ideal Cert.KernelIdeal.S256x1024 .f32 :=
  addf (matmul Cert.KernelIdeal.dot_S256x2048_S2048x1024_S256x1024_1_0_0_1_n_n none (truncf .bf16 v86 bitsLt_bf16_f32)
      (shapeCast Cert.KernelIdeal.S2048x1024 v88 shapeCasts_S2048x1024_S2048x1024 : FVec Ideal Cert.KernelIdeal.S2048x1024 .bf16)
      (constant Cert.KernelIdeal.S256x1024 .f32 0x00000000#32))
    (broadcastTo Cert.KernelIdeal.S256x1024 (shapeCast Cert.KernelIdeal.S1x1024 v91 shapeCasts_S1x1024_S1x1024 : FVec Ideal Cert.KernelIdeal.S1x1024 .f32)
      broadcasts_S1x1024_S256x1024)

/-- The clipped log-variance half of the output layer. -/
def lvV (v94 : FVec Ideal Cert.KernelIdeal.S256x1024 .f32) : FVec Ideal Cert.KernelIdeal.S256x512 .f32 :=
  minimumf (broadcast Cert.KernelIdeal.S256x512 (Scalar.ofBits .f32 0x41200000#32))
    (maximumf (broadcast Cert.KernelIdeal.S256x512 (Scalar.ofBits .f32 0xC1200000#32))
      (extractStridedSlice Cert.KernelIdeal.S256x512 ![0, 512] v94 slices_S256x1024_o0_512_S256x512))

/-- The summand of the negative log-likelihood. -/
def termV (v0 : Vec Ideal Cert.KernelIdeal.S256x512 .f32) (v94 : FVec Ideal Cert.KernelIdeal.S256x1024 .f32) :
    FVec Ideal Cert.KernelIdeal.S256x512 .f32 :=
  addf (mulf (mulf (subf v0 (extractStridedSlice Cert.KernelIdeal.S256x512 ![0, 0] v94 slices_S256x1024_o0_0_S256x512))
        (subf v0 (extractStridedSlice Cert.KernelIdeal.S256x512 ![0, 0] v94 slices_S256x1024_o0_0_S256x512)))
      (exp (subf (broadcast Cert.KernelIdeal.S256x512 (Scalar.ofBits .f32 0x00000000#32)) (lvV v94))))
    (lvV v94)

/-- Half the row sums, as a column. -/
def halfSumV (v107 : FVec Ideal Cert.KernelIdeal.S256x512 .f32) : FVec Ideal Cert.KernelIdeal.S256x1 .f32 :=
  mulf (broadcast Cert.KernelIdeal.S256x1 (Scalar.ofBits .f32 0x3F000000#32))
    (shapeCast Cert.KernelIdeal.S256x1
      (multiReduction .add [1] Cert.KernelIdeal.S256 v107 0x00000000#32 reduces_S256x512_S256 (.inl rfl) rfl)
      shapeCasts_S256_S256x1)

/-- The block's term is these stages composed. -/
theorem k0_pay15_eq (v0 : Vec Ideal Cert.KernelIdeal.S256x512 .f32) (v4 : FVec Ideal Cert.KernelIdeal.S256x2048 .bf16)
    (v76 : FVec Ideal Cert.KernelIdeal.S256x2048 .f32) (v77 : Vec Ideal Cert.KernelIdeal.S2048x2048 .bf16)
    (v81 : Vec Ideal Cert.KernelIdeal.S1x2048 .f32) (v88 : Vec Ideal Cert.KernelIdeal.S2048x1024 .bf16)
    (v91 : Vec Ideal Cert.KernelIdeal.S1x1024 .f32) :
    k0_pay15 v0 v4 v76 v77 v81 v88 v91 = halfSumV (termV v0 (doutV (hidV v4 v76 v77 v81) v88 v91)) := rfl

/-! ### The stages read at an index -/

/-- A vector cast to a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The hidden layer at `(p, j)`. -/
theorem hidV_apply (v4 : FVec Ideal Cert.KernelIdeal.S256x2048 .bf16) (v76 : FVec Ideal Cert.KernelIdeal.S256x2048 .f32)
    (v77 : Vec Ideal Cert.KernelIdeal.S2048x2048 .bf16) (v81 : Vec Ideal Cert.KernelIdeal.S1x2048 .f32)
    (p : Fin 256) (j : Fin 2048) :
    hidV v4 v76 v77 v81 (ix2 p j)
      = max (v76 (ix2 p j) + (∑ k : Fin 2048, v4 (ix2 p k) * v77 (ix2 k j)) + v81 (ix2 (0 : Fin 1) j))
          (Ideal.ofBits .f32 0x00000000#32) := by
  unfold hidV
  rw [maximumf_apply, addf_apply, addf_apply, mmH_apply, shapeCast_self, shapeCast_self, broadcastTo_1b_ab_apply]
  rfl

/-- The output layer at `(p, j)`. -/
theorem doutV_apply (v86 : FVec Ideal Cert.KernelIdeal.S256x2048 .f32) (v88 : Vec Ideal Cert.KernelIdeal.S2048x1024 .bf16)
    (v91 : Vec Ideal Cert.KernelIdeal.S1x1024 .f32) (p : Fin 256) (j : Fin 1024) :
    doutV v86 v88 v91 (ix2 p j) = (∑ k : Fin 2048, v86 (ix2 p k) * v88 (ix2 k j)) + v91 (ix2 (0 : Fin 1) j) := by
  unfold doutV
  rw [addf_apply, mmO_apply, shapeCast_self, shapeCast_self, broadcastTo_1b_ab_apply]
  rfl

/-- The clipped log-variance at `(p, j)`: column `512 + j` of the output layer, between the two bounds. -/
theorem lvV_apply (v94 : FVec Ideal Cert.KernelIdeal.S256x1024 .f32) (p : Fin 256) (j : Fin 512) :
    lvV v94 (ix2 p j) = min (Ideal.ofBits .f32 0x41200000#32)
      (max (Ideal.ofBits .f32 0xC1200000#32) (v94 (ix2 p (⟨512 + j.val, by omega⟩ : Fin 1024)))) := by
  unfold lvV
  rw [minimumf_apply, maximumf_apply,
    slice2_axis1_apply 512 v94 slices_S256x1024_o0_512_S256x512 p j (⟨512 + j.val, by omega⟩ : Fin 1024) rfl]
  rfl

/-- The summand at `(p, j)`. -/
theorem termV_apply (v0 : Vec Ideal Cert.KernelIdeal.S256x512 .f32) (v94 : FVec Ideal Cert.KernelIdeal.S256x1024 .f32)
    (p : Fin 256) (j : Fin 512) :
    termV v0 v94 (ix2 p j)
      = (v0 (ix2 p j) - v94 (ix2 p (⟨j.val, by omega⟩ : Fin 1024))) * (v0 (ix2 p j) - v94 (ix2 p (⟨j.val, by omega⟩ : Fin 1024)))
          * Ideal.exp (-(lvV v94 (ix2 p j))) + lvV v94 (ix2 p j) := by
  unfold termV
  rw [addf_apply, mulf_apply, mulf_apply, subf_apply,
    slice2_axis1_apply 0 v94 slices_S256x1024_o0_0_S256x512 p j (⟨j.val, by omega⟩ : Fin 1024) (Nat.zero_add _).symm]
  show _ * _ * Ideal.exp (Ideal.ofBits .f32 0x00000000#32 - lvV v94 (ix2 p j)) + _ = _
  rw [Ideal.ofBits_zero_f32, zero_sub]

/-- Half the row sum at row `p`. -/
theorem halfSumV_apply (v107 : FVec Ideal Cert.KernelIdeal.S256x512 .f32) (p : Fin 256) :
    halfSumV v107 (ix2 p (0 : Fin 1)) = Ideal.ofBits .f32 0x3F000000#32 * ∑ k : Fin 512, v107 (ix2 p k) := by
  unfold halfSumV
  rw [mulf_apply]
  refine congrArg (_ * ·) ?_
  rw [shapeCast_a_a1_apply]
  refine (Ideal.multiReduction_add_single v107 _ reduces_S256x512_S256 _ _ (ix1 p)).trans ?_
  refine Finset.sum_congr rfl fun k _ => ?_
  exact congrArg v107 (funext fun a => Fin.ext (by match a with | ⟨0, _⟩ => rfl | ⟨1, _⟩ => rfl))

/-! ### The reference's decoder read at an index -/

/-- A sum over the 2304 joined input coordinates is the sum over the first 256 plus the sum over the other 2048. -/
theorem sum_2304 (f : Fin 2304 → EReal) :
    ∑ k, f k = (∑ k : Fin 256, f (⟨k.val, by omega⟩ : Fin 2304)) + ∑ k : Fin 2048, f (⟨256 + k.val, by omega⟩ : Fin 2304) :=
  Fin.sum_univ_add (a := 256) (b := 2048) f

/-- The joined input `[z, h]` at a coordinate below 256 is the latent. -/
theorem v33_left (r : Fin 4096) (k : Fin 256) :
    val_main_v33 (F := Ideal) a0 a2 a3 a8 a9 a10 a11 (ix2 r (⟨k.val, by omega⟩ : Fin 2304))
      = val_main_v32 (F := Ideal) a0 a2 a3 a8 a9 a10 a11 (ix2 r k) := by
  unfold val_main_v33
  generalize val_main_v32 (F := Ideal) a0 a2 a3 a8 a9 a10 a11 = z
  refine concatenate_pair_apply_left (t := Cert.ReferenceIdeal.S4096x2304) (s₁ := Cert.ReferenceIdeal.S4096x256)
    (s₂ := Cert.ReferenceIdeal.S4096x2048) 1 z a2 _ (ix2 r (⟨k.val, by omega⟩ : Fin 2304)) rfl (ix2 r k) ?_
  intro b
  match b with
  | ⟨0, _⟩ => rfl
  | ⟨1, _⟩ => rfl

/-- The joined input `[z, h]` at a coordinate `256 + k` is the state at `k`. -/
theorem v33_right (r : Fin 4096) (k : Fin 2048) :
    val_main_v33 (F := Ideal) a0 a2 a3 a8 a9 a10 a11 (ix2 r (⟨256 + k.val, by omega⟩ : Fin 2304)) = a2 (ix2 r k) := by
  unfold val_main_v33
  generalize val_main_v32 (F := Ideal) a0 a2 a3 a8 a9 a10 a11 = z
  refine concatenate_pair_apply_right (t := Cert.ReferenceIdeal.S4096x2304) (s₁ := Cert.ReferenceIdeal.S4096x256)
    (s₂ := Cert.ReferenceIdeal.S4096x2048) 1 z a2 _ (ix2 r (⟨256 + k.val, by omega⟩ : Fin 2304)) rfl rfl (ix2 r k) ?_ ?_
  · intro b hb
    match b, hb with
    | ⟨0, _⟩, _ => rfl
    | ⟨1, _⟩, hb => exact absurd (Fin.ext rfl) hb
  · show k.val + 256 = 256 + k.val
    omega

/-- The transposed first weight matrix at the product's right index. -/
theorem v34_at (r : Fin 4096) (j : Fin 2048) (k : Fin 2304) :
    val_main_v34 (F := Ideal) a12 (ridx_main_v35 (ix2 r j) k) = a12 (ix2 j k) := by
  rw [val_main_v34_apply]
  exact congrArg a12 (funext fun a => Fin.ext (by match a with | ⟨0, _⟩ => rfl | ⟨1, _⟩ => rfl))

theorem lidx35 (r : Fin 4096) (j : Fin 2048) (k : Fin 2304) : lidx_main_v35 (ix2 r j) k = ix2 r k :=
  funext fun a => Fin.ext (by match a with | ⟨0, _⟩ => rfl | ⟨1, _⟩ => rfl)

/-- The reference's hidden layer at `(r, j)`, its one product split at coordinate 256. -/
theorem ref_hid (r : Fin 4096) (j : Fin 2048) :
    val_main_v39 (F := Ideal) a0 a2 a3 a8 a9 a10 a11 a12 a13 (ix2 r j)
      = max (((∑ k : Fin 256, val_main_v32 (F := Ideal) a0 a2 a3 a8 a9 a10 a11 (ix2 r k) * a12 (ix2 j (⟨k.val, by omega⟩ : Fin 2304)))
              + ∑ k : Fin 2048, a2 (ix2 r k) * a12 (ix2 j (⟨256 + k.val, by omega⟩ : Fin 2304))) + a13 (ix1 j))
          (Ideal.ofBits .f32 0x00000000#32) := by
  have e35 : val_main_v35 (F := Ideal) a0 a2 a3 a8 a9 a10 a11 a12 (ix2 r j)
      = (∑ k : Fin 256, val_main_v32 (F := Ideal) a0 a2 a3 a8 a9 a10 a11 (ix2 r k) * a12 (ix2 j (⟨k.val, by omega⟩ : Fin 2304)))
        + ∑ k : Fin 2048, a2 (ix2 r k) * a12 (ix2 j (⟨256 + k.val, by omega⟩ : Fin 2304)) := by
    rw [val_main_v35_apply, sum_2304]
    refine congrArg₂ (· + ·) (Finset.sum_congr rfl fun k _ => ?_) (Finset.sum_congr rfl fun k _ => ?_)
    · rw [lidx35, v34_at, v33_left]
    · rw [lidx35, v34_at, v33_right]
  have e37 : val_main_v37 (F := Ideal) a13 (ix2 r j) = a13 (ix1 j) := by
    rw [val_main_v37_apply, val_main_v36_apply]
    exact congrArg a13 (funext fun a => Fin.ext (by match a with | ⟨0, _⟩ => rfl))
  rw [val_main_v39_apply, val_main_v38_apply, e35, e37, val_main_call3_v0_apply, val_main_call3_cst_apply]
  rfl

/-- The reference's output layer at `(r, j)`. -/
theorem ref_dout (r : Fin 4096) (j : Fin 1024) :
    val_main_v44 (F := Ideal) a0 a2 a3 a8 a9 a10 a11 a12 a13 a14 a15 (ix2 r j)
      = (∑ k : Fin 2048, val_main_v39 (F := Ideal) a0 a2 a3 a8 a9 a10 a11 a12 a13 (ix2 r k) * a14 (ix2 j k)) + a15 (ix1 j) := by
  have e41 : val_main_v41 (F := Ideal) a0 a2 a3 a8 a9 a10 a11 a12 a13 a14 (ix2 r j)
      = ∑ k : Fin 2048, val_main_v39 (F := Ideal) a0 a2 a3 a8 a9 a10 a11 a12 a13 (ix2 r k) * a14 (ix2 j k) := by
    rw [val_main_v41_apply]
    refine Finset.sum_congr rfl fun k _ => ?_
    rw [val_main_v40_apply]
    refine congrArg₂ (· * ·) (congrArg _ ?_) (congrArg a14 ?_)
    · exact funext fun a => Fin.ext (by match a with | ⟨0, _⟩ => rfl | ⟨1, _⟩ => rfl)
    · exact funext fun a => Fin.ext (by match a with | ⟨0, _⟩ => rfl | ⟨1, _⟩ => rfl)
  have e43 : val_main_v43 (F := Ideal) a15 (ix2 r j) = a15 (ix1 j) := by
    rw [val_main_v43_apply, val_main_v42_apply]
    exact congrArg a15 (funext fun a => Fin.ext (by match a with | ⟨0, _⟩ => rfl))
  rw [val_main_v44_apply, e41, e43]
  rfl

/-- The reference's clipped log-variance at `(r, j)`. -/
theorem ref_lv (r : Fin 4096) (j : Fin 512) :
    val_main_v47 (F := Ideal) a0 a2 a3 a8 a9 a10 a11 a12 a13 a14 a15 (ix2 r j)
      = min (Ideal.ofBits .f32 0x41200000#32) (max (Ideal.ofBits .f32 0xC1200000#32)
          (val_main_v44 (F := Ideal) a0 a2 a3 a8 a9 a10 a11 a12 a13 a14 a15 (ix2 r (⟨512 + j.val, by omega⟩ : Fin 1024)))) := by
  have e46 : val_main_v46 (F := Ideal) a0 a2 a3 a8 a9 a10 a11 a12 a13 a14 a15 (ix2 r j)
      = val_main_v44 (F := Ideal) a0 a2 a3 a8 a9 a10 a11 a12 a13 a14 a15 (ix2 r (⟨512 + j.val, by omega⟩ : Fin 1024)) := by
    rw [val_main_v46_apply]
    exact congrArg _ (funext fun a => Fin.ext (by match a with | ⟨0, _⟩ => rfl | ⟨1, _⟩ => rfl))
  rw [val_main_v47_apply, val_main_call4_v4_apply, val_main_call4_v3_apply, val_main_cst_3_apply,
    val_main_call4_v2_apply, val_main_call4_v1_apply, val_main_call4_v0_apply, val_main_cst_2_apply, e46]
  rfl

/-- The reference's summand at `(r, j)`. -/
theorem ref_term (r : Fin 4096) (j : Fin 512) :
    val_main_v53 (F := Ideal) a0 a2 a3 a8 a9 a10 a11 a12 a13 a14 a15 (ix2 r j)
      = (a0 (ix2 r j) - val_main_v44 (F := Ideal) a0 a2 a3 a8 a9 a10 a11 a12 a13 a14 a15 (ix2 r (⟨j.val, by omega⟩ : Fin 1024)))
          * (a0 (ix2 r j) - val_main_v44 (F := Ideal) a0 a2 a3 a8 a9 a10 a11 a12 a13 a14 a15 (ix2 r (⟨j.val, by omega⟩ : Fin 1024)))
          * Ideal.exp (-(val_main_v47 (F := Ideal) a0 a2 a3 a8 a9 a10 a11 a12 a13 a14 a15 (ix2 r j)))
        + val_main_v47 (F := Ideal) a0 a2 a3 a8 a9 a10 a11 a12 a13 a14 a15 (ix2 r j) := by
  have e45 : val_main_v45 (F := Ideal) a0 a2 a3 a8 a9 a10 a11 a12 a13 a14 a15 (ix2 r j)
      = val_main_v44 (F := Ideal) a0 a2 a3 a8 a9 a10 a11 a12 a13 a14 a15 (ix2 r (⟨j.val, by omega⟩ : Fin 1024)) := by
    rw [val_main_v45_apply]
    exact congrArg _ (funext fun a => Fin.ext (by match a with | ⟨0, _⟩ => rfl | ⟨1, _⟩ => rfl))
  rw [val_main_v53_apply, val_main_v52_apply, val_main_v49_apply, val_main_v48_apply, val_main_v51_apply,
    val_main_v50_apply, e45]
  rfl

/-- The reference's negative log-likelihood at row `r`: half the sum of the summands. -/
theorem ref_nll (r : Fin 4096) :
    val_main_v56 (F := Ideal) a0 a2 a3 a8 a9 a10 a11 a12 a13 a14 a15 (ix1 r)
      = Ideal.ofBits .f32 0x3F000000#32 * ∑ k : Fin 512, val_main_v53 (F := Ideal) a0 a2 a3 a8 a9 a10 a11 a12 a13 a14 a15 (ix2 r k) := by
  rw [val_main_v56_apply, val_main_v55_apply, val_main_cst_5_apply, val_main_v54_apply, val_main_cst_4_apply]
  show _ * (Ideal.ofBits .f32 0x00000000#32 + _) = _
  rw [Ideal.ofBits_zero_f32, zero_add]
  refine congrArg (_ * ·) (Finset.sum_congr rfl fun k _ => ?_)
  exact congrArg _ (funext fun a => Fin.ext (by match a with | ⟨0, _⟩ => rfl | ⟨1, _⟩ => rfl))

/-! ### The block against the reference, layer by layer -/

/-- The latent's product at `(p, j)`. -/
theorem zdot_apply (zb : FVec Ideal Cert.KernelIdeal.S256x256 .f32) (b12 : Vec Ideal Cert.KernelIdeal.S256x2048 .bf16)
    (p : Fin 256) (j : Fin 2048) : zdot zb b12 (ix2 p j) = ∑ k : Fin 256, zb (ix2 p k) * b12 (ix2 k j) := by
  unfold zdot
  rw [mmZ_apply, shapeCast_self]
  rfl

/-- The block's hidden layer is the reference's at the block's rows. -/
theorem hid_eq (H : DecBlocks t b0 b1 zb b12 b13 b14 b15 b16 a0 a2 a3 a8 a9 a10 a11 a12 a13 a14 a15) (p : Fin 256) (j : Fin 2048) :
    hidV (k0_pay3 b1) (zdot zb b12) b13 b14 (ix2 p j) = val_main_v39 (F := Ideal) a0 a2 a3 a8 a9 a10 a11 a12 a13 (ix2 (row256 t p) j) := by
  rw [hidV_apply, ref_hid, zdot_apply, H.h14 j]
  refine congrArg (max · _) (congrArg (· + _) (congrArg₂ (· + ·) (Finset.sum_congr rfl fun k _ => ?_)
    (Finset.sum_congr rfl fun k _ => ?_)))
  · rw [H.hz p k, H.h12 k j]
  · rw [← H.h1 p k, ← H.h13 k j]
    rfl

/-- The block's output layer is the reference's at the block's rows. -/
theorem dout_eq (H : DecBlocks t b0 b1 zb b12 b13 b14 b15 b16 a0 a2 a3 a8 a9 a10 a11 a12 a13 a14 a15) (p : Fin 256) (j : Fin 1024) :
    doutV (hidV (k0_pay3 b1) (zdot zb b12) b13 b14) b15 b16 (ix2 p j)
      = val_main_v44 (F := Ideal) a0 a2 a3 a8 a9 a10 a11 a12 a13 a14 a15 (ix2 (row256 t p) j) := by
  rw [doutV_apply, ref_dout, H.h16 j]
  refine congrArg (· + _) (Finset.sum_congr rfl fun k _ => ?_)
  rw [hid_eq H p k, H.h15 k j]

/-- The negative log-likelihood column the block computes is the reference's, row by row. -/
theorem nll_block (H : DecBlocks t b0 b1 zb b12 b13 b14 b15 b16 a0 a2 a3 a8 a9 a10 a11 a12 a13 a14 a15) (p : Fin 256) :
    k0_pay15 b0 (k0_pay3 b1) (zdot zb b12) b13 b14 b15 b16 (ix2 p (0 : Fin 1))
      = val_main_v56 (F := Ideal) a0 a2 a3 a8 a9 a10 a11 a12 a13 a14 a15 (ix1 (row256 t p)) := by
  rw [k0_pay15_eq, halfSumV_apply, ref_nll]
  refine congrArg (_ * ·) (Finset.sum_congr rfl fun j _ => ?_)
  rw [termV_apply, ref_term, lvV_apply, ref_lv, H.h0 p j, dout_eq H p, dout_eq H p]

end Cert.Bridge.Nll

end
-- ==== Proof.LibRealClosure.lean ====
/-
  Real numbers among the extended reals: closed under sum, product, maximum and finite sums (so a matrix product of
  real matrices, a bias added, a rectifier applied, stay real), and the law that multiplying by `exp (0 - l)` is dividing
  by `exp l` at the ideal instance when `l` is a real number (at `l = -∞` the two sides differ at `0`).
-/
import Idealize.ShloMosaic.PureOps.Ideal
import Idealize.ShloMosaic.PureOps.Ideal.Laws

noncomputable section

open Idealize.ShloMosaic

namespace Cert.Bridge.Kl

/-- An extended real that is a real number. -/
def IsR (x : EReal) : Prop := ∃ r : ℝ, x = (r : EReal)

theorem IsR.add {a b : EReal} : IsR a → IsR b → IsR (a + b) := fun ⟨r, hr⟩ ⟨s, hs⟩ => ⟨r + s, by rw [hr, hs, EReal.coe_add]⟩
theorem IsR.mul {a b : EReal} : IsR a → IsR b → IsR (a * b) := fun ⟨r, hr⟩ ⟨s, hs⟩ => ⟨r * s, by rw [hr, hs, EReal.coe_mul]⟩
theorem IsR.max {a b : EReal} (ha : IsR a) (hb : IsR b) : IsR (max a b) := by
  rcases max_choice a b with h | h <;> rw [h] <;> assumption
theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))
theorem IsR.zero : IsR (Ideal.ofBits .f32 0x00000000#32) := ⟨0, by rw [Ideal.ofBits_zero_f32]; rfl⟩

/-- Multiplying by `exp (0 - l)` is dividing by `exp l` when `l` is a real number (at `l = -∞` the two differ at `0`:
    `0 · ∞ = 0` against `0 / 0`). -/
theorem mul_exp_neg (a : EReal) {l : EReal} (hl : IsR l) : a * Ideal.exp (0 - l) = Ideal.div a (Ideal.exp l) := by
  obtain ⟨r, rfl⟩ := hl
  rw [Ideal.exp_coe, Ideal.div_coe (Real.exp_pos r).ne', zero_sub, ← EReal.coe_neg, Ideal.exp_coe, Real.exp_neg, one_div]

end Cert.Bridge.Kl

end
-- ==== Proof.BridgeKl.lean ====
/-
  The prior net and the KL term of the fused call against the reference, on one block of 256 rows. The block computes
  the prior statistics `relu (h · W₁ᵀ + b₁) · W₂ᵀ + b₂`, cut into the prior mean and log-variance, and
  `½ · Σ ((μq - μp)² · exp (-logvar_p) + exp (logvar_q) · exp (-logvar_p) + (logvar_p - logvar_q) - 1)` along each row;
  the reference divides by `exp (logvar_p)` where the block multiplies by `exp (-logvar_p)`. On the extended reals the
  two agree when `logvar_p` is a real number, and the prior statistics are: sums of products of real numbers, when
  the state and the prior net's parameters are real. This is the one place the certificate uses the precondition.
-/
import proofs.«141820_j69552700391572_2_alg».proof.Proof.Gen.KernelIdeal.Skeleton
import proofs.«141820_j69552700391572_2_alg».proof.Proof.Gen.ReferenceIdeal.Read
import proofs.«141820_j69552700391572_2_alg».proof.Proof.Rows
import proofs.«141820_j69552700391572_2_alg».proof.Proof.LibRealClosure
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open Cert.KernelIdeal.Gen Cert.ReferenceIdeal.Read

namespace Cert.Bridge.Kl

/-! ## Index bookkeeping -/

theorem ix2_ext {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

theorem ix1_ext {n : Nat} (f : (⟨1, ![n]⟩ : Shape).Idx) (a : Fin n) (h0 : (f 0).val = a.val) : f = ix1 a :=
  funext fun d => Fin.ext (by match d with | ⟨0, _⟩ => exact h0)

/-- A vector cast to a column reads, at `(i, 0)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The block products -/

/-- The block product at an entry is the sum over the contracted axis of the row's entries times the column's. -/
theorem mm_h_w1 (l : FVec Ideal Cert.KernelIdeal.S256x2048 .bf16) (r : FVec Ideal Cert.KernelIdeal.S2048x2048 .bf16) (p : Fin 256) (n : Fin 2048) :
    matmul Cert.KernelIdeal.dot_S256x2048_S2048x2048_S256x2048_1_0_0_1_n_n none l r (constant Cert.KernelIdeal.S256x2048 .f32 0x00000000#32) (ix2 p n)
      = ∑ k : Fin 2048, l (ix2 p k) * r (ix2 k n) := by
  simp only [matmul]
  rw [Ideal.matmul_constant_zero_apply, ← Equiv.sum_comp (ValueIdx.contrEquiv1 Cert.KernelIdeal.dot_S256x2048_S2048x2048_S256x2048_1_0_0_1_n_n 2048 rfl rfl).symm]
  refine Finset.sum_congr rfl fun k _ => ?_
  have hk := ValueIdx.contrEquiv1_symm_val Cert.KernelIdeal.dot_S256x2048_S2048x2048_S256x2048_1_0_0_1_n_n 2048 rfl rfl k
  have el : Cert.KernelIdeal.dot_S256x2048_S2048x2048_S256x2048_1_0_0_1_n_n.lhsIdx (ix2 p n) ((ValueIdx.contrEquiv1 Cert.KernelIdeal.dot_S256x2048_S2048x2048_S256x2048_1_0_0_1_n_n 2048 rfl rfl).symm k) = ix2 p k := funext fun a => Fin.ext (by
    match a with
    | ⟨0, _⟩ =>
      show (Cert.KernelIdeal.dot_S256x2048_S2048x2048_S256x2048_1_0_0_1_n_n.lhsIdx (ix2 p n) _ 0).val = p.val
      unfold DotDims.lhsIdx
      rw [dif_neg (show ¬(0 : Fin Cert.KernelIdeal.S256x2048.rank) ∈ Cert.KernelIdeal.dot_S256x2048_S2048x2048_S256x2048_1_0_0_1_n_n.lhsBatch by decide), dif_pos (show (0 : Fin Cert.KernelIdeal.S256x2048.rank) ∈ Cert.KernelIdeal.dot_S256x2048_S2048x2048_S256x2048_1_0_0_1_n_n.lhsNonContracting by decide)]
      rfl
    | ⟨1, _⟩ => exact (Cert.KernelIdeal.dot_S256x2048_S2048x2048_S256x2048_1_0_0_1_n_n.lhsIdx_val_of_single rfl _ _).trans hk)
  have er : Cert.KernelIdeal.dot_S256x2048_S2048x2048_S256x2048_1_0_0_1_n_n.rhsIdx (ix2 p n) ((ValueIdx.contrEquiv1 Cert.KernelIdeal.dot_S256x2048_S2048x2048_S256x2048_1_0_0_1_n_n 2048 rfl rfl).symm k) = ix2 k n := funext fun a => Fin.ext (by
    match a with
    | ⟨0, _⟩ => exact (Cert.KernelIdeal.dot_S256x2048_S2048x2048_S256x2048_1_0_0_1_n_n.rhsIdx_val_of_single rfl _ _).trans hk
    | ⟨1, _⟩ =>
      show (Cert.KernelIdeal.dot_S256x2048_S2048x2048_S256x2048_1_0_0_1_n_n.rhsIdx (ix2 p n) _ 1).val = n.val
      unfold DotDims.rhsIdx
      rw [dif_neg (show ¬(1 : Fin Cert.KernelIdeal.S2048x2048.rank) ∈ Cert.KernelIdeal.dot_S256x2048_S2048x2048_S256x2048_1_0_0_1_n_n.rhsBatch by decide), dif_pos (show (1 : Fin Cert.KernelIdeal.S2048x2048.rank) ∈ Cert.KernelIdeal.dot_S256x2048_S2048x2048_S256x2048_1_0_0_1_n_n.rhsNonContracting by decide)]
      rfl)
  rw [el, er]

/-- The block product at an entry is the sum over the contracted axis of the row's entries times the column's. -/
theorem mm_h_w2 (l : FVec Ideal Cert.KernelIdeal.S256x2048 .bf16) (r : FVec Ideal Cert.KernelIdeal.S2048x512 .bf16) (p : Fin 256) (n : Fin 512) :
    matmul Cert.KernelIdeal.dot_S256x2048_S2048x512_S256x512_1_0_0_1_n_n none l r (constant Cert.KernelIdeal.S256x512 .f32 0x00000000#32) (ix2 p n)
      = ∑ k : Fin 2048, l (ix2 p k) * r (ix2 k n) := by
  simp only [matmul]
  rw [Ideal.matmul_constant_zero_apply, ← Equiv.sum_comp (ValueIdx.contrEquiv1 Cert.KernelIdeal.dot_S256x2048_S2048x512_S256x512_1_0_0_1_n_n 2048 rfl rfl).symm]
  refine Finset.sum_congr rfl fun k _ => ?_
  have hk := ValueIdx.contrEquiv1_symm_val Cert.KernelIdeal.dot_S256x2048_S2048x512_S256x512_1_0_0_1_n_n 2048 rfl rfl k
  have el : Cert.KernelIdeal.dot_S256x2048_S2048x512_S256x512_1_0_0_1_n_n.lhsIdx (ix2 p n) ((ValueIdx.contrEquiv1 Cert.KernelIdeal.dot_S256x2048_S2048x512_S256x512_1_0_0_1_n_n 2048 rfl rfl).symm k) = ix2 p k := funext fun a => Fin.ext (by
    match a with
    | ⟨0, _⟩ =>
      show (Cert.KernelIdeal.dot_S256x2048_S2048x512_S256x512_1_0_0_1_n_n.lhsIdx (ix2 p n) _ 0).val = p.val
      unfold DotDims.lhsIdx
      rw [dif_neg (show ¬(0 : Fin Cert.KernelIdeal.S256x2048.rank) ∈ Cert.KernelIdeal.dot_S256x2048_S2048x512_S256x512_1_0_0_1_n_n.lhsBatch by decide), dif_pos (show (0 : Fin Cert.KernelIdeal.S256x2048.rank) ∈ Cert.KernelIdeal.dot_S256x2048_S2048x512_S256x512_1_0_0_1_n_n.lhsNonContracting by decide)]
      rfl
    | ⟨1, _⟩ => exact (Cert.KernelIdeal.dot_S256x2048_S2048x512_S256x512_1_0_0_1_n_n.lhsIdx_val_of_single rfl _ _).trans hk)
  have er : Cert.KernelIdeal.dot_S256x2048_S2048x512_S256x512_1_0_0_1_n_n.rhsIdx (ix2 p n) ((ValueIdx.contrEquiv1 Cert.KernelIdeal.dot_S256x2048_S2048x512_S256x512_1_0_0_1_n_n 2048 rfl rfl).symm k) = ix2 k n := funext fun a => Fin.ext (by
    match a with
    | ⟨0, _⟩ => exact (Cert.KernelIdeal.dot_S256x2048_S2048x512_S256x512_1_0_0_1_n_n.rhsIdx_val_of_single rfl _ _).trans hk
    | ⟨1, _⟩ =>
      show (Cert.KernelIdeal.dot_S256x2048_S2048x512_S256x512_1_0_0_1_n_n.rhsIdx (ix2 p n) _ 1).val = n.val
      unfold DotDims.rhsIdx
      rw [dif_neg (show ¬(1 : Fin Cert.KernelIdeal.S2048x512.rank) ∈ Cert.KernelIdeal.dot_S256x2048_S2048x512_S256x512_1_0_0_1_n_n.rhsBatch by decide), dif_pos (show (1 : Fin Cert.KernelIdeal.S2048x512.rank) ∈ Cert.KernelIdeal.dot_S256x2048_S2048x512_S256x512_1_0_0_1_n_n.rhsNonContracting by decide)]
      rfl)
  rw [el, er]

/-! ## The blocks -/

variable (t : Fin 16)
  (b1 : Vec Ideal Cert.KernelIdeal.S256x2048 .f32) (b3 : Vec Ideal Cert.KernelIdeal.S2048x2048 .bf16) (b4 : Vec Ideal Cert.KernelIdeal.S1x2048 .f32)
  (b5 : Vec Ideal Cert.KernelIdeal.S2048x512 .bf16) (b6 : Vec Ideal Cert.KernelIdeal.S1x512 .f32)
  (muq lvq : FVec Ideal Cert.KernelIdeal.S256x256 .f32)
  (a0 : (⟨Cert.ReferenceIdeal.S4096x512, .f32⟩ : BufTy).Contents (Elt Ideal)) (a2 : (⟨Cert.ReferenceIdeal.S4096x2048, .f32⟩ : BufTy).Contents (Elt Ideal))
  (a4 : (⟨Cert.ReferenceIdeal.S2048x2048, .f32⟩ : BufTy).Contents (Elt Ideal)) (a5 : (⟨Cert.ReferenceIdeal.S2048, .f32⟩ : BufTy).Contents (Elt Ideal)) (a6 : (⟨Cert.ReferenceIdeal.S512x2048, .f32⟩ : BufTy).Contents (Elt Ideal)) (a7 : (⟨Cert.ReferenceIdeal.S512, .f32⟩ : BufTy).Contents (Elt Ideal))
  (a8 : (⟨Cert.ReferenceIdeal.S2048x2560, .f32⟩ : BufTy).Contents (Elt Ideal)) (a9 : (⟨Cert.ReferenceIdeal.S2048, .f32⟩ : BufTy).Contents (Elt Ideal)) (a10 : (⟨Cert.ReferenceIdeal.S512x2048, .f32⟩ : BufTy).Contents (Elt Ideal)) (a11 : (⟨Cert.ReferenceIdeal.S512, .f32⟩ : BufTy).Contents (Elt Ideal))

/-- The blocks the prior net and the KL term read at grid point `t`: the state rows `256 t + p`; the prior net's
    two weight matrices transposed and its biases as rows; the posterior mean and clipped log-variance of those rows
    (already the reference's); and that the state and the prior net's parameters are real numbers. -/
structure KlBlocks : Prop where
  h1 : ∀ (p : Fin 256) (k : Fin 2048), b1 (ix2 p k) = a2 (ix2 (row256 t p) k)
  h3 : ∀ (k : Fin 2048) (n : Fin 2048), b3 (ix2 k n) = a4 (ix2 n k)
  h4 : ∀ n : Fin 2048, b4 (ix2 (0 : Fin 1) n) = a5 (ix1 n)
  h5 : ∀ (k : Fin 2048) (n : Fin 512), b5 (ix2 k n) = a6 (ix2 n k)
  h6 : ∀ n : Fin 512, b6 (ix2 (0 : Fin 1) n) = a7 (ix1 n)
  hmu : ∀ (p : Fin 256) (q : Fin 256), muq (ix2 p q) = val_main_v25 (F := Ideal) a0 a2 a8 a9 a10 a11 (ix2 (row256 t p) q)
  hlv : ∀ (p : Fin 256) (q : Fin 256), lvq (ix2 p q) = val_main_v27 (F := Ideal) a0 a2 a8 a9 a10 a11 (ix2 (row256 t p) q)
  r2 : ∀ i, IsR (a2 i)
  r4 : ∀ i, IsR (a4 i)
  r5 : ∀ i, IsR (a5 i)
  r6 : ∀ i, IsR (a6 i)
  r7 : ∀ i, IsR (a7 i)

variable {t b1 b3 b4 b5 b6 muq lvq a0 a2 a4 a5 a6 a7 a8 a9 a10 a11}

/-! ## The prior net -/

/-- The prior net's hidden layer on the block is the reference's, row by row. -/
theorem ph_block (H : KlBlocks t b1 b3 b4 b5 b6 muq lvq a0 a2 a4 a5 a6 a7 a8 a9 a10 a11) (p : Fin 256) (x : Fin 2048) :
    max (∑ k : Fin 2048, b1 (ix2 p k) * b3 (ix2 k x) + b4 (ix2 (0 : Fin 1) x)) (FloatOps.ofBits (F := Ideal) .f32 0x00000000#32)
      = val_main_v5 (F := Ideal) a2 a4 a5 (ix2 (row256 t p) x) := by
  rw [val_main_v5_apply, val_main_v4_apply, val_main_v1_apply, val_main_v3_apply, val_main_v2_apply, val_main_call0_v0_apply, val_main_call0_cst_apply]
  refine congrArg₂ max (congrArg₂ (· + ·) (Finset.sum_congr rfl fun k _ => ?_) ?_) rfl
  · rw [val_main_v0_apply, H.h1 p k, H.h3 k x]
    exact congrArg₂ (· * ·) (congrArg a2 (ix2_ext _ _ _ rfl rfl).symm) (congrArg a4 (ix2_ext _ _ _ rfl rfl).symm)
  · rw [H.h4 x]; exact congrArg a5 (ix1_ext _ _ rfl).symm

/-- The prior net's statistics the block computes are the reference's, row by row. -/
theorem pstats_block (H : KlBlocks t b1 b3 b4 b5 b6 muq lvq a0 a2 a4 a5 a6 a7 a8 a9 a10 a11) (p : Fin 256) (j : Fin 512) :
    k0_pay4 b1 b3 b4 b5 b6 (ix2 p j) = val_main_v10 (F := Ideal) a2 a4 a5 a6 a7 (ix2 (row256 t p) j) := by
  unfold k0_pay4 k0_pay3
  simp only [addf_apply, maximumf_apply, truncf_apply, broadcast_apply, mm_h_w1, mm_h_w2, broadcastTo_1b_ab_apply, shapeCast_self]
  rw [val_main_v10_apply, val_main_v7_apply, val_main_v9_apply, val_main_v8_apply]
  refine congrArg₂ (· + ·) (Finset.sum_congr rfl fun x _ => ?_) ?_
  · rw [show lidx_main_v7 (ix2 (row256 t p) j) x = ix2 (row256 t p) x from ix2_ext _ _ _ rfl rfl, val_main_v6_apply, H.h5 x j]
    exact congrArg₂ (· * ·) (ph_block H p x) (congrArg a6 (ix2_ext _ _ _ rfl rfl).symm)
  · rw [H.h6 j]; exact congrArg a7 (ix1_ext _ _ rfl).symm

/-- They are real numbers: sums of products of real numbers. -/
theorem pstats_real (H : KlBlocks t b1 b3 b4 b5 b6 muq lvq a0 a2 a4 a5 a6 a7 a8 a9 a10 a11) (p : Fin 256) (j : Fin 512) : IsR (k0_pay4 b1 b3 b4 b5 b6 (ix2 p j)) := by
  unfold k0_pay4 k0_pay3
  simp only [addf_apply, maximumf_apply, truncf_apply, broadcast_apply, mm_h_w1, mm_h_w2, broadcastTo_1b_ab_apply, shapeCast_self]
  refine (IsR.sum _ _ fun x _ => ((((IsR.sum _ _ fun k _ => ?_).add ?_).max IsR.zero).mul ?_)).add ?_
  · rw [H.h1, H.h3]; exact (H.r2 _).mul (H.r4 _)
  · rw [H.h4]; exact H.r5 _
  · rw [H.h5]; exact H.r6 _
  · rw [H.h6]; exact H.r7 _

/-- The prior mean: the statistics' first 256 columns. -/
theorem mup_block (H : KlBlocks t b1 b3 b4 b5 b6 muq lvq a0 a2 a4 a5 a6 a7 a8 a9 a10 a11) (p q : Fin 256) :
    k0_pay5 b1 b3 b4 b5 b6 (ix2 p q) = val_main_v11 (F := Ideal) a2 a4 a5 a6 a7 (ix2 (row256 t p) q) := by
  unfold k0_pay5
  rw [slice2_axis1_apply 0 _ _ p q (⟨q.val, by omega⟩ : Fin 512) (by simp), pstats_block H, val_main_v11_apply]
  exact congrArg _ (ix2_ext _ _ _ rfl (by simp)).symm

/-- The prior log-variance: the statistics' last 256 columns; a real number. -/
theorem lvp_block (H : KlBlocks t b1 b3 b4 b5 b6 muq lvq a0 a2 a4 a5 a6 a7 a8 a9 a10 a11) (p q : Fin 256) :
    k0_pay6 b1 b3 b4 b5 b6 (ix2 p q) = val_main_v12 (F := Ideal) a2 a4 a5 a6 a7 (ix2 (row256 t p) q) := by
  unfold k0_pay6
  rw [slice2_axis1_apply 256 _ _ p q (⟨256 + q.val, by omega⟩ : Fin 512) rfl, pstats_block H, val_main_v12_apply]
  exact congrArg _ (ix2_ext _ _ _ rfl rfl).symm

theorem lvp_real (H : KlBlocks t b1 b3 b4 b5 b6 muq lvq a0 a2 a4 a5 a6 a7 a8 a9 a10 a11) (p q : Fin 256) : IsR (k0_pay6 b1 b3 b4 b5 b6 (ix2 p q)) := by
  unfold k0_pay6
  rw [slice2_axis1_apply 256 _ _ p q (⟨256 + q.val, by omega⟩ : Fin 512) rfl]
  exact pstats_real H p _

/-! ## The KL term -/

/-- One summand: with a real prior log-variance, multiplying by `exp (-logvar_p)` is dividing by `exp logvar_p`. -/
theorem kl_term (mq mp lp lq one : EReal) (hlp : IsR lp) :
    (mq - mp) * (mq - mp) * Ideal.exp (0 - lp) + Ideal.exp lq * Ideal.exp (0 - lp) + (lp - lq) - one
      = Ideal.div ((mq - mp) * (mq - mp)) (Ideal.exp lp) + Ideal.div (Ideal.exp lq) (Ideal.exp lp) + (lp - lq) - one := by
  rw [mul_exp_neg _ hlp, mul_exp_neg _ hlp]

/-- A lane sum of a [256, 256] block at row `p`. -/
theorem rowsum_256 (src : FVec Ideal Cert.KernelIdeal.S256x256 .f32) (p : Fin 256) :
    multiReduction .add [1] Cert.KernelIdeal.S256 src 0x00000000#32 reduces_S256x256_S256 (.inl rfl) rfl (ix1 p) = ∑ q : Fin 256, src (ix2 p q) := by
  refine (Ideal.multiReduction_add_single src 0x00000000#32 reduces_S256x256_S256 (.inl rfl) rfl (ix1 p)).trans ?_
  show ∑ k : Fin 256, src (reduces_S256x256_S256.lift (ix1 p) k) = _
  exact Finset.sum_congr rfl fun q _ => congrArg src (ix2_ext _ _ _ rfl rfl)

/-- The KL column of the block, over the posterior mean and clipped log-variance as variables (the fused call's term
    has their own expressions there). -/
def klcol (v22 v23 muq lvq : FVec Ideal Cert.KernelIdeal.S256x256 .f32) : FVec Ideal Cert.KernelIdeal.S256x1 .f32 :=
  have cst_32 : Ideal .f32 := Scalar.ofBits .f32 0x00000000#32
  have v57 : FVec Ideal Cert.KernelIdeal.S256x256 .f32 := broadcast Cert.KernelIdeal.S256x256 cst_32
  have v58 : FVec Ideal Cert.KernelIdeal.S256x256 .f32 := subf v57 v23
  have v59 : FVec Ideal Cert.KernelIdeal.S256x256 .f32 := exp v58
  have v60 : FVec Ideal Cert.KernelIdeal.S256x256 .f32 := subf muq v22
  have v61 : FVec Ideal Cert.KernelIdeal.S256x256 .f32 := mulf v60 v60
  have v62 : FVec Ideal Cert.KernelIdeal.S256x256 .f32 := mulf v61 v59
  have v63 : FVec Ideal Cert.KernelIdeal.S256x256 .f32 := exp lvq
  have v64 : FVec Ideal Cert.KernelIdeal.S256x256 .f32 := mulf v63 v59
  have v65 : FVec Ideal Cert.KernelIdeal.S256x256 .f32 := addf v62 v64
  have v66 : FVec Ideal Cert.KernelIdeal.S256x256 .f32 := subf v23 lvq
  have v67 : FVec Ideal Cert.KernelIdeal.S256x256 .f32 := addf v65 v66
  have cst_33 : Ideal .f32 := Scalar.ofBits .f32 0x3F800000#32
  have v68 : FVec Ideal Cert.KernelIdeal.S256x256 .f32 := broadcast Cert.KernelIdeal.S256x256 cst_33
  have v69 : FVec Ideal Cert.KernelIdeal.S256x256 .f32 := subf v67 v68
  have v70 : FVec Ideal Cert.KernelIdeal.S256 .f32 := multiReduction .add [1] Cert.KernelIdeal.S256 v69 0x00000000#32 reduces_S256x256_S256 (.inl rfl) rfl
  have v71 : FVec Ideal Cert.KernelIdeal.S256x1 .f32 := shapeCast Cert.KernelIdeal.S256x1 v70 shapeCasts_S256_S256x1
  have cst_35 : Ideal .f32 := Scalar.ofBits .f32 0x3F000000#32
  have v72 : FVec Ideal Cert.KernelIdeal.S256x1 .f32 := broadcast Cert.KernelIdeal.S256x1 cst_35
  have v73 : FVec Ideal Cert.KernelIdeal.S256x1 .f32 := mulf v72 v71
  v73

theorem exp_apply {s : Shape} {φ : FTy} (v : FVec Ideal s φ) (i : s.Idx) : exp v i = Ideal.exp (v i) := rfl

/-- The KL column the block computes is the reference's, row by row. -/
theorem kl_block (H : KlBlocks t b1 b3 b4 b5 b6 muq lvq a0 a2 a4 a5 a6 a7 a8 a9 a10 a11) (p : Fin 256) :
    klcol (k0_pay5 b1 b3 b4 b5 b6) (k0_pay6 b1 b3 b4 b5 b6) muq lvq (ix2 p (0 : Fin 1))
      = val_main_v70 (F := Ideal) a0 a2 a4 a5 a6 a7 a8 a9 a10 a11 (ix1 (row256 t p)) := by
  have hsum : ∀ q : Fin 256,
      (subf (addf (addf (mulf (mulf (subf muq (k0_pay5 b1 b3 b4 b5 b6)) (subf muq (k0_pay5 b1 b3 b4 b5 b6)))
            (exp (subf (broadcast Cert.KernelIdeal.S256x256 (FloatOps.ofBits (F := Ideal) .f32 0x00000000#32)) (k0_pay6 b1 b3 b4 b5 b6))))
          (mulf (exp lvq) (exp (subf (broadcast Cert.KernelIdeal.S256x256 (FloatOps.ofBits (F := Ideal) .f32 0x00000000#32)) (k0_pay6 b1 b3 b4 b5 b6)))))
          (subf (k0_pay6 b1 b3 b4 b5 b6) lvq))
        (broadcast Cert.KernelIdeal.S256x256 (FloatOps.ofBits (F := Ideal) .f32 0x3F800000#32))) (ix2 p q)
      = val_main_v67 (F := Ideal) a0 a2 a4 a5 a6 a7 a8 a9 a10 a11 (ix2 (row256 t p) q) := by
    intro q
    have hr := lvp_real H p q
    rw [lvp_block H p q] at hr
    simp only [subf_apply, addf_apply, mulf_apply, exp_apply, broadcast_apply]
    rw [H.hmu p q, H.hlv p q, mup_block H p q, lvp_block H p q]
    rw [val_main_v67_apply, val_main_v66_apply, val_main_cst_6_apply, val_main_v65_apply, val_main_v64_apply, val_main_v63_apply,
      val_main_v62_apply, val_main_v61_apply, val_main_v60_apply, val_main_v59_apply, val_main_v58_apply, val_main_v57_apply]
    simp only [Ideal.subf_def, Ideal.addf_def, Ideal.mulf_def, Ideal.hostDivf_def, Ideal.hostUnary_exp_def]
    rw [show (FloatOps.ofBits (F := Ideal) .f32 0x00000000#32 : EReal) = 0 from Ideal.ofBits_zero_f32]
    exact kl_term _ _ _ _ _ hr
  unfold klcol
  rw [mulf_apply, broadcast_apply, shapeCast_a_a1_apply]
  rw [val_main_v70_apply, val_main_v69_apply, val_main_cst_8_apply, val_main_v68_apply, val_main_cst_7_apply]
  refine congrArg₂ (· * ·) rfl ?_
  refine (Ideal.multiReduction_add_single _ _ reduces_S256x256_S256 _ _ (ix1 p)).trans ?_
  conv_rhs => rw [show (FloatOps.ofBits (F := Ideal) .f32 0x00000000#32 : EReal) = 0 from Ideal.ofBits_zero_f32, zero_add]
  refine Finset.sum_congr rfl fun q _ => ?_
  rw [show reduces_S256x256_S256.lift (ix1 p) q = ix2 p q from ix2_ext _ _ _ rfl rfl,
    show idx_main_v68 (ix1 (row256 t p)) q = ix2 (row256 t p) q from ix2_ext _ _ _ rfl rfl]
  exact hsum q

end Cert.Bridge.Kl

end
-- ==== Proof.Region0.lean ====
/-
  The fused call's five output arrays as whole-array functions of the arguments: at each grid point the block it
  writes back is the reference's stage at the block's rows (the bridges), the blocks cover the array, so the array
  ends at that stage.
-/
import proofs.«141820_j69552700391572_2_alg».proof.Proof.Blocks0
import proofs.«141820_j69552700391572_2_alg».proof.Proof.EntryDefs
import proofs.«141820_j69552700391572_2_alg».proof.Proof.BridgeEnc
import proofs.«141820_j69552700391572_2_alg».proof.Proof.BridgeNll
import proofs.«141820_j69552700391572_2_alg».proof.Proof.BridgeKl
import Idealize.ShloMosaic.Lib.ValueLayout

set_option maxRecDepth 16384

noncomputable section

namespace Cert.KernelIdeal.R0

open Cert.KernelIdeal Cert.KernelIdeal.Gen Cert.KernelIdeal.KV Cert.Bridge Cert.ReferenceIdeal.Read
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)
  (a0 : (⟨S4096x512, .f32⟩ : BufTy).Contents (Elt Ideal)) (a2 : (⟨S4096x2048, .f32⟩ : BufTy).Contents (Elt Ideal)) (a3 : (⟨S4096x256, .f32⟩ : BufTy).Contents (Elt Ideal))
  (a4 : (⟨S2048x2048, .f32⟩ : BufTy).Contents (Elt Ideal)) (a5 : (⟨S2048, .f32⟩ : BufTy).Contents (Elt Ideal)) (a6 : (⟨S512x2048, .f32⟩ : BufTy).Contents (Elt Ideal)) (a7 : (⟨S512, .f32⟩ : BufTy).Contents (Elt Ideal))
  (a8 : (⟨S2048x2560, .f32⟩ : BufTy).Contents (Elt Ideal)) (a9 : (⟨S2048, .f32⟩ : BufTy).Contents (Elt Ideal)) (a10 : (⟨S512x2048, .f32⟩ : BufTy).Contents (Elt Ideal)) (a11 : (⟨S512, .f32⟩ : BufTy).Contents (Elt Ideal))
  (a12 : (⟨S2048x2304, .f32⟩ : BufTy).Contents (Elt Ideal)) (a13 : (⟨S2048, .f32⟩ : BufTy).Contents (Elt Ideal)) (a14 : (⟨S1024x2048, .f32⟩ : BufTy).Contents (Elt Ideal)) (a15 : (⟨S1024, .f32⟩ : BufTy).Contents (Elt Ideal))

variable {V c a0 a2 a3 a4 a5 a6 a7 a8 a9 a10 a11 a12 a13 a14 a15}

/-- The encoder's blocks at point `t` are rows and transposed slices of the arguments. -/
theorem encBlocks (E : Entry0 V c a0 a2 a3 a4 a5 a6 a7 a8 a9 a10 a11 a12 a13 a14 a15) (t : Fin cfg0.N) :
    Enc.EncBlocks (tt t) (iblk0 V c 0 t) (iblk0 V c 1 t) (iblk0 V c 2 t) (iblk0 V c 7 t) (iblk0 V c 8 t) (iblk0 V c 9 t)
      (iblk0 V c 10 t) (iblk0 V c 11 t) a0 a2 a3 a8 a9 a10 a11 where
  h0 := fun p k => by rw [rd_0 V c t p k, E.e0]
  h1 := fun p k => by rw [rd_1 V c t p k, E.e1]
  h2 := fun p k => by rw [rd_2 V c t p k, E.e2]
  h7 := fun k n => (rd_7 V c t k n).trans (E.e7 k n)
  h8 := fun k n => (rd_8 V c t k n).trans (E.e8 k n)
  h9 := fun n => (rd_9 V c t 0 n).trans (E.e9 n)
  h10 := fun k n => (rd_10 V c t k n).trans (E.e10 k n)
  h11 := fun n => (rd_11 V c t 0 n).trans (E.e11 n)

/-- What point `t` writes back to the sampled latent's array is the reference's stage at the block's rows. -/
theorem flushed17_eq (E : Entry0 V c a0 a2 a3 a4 a5 a6 a7 a8 a9 a10 a11 a12 a13 a14 a15) (t : Fin cfg0.N) :
    (dat0 V c).flushed 17 t = ((cfg0.win 17).blk t).view.read (Elt Ideal) (val_main_v32 (F := Ideal) a0 a2 a3 a8 a9 a10 a11) := by
  show (cfg0.win 17).cut (grid0.coords t) ((dat0 V c).after 17 t) = _
  rw [after0_17]
  unfold out0_17
  rw [View.canon_unit_zero hz2]
  simp only [View.ld_unit_zero (S := S256x512) hz2, View.ld_unit_zero (S := S256x2048) hz2, View.ld_unit_zero (S := S256x256) hz2, View.ld_unit_zero (S := S2048x2048) hz2, View.ld_unit_zero (S := S1x2048) hz2, View.ld_unit_zero (S := S2048x512) hz2, View.ld_unit_zero (S := S1x512) hz2, View.ld_unit_zero (S := S512x2048) hz2, View.ld_unit_zero (S := S2048x1024) hz2, View.ld_unit_zero (S := S1x1024) hz2, View.ld_unit_zero (S := S1x256) hz2]
  funext j
  obtain ⟨p, q, rfl⟩ : ∃ (p : Fin 256) (q : Fin 256), j = ix2 p q := ⟨j 0, j 1, eq_ix2 j⟩
  show k0_pay12 (iblk0 V c 2 t) (k0_pay7 (iblk0 V c 0 t) (iblk0 V c 1 t) (iblk0 V c 7 t) (iblk0 V c 8 t)) (k0_pay8 (iblk0 V c 9 t)) (iblk0 V c 10 t) (iblk0 V c 11 t) (ix2 p q)
    = val_main_v32 (F := Ideal) a0 a2 a3 a8 a9 a10 a11 (((cfg0.win 17).blk t).view.emb (ix2 p q))
  rw [emb_17 t p q]
  exact Enc.z_block (encBlocks E t) p q

/-- The sampled latent's array after the call. -/
theorem arr17 (E : Entry0 V c a0 a2 a3 a4 a5 a6 a7 a8 a9 a10 a11 a12 a13 a14 a15) :
    (dat0 V c).arrAt 17 cfg0.N = val_main_v32 (F := Ideal) a0 a2 a3 a8 a9 a10 a11 :=
  (dat0 V c).arrAt_eq_of_cover 17 _ (fun t _ => flushed17_eq E t) cover_17

/-- What point `t` writes back to the posterior mean's array is the reference's stage at the block's rows. -/
theorem flushed18_eq (E : Entry0 V c a0 a2 a3 a4 a5 a6 a7 a8 a9 a10 a11 a12 a13 a14 a15) (t : Fin cfg0.N) :
    (dat0 V c).flushed 18 t = ((cfg0.win 18).blk t).view.read (Elt Ideal) (val_main_v25 (F := Ideal) a0 a2 a8 a9 a10 a11) := by
  show (cfg0.win 18).cut (grid0.coords t) ((dat0 V c).after 18 t) = _
  rw [after0_18]
  unfold out0_18
  rw [View.canon_unit_zero hz2]
  simp only [View.ld_unit_zero (S := S256x512) hz2, View.ld_unit_zero (S := S256x2048) hz2, View.ld_unit_zero (S := S256x256) hz2, View.ld_unit_zero (S := S2048x2048) hz2, View.ld_unit_zero (S := S1x2048) hz2, View.ld_unit_zero (S := S2048x512) hz2, View.ld_unit_zero (S := S1x512) hz2, View.ld_unit_zero (S := S512x2048) hz2, View.ld_unit_zero (S := S2048x1024) hz2, View.ld_unit_zero (S := S1x1024) hz2, View.ld_unit_zero (S := S1x256) hz2]
  funext j
  obtain ⟨p, q, rfl⟩ : ∃ (p : Fin 256) (q : Fin 256), j = ix2 p q := ⟨j 0, j 1, eq_ix2 j⟩
  show k0_pay10 (k0_pay7 (iblk0 V c 0 t) (iblk0 V c 1 t) (iblk0 V c 7 t) (iblk0 V c 8 t)) (k0_pay8 (iblk0 V c 9 t)) (iblk0 V c 10 t) (iblk0 V c 11 t) (ix2 p q)
    = val_main_v25 (F := Ideal) a0 a2 a8 a9 a10 a11 (((cfg0.win 18).blk t).view.emb (ix2 p q))
  rw [emb_18 t p q]
  exact Enc.muq_block (encBlocks E t) p q

/-- The posterior mean's array after the call. -/
theorem arr18 (E : Entry0 V c a0 a2 a3 a4 a5 a6 a7 a8 a9 a10 a11 a12 a13 a14 a15) :
    (dat0 V c).arrAt 18 cfg0.N = val_main_v25 (F := Ideal) a0 a2 a8 a9 a10 a11 :=
  (dat0 V c).arrAt_eq_of_cover 18 _ (fun t _ => flushed18_eq E t) cover_18

/-- What point `t` writes back to the clipped posterior log-variance's array is the reference's stage at the block's rows. -/
theorem flushed19_eq (E : Entry0 V c a0 a2 a3 a4 a5 a6 a7 a8 a9 a10 a11 a12 a13 a14 a15) (t : Fin cfg0.N) :
    (dat0 V c).flushed 19 t = ((cfg0.win 19).blk t).view.read (Elt Ideal) (val_main_v27 (F := Ideal) a0 a2 a8 a9 a10 a11) := by
  show (cfg0.win 19).cut (grid0.coords t) ((dat0 V c).after 19 t) = _
  rw [after0_19]
  unfold out0_19
  rw [View.canon_unit_zero hz2]
  simp only [View.ld_unit_zero (S := S256x512) hz2, View.ld_unit_zero (S := S256x2048) hz2, View.ld_unit_zero (S := S256x256) hz2, View.ld_unit_zero (S := S2048x2048) hz2, View.ld_unit_zero (S := S1x2048) hz2, View.ld_unit_zero (S := S2048x512) hz2, View.ld_unit_zero (S := S1x512) hz2, View.ld_unit_zero (S := S512x2048) hz2, View.ld_unit_zero (S := S2048x1024) hz2, View.ld_unit_zero (S := S1x1024) hz2, View.ld_unit_zero (S := S1x256) hz2]
  funext j
  obtain ⟨p, q, rfl⟩ : ∃ (p : Fin 256) (q : Fin 256), j = ix2 p q := ⟨j 0, j 1, eq_ix2 j⟩
  show k0_pay11 (k0_pay7 (iblk0 V c 0 t) (iblk0 V c 1 t) (iblk0 V c 7 t) (iblk0 V c 8 t)) (k0_pay8 (iblk0 V c 9 t)) (iblk0 V c 10 t) (iblk0 V c 11 t) (ix2 p q)
    = val_main_v27 (F := Ideal) a0 a2 a8 a9 a10 a11 (((cfg0.win 19).blk t).view.emb (ix2 p q))
  rw [emb_19 t p q]
  exact Enc.lvq_block (encBlocks E t) p q

/-- The clipped posterior log-variance's array after the call. -/
theorem arr19 (E : Entry0 V c a0 a2 a3 a4 a5 a6 a7 a8 a9 a10 a11 a12 a13 a14 a15) :
    (dat0 V c).arrAt 19 cfg0.N = val_main_v27 (F := Ideal) a0 a2 a8 a9 a10 a11 :=
  (dat0 V c).arrAt_eq_of_cover 19 _ (fun t _ => flushed19_eq E t) cover_19

/-! ## The two loss rows -/

/-- The decoder's blocks at point `t`: the latent block is the reference's latent at those rows (the encoder's bridge). -/
theorem decBlocks (E : Entry0 V c a0 a2 a3 a4 a5 a6 a7 a8 a9 a10 a11 a12 a13 a14 a15) (t : Fin cfg0.N) :
    Nll.DecBlocks (tt t) (iblk0 V c 0 t) (iblk0 V c 1 t) (k0_pay12 (iblk0 V c 2 t) (k0_pay7 (iblk0 V c 0 t) (iblk0 V c 1 t) (iblk0 V c 7 t) (iblk0 V c 8 t)) (k0_pay8 (iblk0 V c 9 t)) (iblk0 V c 10 t) (iblk0 V c 11 t))
      (iblk0 V c 12 t) (iblk0 V c 13 t) (iblk0 V c 14 t) (iblk0 V c 15 t) (iblk0 V c 16 t) a0 a2 a3 a8 a9 a10 a11 a12 a13 a14 a15 where
  h0 := fun p k => by rw [rd_0 V c t p k, E.e0]
  h1 := fun p k => by rw [rd_1 V c t p k, E.e1]
  hz := fun p k => Enc.z_block (encBlocks E t) p k
  h12 := fun k n => (rd_12 V c t k n).trans (E.e12 k n)
  h13 := fun k n => (rd_13 V c t k n).trans (E.e13 k n)
  h14 := fun n => (rd_14 V c t 0 n).trans (E.e14 n)
  h15 := fun k n => (rd_15 V c t k n).trans (E.e15 k n)
  h16 := fun n => (rd_16 V c t 0 n).trans (E.e16 n)

/-- What point `t` writes back to the negative log-likelihood row: the reference's vector at the block's columns. -/
theorem flushed21_eq (E : Entry0 V c a0 a2 a3 a4 a5 a6 a7 a8 a9 a10 a11 a12 a13 a14 a15) (t : Fin cfg0.N) :
    (dat0 V c).flushed 21 t = ((cfg0.win 21).blk t).view.read (Elt Ideal)
      (fun i : S1x4096.Idx => val_main_v56 (F := Ideal) a0 a2 a3 a8 a9 a10 a11 a12 a13 a14 a15 (ix1 (i 1))) := by
  show (cfg0.win 21).cut (grid0.coords t) ((dat0 V c).after 21 t) = _
  rw [after0_21]
  unfold out0_21
  rw [View.canon_unit_zero hz2]
  simp only [View.ld_unit_zero (S := S256x512) hz2, View.ld_unit_zero (S := S256x2048) hz2, View.ld_unit_zero (S := S256x256) hz2, View.ld_unit_zero (S := S2048x2048) hz2, View.ld_unit_zero (S := S1x2048) hz2, View.ld_unit_zero (S := S2048x512) hz2, View.ld_unit_zero (S := S1x512) hz2, View.ld_unit_zero (S := S512x2048) hz2, View.ld_unit_zero (S := S2048x1024) hz2, View.ld_unit_zero (S := S1x1024) hz2, View.ld_unit_zero (S := S1x256) hz2]
  funext j
  obtain ⟨u, q, rfl⟩ : ∃ (u : Fin 1) (q : Fin 256), j = ix2 u q := ⟨j 0, j 1, eq_ix2 j⟩
  show k0_pay2 (k0_pay15 (iblk0 V c 0 t) (k0_pay3 (iblk0 V c 1 t)) (Nll.zdot (k0_pay12 (iblk0 V c 2 t) (k0_pay7 (iblk0 V c 0 t) (iblk0 V c 1 t) (iblk0 V c 7 t) (iblk0 V c 8 t)) (k0_pay8 (iblk0 V c 9 t)) (iblk0 V c 10 t) (iblk0 V c 11 t)) (iblk0 V c 12 t)) (iblk0 V c 13 t) (iblk0 V c 14 t) (iblk0 V c 15 t) (iblk0 V c 16 t)) (ix2 u q)
    = val_main_v56 (F := Ideal) a0 a2 a3 a8 a9 a10 a11 a12 a13 a14 a15 (ix1 ((((cfg0.win 21).blk t).view.emb (ix2 u q)) 1))
  rw [emb_21 t u q]
  unfold k0_pay2
  rw [transpose_ix2_apply]
  have hu : u = 0 := Subsingleton.elim _ _
  subst hu
  exact Nll.nll_block (decBlocks E t) q

theorem arr21 (E : Entry0 V c a0 a2 a3 a4 a5 a6 a7 a8 a9 a10 a11 a12 a13 a14 a15) :
    (dat0 V c).arrAt 21 cfg0.N = fun i : S1x4096.Idx => val_main_v56 (F := Ideal) a0 a2 a3 a8 a9 a10 a11 a12 a13 a14 a15 (ix1 (i 1)) :=
  (dat0 V c).arrAt_eq_of_cover 21 _ (fun t _ => flushed21_eq E t) cover_21

/-- The state and the prior net's parameters hold real numbers. -/
structure Reals (a2 : (⟨S4096x2048, .f32⟩ : BufTy).Contents (Elt Ideal)) (a4 : (⟨S2048x2048, .f32⟩ : BufTy).Contents (Elt Ideal)) (a5 : (⟨S2048, .f32⟩ : BufTy).Contents (Elt Ideal)) (a6 : (⟨S512x2048, .f32⟩ : BufTy).Contents (Elt Ideal)) (a7 : (⟨S512, .f32⟩ : BufTy).Contents (Elt Ideal)) : Prop where
  r2 : ∀ i, Kl.IsR (a2 i)
  r4 : ∀ i, Kl.IsR (a4 i)
  r5 : ∀ i, Kl.IsR (a5 i)
  r6 : ∀ i, Kl.IsR (a6 i)
  r7 : ∀ i, Kl.IsR (a7 i)

/-- The prior net's and the KL term's blocks at point `t`. -/
theorem klBlocks (E : Entry0 V c a0 a2 a3 a4 a5 a6 a7 a8 a9 a10 a11 a12 a13 a14 a15) (R : Reals a2 a4 a5 a6 a7) (t : Fin cfg0.N) :
    Kl.KlBlocks (tt t) (iblk0 V c 1 t) (iblk0 V c 3 t) (iblk0 V c 4 t) (iblk0 V c 5 t) (iblk0 V c 6 t)
      (k0_pay10 (k0_pay7 (iblk0 V c 0 t) (iblk0 V c 1 t) (iblk0 V c 7 t) (iblk0 V c 8 t)) (k0_pay8 (iblk0 V c 9 t)) (iblk0 V c 10 t) (iblk0 V c 11 t)) (k0_pay11 (k0_pay7 (iblk0 V c 0 t) (iblk0 V c 1 t) (iblk0 V c 7 t) (iblk0 V c 8 t)) (k0_pay8 (iblk0 V c 9 t)) (iblk0 V c 10 t) (iblk0 V c 11 t)) a0 a2 a4 a5 a6 a7 a8 a9 a10 a11 where
  h1 := fun p k => by rw [rd_1 V c t p k, E.e1]
  h3 := fun k n => (rd_3 V c t k n).trans (E.e3 k n)
  h4 := fun n => (rd_4 V c t 0 n).trans (E.e4 n)
  h5 := fun k n => (rd_5 V c t k n).trans (E.e5 k n)
  h6 := fun n => (rd_6 V c t 0 n).trans (E.e6 n)
  hmu := fun p q => Enc.muq_block (encBlocks E t) p q
  hlv := fun p q => Enc.lvq_block (encBlocks E t) p q
  r2 := R.r2
  r4 := R.r4
  r5 := R.r5
  r6 := R.r6
  r7 := R.r7

/-- What point `t` writes back to the KL row: the reference's vector at the block's columns. -/
theorem flushed20_eq (E : Entry0 V c a0 a2 a3 a4 a5 a6 a7 a8 a9 a10 a11 a12 a13 a14 a15) (R : Reals a2 a4 a5 a6 a7) (t : Fin cfg0.N) :
    (dat0 V c).flushed 20 t = ((cfg0.win 20).blk t).view.read (Elt Ideal)
      (fun i : S1x4096.Idx => val_main_v70 (F := Ideal) a0 a2 a4 a5 a6 a7 a8 a9 a10 a11 (ix1 (i 1))) := by
  show (cfg0.win 20).cut (grid0.coords t) ((dat0 V c).after 20 t) = _
  rw [after0_20]
  unfold out0_20
  rw [View.canon_unit_zero hz2]
  simp only [View.ld_unit_zero (S := S256x512) hz2, View.ld_unit_zero (S := S256x2048) hz2, View.ld_unit_zero (S := S256x256) hz2, View.ld_unit_zero (S := S2048x2048) hz2, View.ld_unit_zero (S := S1x2048) hz2, View.ld_unit_zero (S := S2048x512) hz2, View.ld_unit_zero (S := S1x512) hz2, View.ld_unit_zero (S := S512x2048) hz2, View.ld_unit_zero (S := S2048x1024) hz2, View.ld_unit_zero (S := S1x1024) hz2, View.ld_unit_zero (S := S1x256) hz2]
  funext j
  obtain ⟨u, q, rfl⟩ : ∃ (u : Fin 1) (q : Fin 256), j = ix2 u q := ⟨j 0, j 1, eq_ix2 j⟩
  show k0_pay1 (Kl.klcol (k0_pay5 (iblk0 V c 1 t) (iblk0 V c 3 t) (iblk0 V c 4 t) (iblk0 V c 5 t) (iblk0 V c 6 t)) (k0_pay6 (iblk0 V c 1 t) (iblk0 V c 3 t) (iblk0 V c 4 t) (iblk0 V c 5 t) (iblk0 V c 6 t))
      (k0_pay10 (k0_pay7 (iblk0 V c 0 t) (iblk0 V c 1 t) (iblk0 V c 7 t) (iblk0 V c 8 t)) (k0_pay8 (iblk0 V c 9 t)) (iblk0 V c 10 t) (iblk0 V c 11 t)) (k0_pay11 (k0_pay7 (iblk0 V c 0 t) (iblk0 V c 1 t) (iblk0 V c 7 t) (iblk0 V c 8 t)) (k0_pay8 (iblk0 V c 9 t)) (iblk0 V c 10 t) (iblk0 V c 11 t))) (ix2 u q)
    = val_main_v70 (F := Ideal) a0 a2 a4 a5 a6 a7 a8 a9 a10 a11 (ix1 ((((cfg0.win 20).blk t).view.emb (ix2 u q)) 1))
  rw [emb_20 t u q]
  unfold k0_pay1
  rw [transpose_ix2_apply]
  have hu : u = 0 := Subsingleton.elim _ _
  subst hu
  exact Kl.kl_block (klBlocks E R t) q

theorem arr20 (E : Entry0 V c a0 a2 a3 a4 a5 a6 a7 a8 a9 a10 a11 a12 a13 a14 a15) (R : Reals a2 a4 a5 a6 a7) :
    (dat0 V c).arrAt 20 cfg0.N = fun i : S1x4096.Idx => val_main_v70 (F := Ideal) a0 a2 a4 a5 a6 a7 a8 a9 a10 a11 (ix1 (i 1)) :=
  (dat0 V c).arrAt_eq_of_cover 20 _ (fun t _ => flushed20_eq E R t) cover_20

end Cert.KernelIdeal.R0

end
-- ==== Proof.Blocks1.lean ====
/-
  The recurrent call's windows as rows of their arrays, whatever the arrays hold when the call is entered (`V`). Its
  grid is 32 points; point `t` stages rows `128 t … 128 t + 127` of the observation, the latent, the action and the
  state, every weight matrix and bias row whole, and writes back rows `128 t …` of the new state.
-/
import proofs.«141820_j69552700391572_2_alg».proof.Proof.Gen.KernelIdeal.Frame
import proofs.«141820_j69552700391572_2_alg».proof.Proof.Rows
import Idealize.ShloMosaic.Lib.Pipeline.Value
import Idealize.ShloMosaic.Lib.ValueIdx

set_option maxRecDepth 16384

noncomputable section

namespace Cert.KernelIdeal.R1

open Cert.KernelIdeal Cert.KernelIdeal.Gen Cert.Bridge
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- A grid point of this call as a literal index. -/
def tt (t : Fin cfg1.N) : Fin 32 := ⟨t.val, by have h : t.val < grid1.N := t.isLt; have := N_1; omega⟩

theorem hz2 : (![0, 0] : Fin 2 → Nat) = fun _ => 0 := funext fun a => by fin_cases a <;> rfl

/-! ## The printed index maps, decided over the grid -/

theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = t.val ∧ win1_2.index t (1 : Fin 2) = 0 :=
  (by decide +kernel : ∀ t : Fin grid1.N, _)
theorem idx_3 : ∀ t : Fin cfg1.N, win1_3.index t (0 : Fin 2) = t.val ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = 0 ∧ win1_7.index t (1 : Fin 2) = 0 :=
  (by decide +kernel : ∀ t : Fin grid1.N, _)
theorem idx_8 : ∀ t : Fin cfg1.N, win1_8.index t (0 : Fin 2) = 0 ∧ win1_8.index t (1 : Fin 2) = 0 :=
  (by decide +kernel : ∀ t : Fin grid1.N, _)
theorem idx_9 : ∀ t : Fin cfg1.N, win1_9.index t (0 : Fin 2) = 0 ∧ win1_9.index t (1 : Fin 2) = 0 :=
  (by decide +kernel : ∀ t : Fin grid1.N, _)
theorem idx_10 : ∀ t : Fin cfg1.N, win1_10.index t (0 : Fin 2) = t.val ∧ win1_10.index t (1 : Fin 2) = 0 :=
  (by decide +kernel : ∀ t : Fin grid1.N, _)

/-! ## An input window's block, read as rows of its array -/

theorem rd_0 (c : Dev nD) (t : Fin cfg1.N) (p : Fin 128) (k : Fin 512) :
    iblk1 V c 0 t (ix2 p k) = V c main_arg0 (ix2 (row128 (tt t) p) k) := by
  obtain ⟨e0, e1⟩ := idx_0 t
  show V c main_arg0 (((cfg1.win 0).blk t).view.emb (ix2 p k)) = _
  refine congrArg _ (funext fun a => Fin.ext ?_)
  match a with
  | ⟨0, _⟩ => show win1_0.index t (0 : Fin 2) * 128 + 1 * p.val = 128 * t.val + p.val; omega
  | ⟨1, _⟩ => show win1_0.index t (1 : Fin 2) * 512 + 1 * k.val = k.val; omega
theorem rd_1 (c : Dev nD) (t : Fin cfg1.N) (p : Fin 128) (k : Fin 256) :
    iblk1 V c 1 t (ix2 p k) = V c main_v31_0 (ix2 (row128 (tt t) p) k) := by
  obtain ⟨e0, e1⟩ := idx_1 t
  show V c main_v31_0 (((cfg1.win 1).blk t).view.emb (ix2 p k)) = _
  refine congrArg _ (funext fun a => Fin.ext ?_)
  match a with
  | ⟨0, _⟩ => show win1_1.index t (0 : Fin 2) * 128 + 1 * p.val = 128 * t.val + p.val; omega
  | ⟨1, _⟩ => show win1_1.index t (1 : Fin 2) * 256 + 1 * k.val = k.val; omega
theorem rd_2 (c : Dev nD) (t : Fin cfg1.N) (p : Fin 128) (k : Fin 64) :
    iblk1 V c 2 t (ix2 p k) = V c main_arg1 (ix2 (row128 (tt t) p) k) := by
  obtain ⟨e0, e1⟩ := idx_2 t
  show V c main_arg1 (((cfg1.win 2).blk t).view.emb (ix2 p k)) = _
  refine congrArg _ (funext fun a => Fin.ext ?_)
  match a with
  | ⟨0, _⟩ => show win1_2.index t (0 : Fin 2) * 128 + 1 * p.val = 128 * t.val + p.val; omega
  | ⟨1, _⟩ => show win1_2.index t (1 : Fin 2) * 64 + 1 * k.val = k.val; omega
theorem rd_3 (c : Dev nD) (t : Fin cfg1.N) (p : Fin 128) (k : Fin 2048) :
    iblk1 V c 3 t (ix2 p k) = V c main_arg2 (ix2 (row128 (tt t) p) k) := by
  obtain ⟨e0, e1⟩ := idx_3 t
  show V c main_arg2 (((cfg1.win 3).blk t).view.emb (ix2 p k)) = _
  refine congrArg _ (funext fun a => Fin.ext ?_)
  match a with
  | ⟨0, _⟩ => show win1_3.index t (0 : Fin 2) * 128 + 1 * p.val = 128 * t.val + p.val; omega
  | ⟨1, _⟩ => show win1_3.index t (1 : Fin 2) * 2048 + 1 * k.val = k.val; omega
theorem rd_4 (c : Dev nD) (t : Fin cfg1.N) (p : Fin 512) (k : Fin 6144) :
    iblk1 V c 4 t (ix2 p k) = V c main_v18 (ix2 p k) := by
  obtain ⟨e0, e1⟩ := idx_4 t
  show V c main_v18 (((cfg1.win 4).blk t).view.emb (ix2 p k)) = _
  refine congrArg _ (funext fun a => Fin.ext ?_)
  match a with
  | ⟨0, _⟩ => show win1_4.index t (0 : Fin 2) * 512 + 1 * p.val = p.val; omega
  | ⟨1, _⟩ => show win1_4.index t (1 : Fin 2) * 6144 + 1 * k.val = k.val; omega
theorem rd_5 (c : Dev nD) (t : Fin cfg1.N) (p : Fin 256) (k : Fin 6144) :
    iblk1 V c 5 t (ix2 p k) = V c main_v19 (ix2 p k) := by
  obtain ⟨e0, e1⟩ := idx_5 t
  show V c main_v19 (((cfg1.win 5).blk t).view.emb (ix2 p k)) = _
  refine congrArg _ (funext fun a => Fin.ext ?_)
  match a with
  | ⟨0, _⟩ => show win1_5.index t (0 : Fin 2) * 256 + 1 * p.val = p.val; omega
  | ⟨1, _⟩ => show win1_5.index t (1 : Fin 2) * 6144 + 1 * k.val = k.val; omega
theorem rd_6 (c : Dev nD) (t : Fin cfg1.N) (p : Fin 64) (k : Fin 6144) :
    iblk1 V c 6 t (ix2 p k) = V c main_v20 (ix2 p k) := by
  obtain ⟨e0, e1⟩ := idx_6 t
  show V c main_v20 (((cfg1.win 6).blk t).view.emb (ix2 p k)) = _
  refine congrArg _ (funext fun a => Fin.ext ?_)
  match a with
  | ⟨0, _⟩ => show win1_6.index t (0 : Fin 2) * 64 + 1 * p.val = p.val; omega
  | ⟨1, _⟩ => show win1_6.index t (1 : Fin 2) * 6144 + 1 * k.val = k.val; omega
theorem rd_7 (c : Dev nD) (t : Fin cfg1.N) (p : Fin 1) (k : Fin 6144) :
    iblk1 V c 7 t (ix2 p k) = V c main_v29 (ix2 p k) := by
  obtain ⟨e0, e1⟩ := idx_7 t
  show V c main_v29 (((cfg1.win 7).blk t).view.emb (ix2 p k)) = _
  refine congrArg _ (funext fun a => Fin.ext ?_)
  match a with
  | ⟨0, _⟩ => show win1_7.index t (0 : Fin 2) * 1 + 1 * p.val = p.val; omega
  | ⟨1, _⟩ => show win1_7.index t (1 : Fin 2) * 6144 + 1 * k.val = k.val; omega
theorem rd_8 (c : Dev nD) (t : Fin cfg1.N) (p : Fin 2048) (k : Fin 6144) :
    iblk1 V c 8 t (ix2 p k) = V c main_v22 (ix2 p k) := by
  obtain ⟨e0, e1⟩ := idx_8 t
  show V c main_v22 (((cfg1.win 8).blk t).view.emb (ix2 p k)) = _
  refine congrArg _ (funext fun a => Fin.ext ?_)
  match a with
  | ⟨0, _⟩ => show win1_8.index t (0 : Fin 2) * 2048 + 1 * p.val = p.val; omega
  | ⟨1, _⟩ => show win1_8.index t (1 : Fin 2) * 6144 + 1 * k.val = k.val; omega
theorem rd_9 (c : Dev nD) (t : Fin cfg1.N) (p : Fin 1) (k : Fin 6144) :
    iblk1 V c 9 t (ix2 p k) = V c main_v30 (ix2 p k) := by
  obtain ⟨e0, e1⟩ := idx_9 t
  show V c main_v30 (((cfg1.win 9).blk t).view.emb (ix2 p k)) = _
  refine congrArg _ (funext fun a => Fin.ext ?_)
  match a with
  | ⟨0, _⟩ => show win1_9.index t (0 : Fin 2) * 1 + 1 * p.val = p.val; omega
  | ⟨1, _⟩ => show win1_9.index t (1 : Fin 2) * 6144 + 1 * k.val = k.val; omega

/-! ## Where an output window's block lands, and the cover -/

theorem emb_10 (t : Fin cfg1.N) (p : Fin 128) (k : Fin 2048) :
    ((cfg1.win 10).blk t).view.emb (ix2 p k) = ix2 (row128 (tt t) p) k := by
  obtain ⟨e0, e1⟩ := idx_10 t
  refine funext fun a => Fin.ext ?_
  match a with
  | ⟨0, _⟩ => show win1_10.index t (0 : Fin 2) * 128 + 1 * p.val = 128 * t.val + p.val; omega
  | ⟨1, _⟩ => show win1_10.index t (1 : Fin 2) * 2048 + 1 * k.val = k.val; omega

theorem mem_blk_10 (t : Fin cfg1.N) (i : S4096x2048.Idx) :
    i ∈ ((cfg1.win 10).blk t).view.set ↔ ∀ a : Fin 2, win1_10.index t a * S128x2048.size a ≤ (i a).val ∧ (i a).val < win1_10.index t a * S128x2048.size a + S128x2048.size a := by
  show i ∈ ((View.whole main_v34).slice (win1_10.rect t)).set ↔ _
  rw [View.set_slice_whole, Rect.mem_set_unit]
  exact Iff.rfl

theorem cover_10 (i : S4096x2048.Idx) : ∃ t : Fin cfg1.N, (cfg1.win 10).flush t = true ∧ i ∈ ((cfg1.win 10).blk t).view.set := by
  have hi0 : (i 0).val < 4096 := (i 0).isLt
  have hi1 : (i 1).val < 2048 := (i 1).isLt
  have hN : grid1.N = 32 := N_1
  let t : Fin cfg1.N := ⟨(i 0).val / 128, by show _ < grid1.N; omega⟩
  have ht : t.val = (i 0).val / 128 := rfl
  obtain ⟨e0, e1⟩ := idx_10 t
  refine ⟨t, flush1_10 t, ?_⟩
  rw [mem_blk_10]
  intro a
  match a with
  | ⟨0, _⟩ => show win1_10.index t (0 : Fin 2) * 128 ≤ (i 0).val ∧ (i 0).val < win1_10.index t (0 : Fin 2) * 128 + 128; omega
  | ⟨1, _⟩ => show win1_10.index t (1 : Fin 2) * 2048 ≤ (i 1).val ∧ (i 1).val < win1_10.index t (1 : Fin 2) * 2048 + 2048; omega

end Cert.KernelIdeal.R1

end
-- ==== Proof.BridgeGru.lean ====
/-
  The GRU update of the recurrent call against the reference, on one block of 128 rows. The block computes the input
  pre-activations `x · Wxᵀ + z · Wzᵀ + a · Waᵀ + b` and the state pre-activations `h · Whᵀ + b`, cuts each into the
  three gates' parts, and forms `r = σ(·)`, `u = σ(·)`, `n = tanh (· + r · ·)`, `h' = (1 - u) · n + u · h`. The reference
  joins `[x, z, a]` and multiplies once: the sum over the 832 joined coordinates splits as 512 + 256 + 64. The kernel's
  logistic function is, on the extended reals, the reference's `1 / (1 + exp (-x))`.
-/
import proofs.«141820_j69552700391572_2_alg».proof.Proof.Gen.KernelIdeal.Skeleton
import proofs.«141820_j69552700391572_2_alg».proof.Proof.Gen.ReferenceIdeal.Read
import proofs.«141820_j69552700391572_2_alg».proof.Proof.Rows
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open Idealize.ShloMosaic Idealize.ShloMosaic.TcCoe Idealize.ShloMosaic.ValueIdx
open Cert.KernelIdeal.Gen Cert.ReferenceIdeal.Read

namespace Cert.Bridge.Gru

/-! ## The block's arithmetic read at a row and a column -/

/-- The block product with contraction length 512, into a zero accumulator, read at `(p, n)`: the sum over the
    contraction coordinate of the products of the operands' entries. -/
theorem mm512 (l : FVec Ideal Cert.KernelIdeal.S128x512 .bf16) (r : FVec Ideal Cert.KernelIdeal.S512x6144 .bf16) (p : Fin 128) (n : Fin 6144) :
    matmul Cert.KernelIdeal.dot_S128x512_S512x6144_S128x6144_1_0_0_1_n_n none l r (constant Cert.KernelIdeal.S128x6144 .f32 0x00000000#32) (ix2 p n)
      = ∑ k : Fin 512, l (ix2 p k) * r (ix2 k n) := by
  refine (Ideal.matmul_constant_zero_apply Cert.KernelIdeal.dot_S128x512_S512x6144_S128x6144_1_0_0_1_n_n none l r (ix2 p n)).trans ?_
  rw [← Equiv.sum_comp (ValueIdx.contrEquiv1 Cert.KernelIdeal.dot_S128x512_S512x6144_S128x6144_1_0_0_1_n_n 512 rfl rfl).symm]
  refine Finset.sum_congr rfl fun k _ => ?_
  have hk := ValueIdx.contrEquiv1_symm_val Cert.KernelIdeal.dot_S128x512_S512x6144_S128x6144_1_0_0_1_n_n 512 rfl rfl k
  have l0 : ∀ q : Cert.KernelIdeal.dot_S128x512_S512x6144_S128x6144_1_0_0_1_n_n.contr.Idx, (Cert.KernelIdeal.dot_S128x512_S512x6144_S128x6144_1_0_0_1_n_n.lhsIdx (ix2 p n) q 0).val = p.val := fun q => by
    unfold DotDims.lhsIdx
    rw [dif_neg (show ¬(0 : Fin Cert.KernelIdeal.S128x512.rank) ∈ Cert.KernelIdeal.dot_S128x512_S512x6144_S128x6144_1_0_0_1_n_n.lhsBatch by decide), dif_pos (show (0 : Fin Cert.KernelIdeal.S128x512.rank) ∈ Cert.KernelIdeal.dot_S128x512_S512x6144_S128x6144_1_0_0_1_n_n.lhsNonContracting by decide)]
    rfl
  have l1 : ∀ q : Cert.KernelIdeal.dot_S128x512_S512x6144_S128x6144_1_0_0_1_n_n.contr.Idx, (Cert.KernelIdeal.dot_S128x512_S512x6144_S128x6144_1_0_0_1_n_n.lhsIdx (ix2 p n) q 1).val = (q ⟨0, by decide⟩).val := fun q =>
    Cert.KernelIdeal.dot_S128x512_S512x6144_S128x6144_1_0_0_1_n_n.lhsIdx_val_of_single rfl (ix2 p n) q
  have r0 : ∀ q : Cert.KernelIdeal.dot_S128x512_S512x6144_S128x6144_1_0_0_1_n_n.contr.Idx, (Cert.KernelIdeal.dot_S128x512_S512x6144_S128x6144_1_0_0_1_n_n.rhsIdx (ix2 p n) q 0).val = (q ⟨0, by decide⟩).val := fun q =>
    Cert.KernelIdeal.dot_S128x512_S512x6144_S128x6144_1_0_0_1_n_n.rhsIdx_val_of_single rfl (ix2 p n) q
  have r1 : ∀ q : Cert.KernelIdeal.dot_S128x512_S512x6144_S128x6144_1_0_0_1_n_n.contr.Idx, (Cert.KernelIdeal.dot_S128x512_S512x6144_S128x6144_1_0_0_1_n_n.rhsIdx (ix2 p n) q 1).val = n.val := fun q => by
    unfold DotDims.rhsIdx
    rw [dif_neg (show ¬(1 : Fin Cert.KernelIdeal.S512x6144.rank) ∈ Cert.KernelIdeal.dot_S128x512_S512x6144_S128x6144_1_0_0_1_n_n.rhsBatch by decide), dif_pos (show (1 : Fin Cert.KernelIdeal.S512x6144.rank) ∈ Cert.KernelIdeal.dot_S128x512_S512x6144_S128x6144_1_0_0_1_n_n.rhsNonContracting by decide)]
    rfl
  have el : Cert.KernelIdeal.dot_S128x512_S512x6144_S128x6144_1_0_0_1_n_n.lhsIdx (ix2 p n) ((ValueIdx.contrEquiv1 Cert.KernelIdeal.dot_S128x512_S512x6144_S128x6144_1_0_0_1_n_n 512 rfl rfl).symm k) = ix2 p k := funext fun a => Fin.ext (by
    match a with
    | ⟨0, _⟩ => exact l0 _
    | ⟨1, _⟩ => exact (l1 _).trans hk)
  have er : Cert.KernelIdeal.dot_S128x512_S512x6144_S128x6144_1_0_0_1_n_n.rhsIdx (ix2 p n) ((ValueIdx.contrEquiv1 Cert.KernelIdeal.dot_S128x512_S512x6144_S128x6144_1_0_0_1_n_n 512 rfl rfl).symm k) = ix2 k n := funext fun a => Fin.ext (by
    match a with
    | ⟨0, _⟩ => exact (r0 _).trans hk
    | ⟨1, _⟩ => exact r1 _)
  rw [el, er]

/-- The block product with contraction length 256, into a zero accumulator, read at `(p, n)`: the sum over the
    contraction coordinate of the products of the operands' entries. -/
theorem mm256 (l : FVec Ideal Cert.KernelIdeal.S128x256 .bf16) (r : FVec Ideal Cert.KernelIdeal.S256x6144 .bf16) (p : Fin 128) (n : Fin 6144) :
    matmul Cert.KernelIdeal.dot_S128x256_S256x6144_S128x6144_1_0_0_1_n_n none l r (constant Cert.KernelIdeal.S128x6144 .f32 0x00000000#32) (ix2 p n)
      = ∑ k : Fin 256, l (ix2 p k) * r (ix2 k n) := by
  refine (Ideal.matmul_constant_zero_apply Cert.KernelIdeal.dot_S128x256_S256x6144_S128x6144_1_0_0_1_n_n none l r (ix2 p n)).trans ?_
  rw [← Equiv.sum_comp (ValueIdx.contrEquiv1 Cert.KernelIdeal.dot_S128x256_S256x6144_S128x6144_1_0_0_1_n_n 256 rfl rfl).symm]
  refine Finset.sum_congr rfl fun k _ => ?_
  have hk := ValueIdx.contrEquiv1_symm_val Cert.KernelIdeal.dot_S128x256_S256x6144_S128x6144_1_0_0_1_n_n 256 rfl rfl k
  have l0 : ∀ q : Cert.KernelIdeal.dot_S128x256_S256x6144_S128x6144_1_0_0_1_n_n.contr.Idx, (Cert.KernelIdeal.dot_S128x256_S256x6144_S128x6144_1_0_0_1_n_n.lhsIdx (ix2 p n) q 0).val = p.val := fun q => by
    unfold DotDims.lhsIdx
    rw [dif_neg (show ¬(0 : Fin Cert.KernelIdeal.S128x256.rank) ∈ Cert.KernelIdeal.dot_S128x256_S256x6144_S128x6144_1_0_0_1_n_n.lhsBatch by decide), dif_pos (show (0 : Fin Cert.KernelIdeal.S128x256.rank) ∈ Cert.KernelIdeal.dot_S128x256_S256x6144_S128x6144_1_0_0_1_n_n.lhsNonContracting by decide)]
    rfl
  have l1 : ∀ q : Cert.KernelIdeal.dot_S128x256_S256x6144_S128x6144_1_0_0_1_n_n.contr.Idx, (Cert.KernelIdeal.dot_S128x256_S256x6144_S128x6144_1_0_0_1_n_n.lhsIdx (ix2 p n) q 1).val = (q ⟨0, by decide⟩).val := fun q =>
    Cert.KernelIdeal.dot_S128x256_S256x6144_S128x6144_1_0_0_1_n_n.lhsIdx_val_of_single rfl (ix2 p n) q
  have r0 : ∀ q : Cert.KernelIdeal.dot_S128x256_S256x6144_S128x6144_1_0_0_1_n_n.contr.Idx, (Cert.KernelIdeal.dot_S128x256_S256x6144_S128x6144_1_0_0_1_n_n.rhsIdx (ix2 p n) q 0).val = (q ⟨0, by decide⟩).val := fun q =>
    Cert.KernelIdeal.dot_S128x256_S256x6144_S128x6144_1_0_0_1_n_n.rhsIdx_val_of_single rfl (ix2 p n) q
  have r1 : ∀ q : Cert.KernelIdeal.dot_S128x256_S256x6144_S128x6144_1_0_0_1_n_n.contr.Idx, (Cert.KernelIdeal.dot_S128x256_S256x6144_S128x6144_1_0_0_1_n_n.rhsIdx (ix2 p n) q 1).val = n.val := fun q => by
    unfold DotDims.rhsIdx
    rw [dif_neg (show ¬(1 : Fin Cert.KernelIdeal.S256x6144.rank) ∈ Cert.KernelIdeal.dot_S128x256_S256x6144_S128x6144_1_0_0_1_n_n.rhsBatch by decide), dif_pos (show (1 : Fin Cert.KernelIdeal.S256x6144.rank) ∈ Cert.KernelIdeal.dot_S128x256_S256x6144_S128x6144_1_0_0_1_n_n.rhsNonContracting by decide)]
    rfl
  have el : Cert.KernelIdeal.dot_S128x256_S256x6144_S128x6144_1_0_0_1_n_n.lhsIdx (ix2 p n) ((ValueIdx.contrEquiv1 Cert.KernelIdeal.dot_S128x256_S256x6144_S128x6144_1_0_0_1_n_n 256 rfl rfl).symm k) = ix2 p k := funext fun a => Fin.ext (by
    match a with
    | ⟨0, _⟩ => exact l0 _
    | ⟨1, _⟩ => exact (l1 _).trans hk)
  have er : Cert.KernelIdeal.dot_S128x256_S256x6144_S128x6144_1_0_0_1_n_n.rhsIdx (ix2 p n) ((ValueIdx.contrEquiv1 Cert.KernelIdeal.dot_S128x256_S256x6144_S128x6144_1_0_0_1_n_n 256 rfl rfl).symm k) = ix2 k n := funext fun a => Fin.ext (by
    match a with
    | ⟨0, _⟩ => exact (r0 _).trans hk
    | ⟨1, _⟩ => exact r1 _)
  rw [el, er]

/-- The block product with contraction length 64, into a zero accumulator, read at `(p, n)`: the sum over the
    contraction coordinate of the products of the operands' entries. -/
theorem mm64 (l : FVec Ideal Cert.KernelIdeal.S128x64 .bf16) (r : FVec Ideal Cert.KernelIdeal.S64x6144 .bf16) (p : Fin 128) (n : Fin 6144) :
    matmul Cert.KernelIdeal.dot_S128x64_S64x6144_S128x6144_1_0_0_1_n_n none l r (constant Cert.KernelIdeal.S128x6144 .f32 0x00000000#32) (ix2 p n)
      = ∑ k : Fin 64, l (ix2 p k) * r (ix2 k n) := by
  refine (Ideal.matmul_constant_zero_apply Cert.KernelIdeal.dot_S128x64_S64x6144_S128x6144_1_0_0_1_n_n none l r (ix2 p n)).trans ?_
  rw [← Equiv.sum_comp (ValueIdx.contrEquiv1 Cert.KernelIdeal.dot_S128x64_S64x6144_S128x6144_1_0_0_1_n_n 64 rfl rfl).symm]
  refine Finset.sum_congr rfl fun k _ => ?_
  have hk := ValueIdx.contrEquiv1_symm_val Cert.KernelIdeal.dot_S128x64_S64x6144_S128x6144_1_0_0_1_n_n 64 rfl rfl k
  have l0 : ∀ q : Cert.KernelIdeal.dot_S128x64_S64x6144_S128x6144_1_0_0_1_n_n.contr.Idx, (Cert.KernelIdeal.dot_S128x64_S64x6144_S128x6144_1_0_0_1_n_n.lhsIdx (ix2 p n) q 0).val = p.val := fun q => by
    unfold DotDims.lhsIdx
    rw [dif_neg (show ¬(0 : Fin Cert.KernelIdeal.S128x64.rank) ∈ Cert.KernelIdeal.dot_S128x64_S64x6144_S128x6144_1_0_0_1_n_n.lhsBatch by decide), dif_pos (show (0 : Fin Cert.KernelIdeal.S128x64.rank) ∈ Cert.KernelIdeal.dot_S128x64_S64x6144_S128x6144_1_0_0_1_n_n.lhsNonContracting by decide)]
    rfl
  have l1 : ∀ q : Cert.KernelIdeal.dot_S128x64_S64x6144_S128x6144_1_0_0_1_n_n.contr.Idx, (Cert.KernelIdeal.dot_S128x64_S64x6144_S128x6144_1_0_0_1_n_n.lhsIdx (ix2 p n) q 1).val = (q ⟨0, by decide⟩).val := fun q =>
    Cert.KernelIdeal.dot_S128x64_S64x6144_S128x6144_1_0_0_1_n_n.lhsIdx_val_of_single rfl (ix2 p n) q
  have r0 : ∀ q : Cert.KernelIdeal.dot_S128x64_S64x6144_S128x6144_1_0_0_1_n_n.contr.Idx, (Cert.KernelIdeal.dot_S128x64_S64x6144_S128x6144_1_0_0_1_n_n.rhsIdx (ix2 p n) q 0).val = (q ⟨0, by decide⟩).val := fun q =>
    Cert.KernelIdeal.dot_S128x64_S64x6144_S128x6144_1_0_0_1_n_n.rhsIdx_val_of_single rfl (ix2 p n) q
  have r1 : ∀ q : Cert.KernelIdeal.dot_S128x64_S64x6144_S128x6144_1_0_0_1_n_n.contr.Idx, (Cert.KernelIdeal.dot_S128x64_S64x6144_S128x6144_1_0_0_1_n_n.rhsIdx (ix2 p n) q 1).val = n.val := fun q => by
    unfold DotDims.rhsIdx
    rw [dif_neg (show ¬(1 : Fin Cert.KernelIdeal.S64x6144.rank) ∈ Cert.KernelIdeal.dot_S128x64_S64x6144_S128x6144_1_0_0_1_n_n.rhsBatch by decide), dif_pos (show (1 : Fin Cert.KernelIdeal.S64x6144.rank) ∈ Cert.KernelIdeal.dot_S128x64_S64x6144_S128x6144_1_0_0_1_n_n.rhsNonContracting by decide)]
    rfl
  have el : Cert.KernelIdeal.dot_S128x64_S64x6144_S128x6144_1_0_0_1_n_n.lhsIdx (ix2 p n) ((ValueIdx.contrEquiv1 Cert.KernelIdeal.dot_S128x64_S64x6144_S128x6144_1_0_0_1_n_n 64 rfl rfl).symm k) = ix2 p k := funext fun a => Fin.ext (by
    match a with
    | ⟨0, _⟩ => exact l0 _
    | ⟨1, _⟩ => exact (l1 _).trans hk)
  have er : Cert.KernelIdeal.dot_S128x64_S64x6144_S128x6144_1_0_0_1_n_n.rhsIdx (ix2 p n) ((ValueIdx.contrEquiv1 Cert.KernelIdeal.dot_S128x64_S64x6144_S128x6144_1_0_0_1_n_n 64 rfl rfl).symm k) = ix2 k n := funext fun a => Fin.ext (by
    match a with
    | ⟨0, _⟩ => exact (r0 _).trans hk
    | ⟨1, _⟩ => exact r1 _)
  rw [el, er]

/-- The block product with contraction length 2048, into a zero accumulator, read at `(p, n)`: the sum over the
    contraction coordinate of the products of the operands' entries. -/
theorem mm2048 (l : FVec Ideal Cert.KernelIdeal.S128x2048 .bf16) (r : FVec Ideal Cert.KernelIdeal.S2048x6144 .bf16) (p : Fin 128) (n : Fin 6144) :
    matmul Cert.KernelIdeal.dot_S128x2048_S2048x6144_S128x6144_1_0_0_1_n_n none l r (constant Cert.KernelIdeal.S128x6144 .f32 0x00000000#32) (ix2 p n)
      = ∑ k : Fin 2048, l (ix2 p k) * r (ix2 k n) := by
  refine (Ideal.matmul_constant_zero_apply Cert.KernelIdeal.dot_S128x2048_S2048x6144_S128x6144_1_0_0_1_n_n none l r (ix2 p n)).trans ?_
  rw [← Equiv.sum_comp (ValueIdx.contrEquiv1 Cert.KernelIdeal.dot_S128x2048_S2048x6144_S128x6144_1_0_0_1_n_n 2048 rfl rfl).symm]
  refine Finset.sum_congr rfl fun k _ => ?_
  have hk := ValueIdx.contrEquiv1_symm_val Cert.KernelIdeal.dot_S128x2048_S2048x6144_S128x6144_1_0_0_1_n_n 2048 rfl rfl k
  have l0 : ∀ q : Cert.KernelIdeal.dot_S128x2048_S2048x6144_S128x6144_1_0_0_1_n_n.contr.Idx, (Cert.KernelIdeal.dot_S128x2048_S2048x6144_S128x6144_1_0_0_1_n_n.lhsIdx (ix2 p n) q 0).val = p.val := fun q => by
    unfold DotDims.lhsIdx
    rw [dif_neg (show ¬(0 : Fin Cert.KernelIdeal.S128x2048.rank) ∈ Cert.KernelIdeal.dot_S128x2048_S2048x6144_S128x6144_1_0_0_1_n_n.lhsBatch by decide), dif_pos (show (0 : Fin Cert.KernelIdeal.S128x2048.rank) ∈ Cert.KernelIdeal.dot_S128x2048_S2048x6144_S128x6144_1_0_0_1_n_n.lhsNonContracting by decide)]
    rfl
  have l1 : ∀ q : Cert.KernelIdeal.dot_S128x2048_S2048x6144_S128x6144_1_0_0_1_n_n.contr.Idx, (Cert.KernelIdeal.dot_S128x2048_S2048x6144_S128x6144_1_0_0_1_n_n.lhsIdx (ix2 p n) q 1).val = (q ⟨0, by decide⟩).val := fun q =>
    Cert.KernelIdeal.dot_S128x2048_S2048x6144_S128x6144_1_0_0_1_n_n.lhsIdx_val_of_single rfl (ix2 p n) q
  have r0 : ∀ q : Cert.KernelIdeal.dot_S128x2048_S2048x6144_S128x6144_1_0_0_1_n_n.contr.Idx, (Cert.KernelIdeal.dot_S128x2048_S2048x6144_S128x6144_1_0_0_1_n_n.rhsIdx (ix2 p n) q 0).val = (q ⟨0, by decide⟩).val := fun q =>
    Cert.KernelIdeal.dot_S128x2048_S2048x6144_S128x6144_1_0_0_1_n_n.rhsIdx_val_of_single rfl (ix2 p n) q
  have r1 : ∀ q : Cert.KernelIdeal.dot_S128x2048_S2048x6144_S128x6144_1_0_0_1_n_n.contr.Idx, (Cert.KernelIdeal.dot_S128x2048_S2048x6144_S128x6144_1_0_0_1_n_n.rhsIdx (ix2 p n) q 1).val = n.val := fun q => by
    unfold DotDims.rhsIdx
    rw [dif_neg (show ¬(1 : Fin Cert.KernelIdeal.S2048x6144.rank) ∈ Cert.KernelIdeal.dot_S128x2048_S2048x6144_S128x6144_1_0_0_1_n_n.rhsBatch by decide), dif_pos (show (1 : Fin Cert.KernelIdeal.S2048x6144.rank) ∈ Cert.KernelIdeal.dot_S128x2048_S2048x6144_S128x6144_1_0_0_1_n_n.rhsNonContracting by decide)]
    rfl
  have el : Cert.KernelIdeal.dot_S128x2048_S2048x6144_S128x6144_1_0_0_1_n_n.lhsIdx (ix2 p n) ((ValueIdx.contrEquiv1 Cert.KernelIdeal.dot_S128x2048_S2048x6144_S128x6144_1_0_0_1_n_n 2048 rfl rfl).symm k) = ix2 p k := funext fun a => Fin.ext (by
    match a with
    | ⟨0, _⟩ => exact l0 _
    | ⟨1, _⟩ => exact (l1 _).trans hk)
  have er : Cert.KernelIdeal.dot_S128x2048_S2048x6144_S128x6144_1_0_0_1_n_n.rhsIdx (ix2 p n) ((ValueIdx.contrEquiv1 Cert.KernelIdeal.dot_S128x2048_S2048x6144_S128x6144_1_0_0_1_n_n 2048 rfl rfl).symm k) = ix2 k n := funext fun a => Fin.ext (by
    match a with
    | ⟨0, _⟩ => exact (r0 _).trans hk
    | ⟨1, _⟩ => exact r1 _)
  rw [el, er]

/-- A sum over 832 = 512 + 256 + 64 coordinates, cut at 512 and at 768. -/
theorem sum_832 {M : Type*} [AddCommMonoid M] (f : Fin 832 → M) :
    ∑ k : Fin 832, f k = ((∑ k : Fin 512, f ⟨k.val, by omega⟩) + ∑ k : Fin 256, f ⟨512 + k.val, by omega⟩)
      + ∑ k : Fin 64, f ⟨768 + k.val, by omega⟩ := by
  have h1 : ∑ k : Fin (768 + 64), f k
      = ∑ k : Fin 768, f (Fin.castAdd 64 k) + ∑ k : Fin 64, f (Fin.natAdd 768 k) :=
    @Fin.sum_univ_add M _ 768 64 f
  have h2 : ∑ k : Fin (512 + 256), f (Fin.castAdd 64 k)
      = ∑ k : Fin 512, f (Fin.castAdd 64 (Fin.castAdd 256 k)) + ∑ k : Fin 256, f (Fin.castAdd 64 (Fin.natAdd 512 k)) :=
    @Fin.sum_univ_add M _ 512 256 fun k : Fin (512 + 256) => f (Fin.castAdd 64 k)
  exact h1.trans (congrArg (· + ∑ k : Fin 64, f (Fin.natAdd 768 k)) h2)

/-- The input pre-activation block at `(p, n)`: the three partial products against the three row bands of the
    transposed input weight, plus the input bias. -/
theorem pay2_k (c0 : Vec Ideal Cert.KernelIdeal.S128x512 .f32) (c1 : Vec Ideal Cert.KernelIdeal.S128x256 .f32) (c2 : Vec Ideal Cert.KernelIdeal.S128x64 .f32)
    (c4 : Vec Ideal Cert.KernelIdeal.S512x6144 .bf16) (c5 : Vec Ideal Cert.KernelIdeal.S256x6144 .bf16) (c6 : Vec Ideal Cert.KernelIdeal.S64x6144 .bf16)
    (c7 : Vec Ideal Cert.KernelIdeal.S1x6144 .f32) (p : Fin 128) (n : Fin 6144) :
    k1_pay2 c0 c1 c2 c4 c5 c6 c7 (ix2 p n)
      = (((∑ k : Fin 512, c0 (ix2 p k) * c4 (ix2 k n)) + ∑ k : Fin 256, c1 (ix2 p k) * c5 (ix2 k n))
          + ∑ k : Fin 64, c2 (ix2 p k) * c6 (ix2 k n)) + c7 (ix2 (0 : Fin 1) n) := by
  unfold k1_pay2
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · refine (mm512 _ _ p n).trans (Finset.sum_congr rfl fun k _ => ?_)
        rw [shapeCast_self]; rfl
      · refine (mm256 _ _ p n).trans (Finset.sum_congr rfl fun k _ => ?_)
        rw [shapeCast_self, shapeCast_self]; rfl
    · refine (mm64 _ _ p n).trans (Finset.sum_congr rfl fun k _ => ?_)
      rw [shapeCast_self]; rfl
  · rw [shapeCast_self]
    exact broadcastTo_1b_ab_apply c7 _ p n

/-- The state pre-activation block at `(p, n)`: the product against the transposed state weight, plus the state bias. -/
theorem pay3_k (c3 : Vec Ideal Cert.KernelIdeal.S128x2048 .f32) (c8 : Vec Ideal Cert.KernelIdeal.S2048x6144 .bf16) (c9 : Vec Ideal Cert.KernelIdeal.S1x6144 .f32)
    (p : Fin 128) (n : Fin 6144) :
    k1_pay3 c3 c8 c9 (ix2 p n) = (∑ k : Fin 2048, c3 (ix2 p k) * c8 (ix2 k n)) + c9 (ix2 (0 : Fin 1) n) := by
  unfold k1_pay3
  refine (addf_apply _ _ _).trans (congrArg₂ (· + ·) ?_ ?_)
  · refine (mm2048 _ _ p n).trans (Finset.sum_congr rfl fun k _ => ?_)
    rw [shapeCast_self]; rfl
  · rw [shapeCast_self]
    exact broadcastTo_1b_ab_apply c9 _ p n

/-- A column band of width 2048 starting at column `o` of a `[128, 6144]` block, read at `(p, q)`. -/
theorem band_apply (o : Nat) (X : FVec Ideal Cert.KernelIdeal.S128x6144 .f32) (h : Cert.KernelIdeal.S128x6144.Slices ![0, o] Cert.KernelIdeal.S128x2048)
    (p : Fin 128) (q : Fin 2048) (ho : o + 2048 ≤ 6144) :
    extractStridedSlice Cert.KernelIdeal.S128x2048 ![0, o] X h (ix2 p q) = X (ix2 p (⟨o + q.val, by omega⟩ : Fin 6144)) :=
  slice2_axis1_apply o X h p q ⟨o + q.val, by omega⟩ rfl

/-- The new state at `(p, q)` from the pre-activation blocks: the update gate mixes the candidate with the old state. -/
theorem pay1_k (c3 : Vec Ideal Cert.KernelIdeal.S128x2048 .f32) (v30 : FVec Ideal Cert.KernelIdeal.S128x6144 .f32)
    (v31 v32 v33 v34 : FVec Ideal Cert.KernelIdeal.S128x2048 .f32) (p : Fin 128) (q : Fin 2048) :
    k1_pay1 c3 v30 v31 v32 v33 v34 (ix2 p q)
      = (Ideal.ofBits .f32 0x3F800000#32
            - Ideal.logistic (v32 (ix2 p q) + v30 (ix2 p (⟨2048 + q.val, by omega⟩ : Fin 6144))))
          * Ideal.tanh (v33 (ix2 p q)
              + Ideal.logistic (v31 (ix2 p q) + v34 (ix2 p q)) * v30 (ix2 p (⟨4096 + q.val, by omega⟩ : Fin 6144)))
        + Ideal.logistic (v32 (ix2 p q) + v30 (ix2 p (⟨2048 + q.val, by omega⟩ : Fin 6144))) * c3 (ix2 p q) := by
  unfold k1_pay1
  have e35 := fun h => band_apply 2048 v30 h p q (by omega)
  have e36 := fun h => band_apply 4096 v30 h p q (by omega)
  rw [← e35, ← e36]
  rfl

variable (t : Fin 32)
  (c0 : Vec Ideal Cert.KernelIdeal.S128x512 .f32) (c1 : Vec Ideal Cert.KernelIdeal.S128x256 .f32) (c2 : Vec Ideal Cert.KernelIdeal.S128x64 .f32) (c3 : Vec Ideal Cert.KernelIdeal.S128x2048 .f32)
  (c4 : Vec Ideal Cert.KernelIdeal.S512x6144 .bf16) (c5 : Vec Ideal Cert.KernelIdeal.S256x6144 .bf16) (c6 : Vec Ideal Cert.KernelIdeal.S64x6144 .bf16) (c7 : Vec Ideal Cert.KernelIdeal.S1x6144 .f32)
  (c8 : Vec Ideal Cert.KernelIdeal.S2048x6144 .bf16) (c9 : Vec Ideal Cert.KernelIdeal.S1x6144 .f32)
  (a0 : (⟨Cert.ReferenceIdeal.S4096x512, .f32⟩ : BufTy).Contents (Elt Ideal)) (a1 : (⟨Cert.ReferenceIdeal.S4096x64, .f32⟩ : BufTy).Contents (Elt Ideal)) (a2 : (⟨Cert.ReferenceIdeal.S4096x2048, .f32⟩ : BufTy).Contents (Elt Ideal)) (a3 : (⟨Cert.ReferenceIdeal.S4096x256, .f32⟩ : BufTy).Contents (Elt Ideal))
  (a8 : (⟨Cert.ReferenceIdeal.S2048x2560, .f32⟩ : BufTy).Contents (Elt Ideal)) (a9 : (⟨Cert.ReferenceIdeal.S2048, .f32⟩ : BufTy).Contents (Elt Ideal)) (a10 : (⟨Cert.ReferenceIdeal.S512x2048, .f32⟩ : BufTy).Contents (Elt Ideal)) (a11 : (⟨Cert.ReferenceIdeal.S512, .f32⟩ : BufTy).Contents (Elt Ideal))
  (a16 : (⟨Cert.ReferenceIdeal.S6144x832, .f32⟩ : BufTy).Contents (Elt Ideal)) (a17 : (⟨Cert.ReferenceIdeal.S6144x2048, .f32⟩ : BufTy).Contents (Elt Ideal)) (a18 : (⟨Cert.ReferenceIdeal.S6144, .f32⟩ : BufTy).Contents (Elt Ideal)) (a19 : (⟨Cert.ReferenceIdeal.S6144, .f32⟩ : BufTy).Contents (Elt Ideal))

/-- The blocks the recurrent call loads at grid point `t`: rows `128 t + p` of the observation, of the sampled
    latent (the reference's), of the action and of the state; the input weight matrix transposed and cut at columns
    512 and 768 of its input axis; the state weight matrix transposed; the biases as rows. -/
structure GruBlocks : Prop where
  g0 : ∀ (p : Fin 128) (k : Fin 512), c0 (ix2 p k) = a0 (ix2 (row128 t p) k)
  g1 : ∀ (p : Fin 128) (k : Fin 256), c1 (ix2 p k) = val_main_v32 (F := Ideal) a0 a2 a3 a8 a9 a10 a11 (ix2 (row128 t p) k)
  g2 : ∀ (p : Fin 128) (k : Fin 64), c2 (ix2 p k) = a1 (ix2 (row128 t p) k)
  g3 : ∀ (p : Fin 128) (k : Fin 2048), c3 (ix2 p k) = a2 (ix2 (row128 t p) k)
  g4 : ∀ (k : Fin 512) (n : Fin 6144), c4 (ix2 k n) = a16 (ix2 n (⟨k.val, by omega⟩ : Fin 832))
  g5 : ∀ (k : Fin 256) (n : Fin 6144), c5 (ix2 k n) = a16 (ix2 n (⟨512 + k.val, by omega⟩ : Fin 832))
  g6 : ∀ (k : Fin 64) (n : Fin 6144), c6 (ix2 k n) = a16 (ix2 n (⟨768 + k.val, by omega⟩ : Fin 832))
  g7 : ∀ n : Fin 6144, c7 (ix2 (0 : Fin 1) n) = a18 (ix1 n)
  g8 : ∀ (k : Fin 2048) (n : Fin 6144), c8 (ix2 k n) = a17 (ix2 n k)
  g9 : ∀ n : Fin 6144, c9 (ix2 (0 : Fin 1) n) = a19 (ix1 n)

variable {t c0 c1 c2 c3 c4 c5 c6 c7 c8 c9 a0 a1 a2 a3 a8 a9 a10 a11 a16 a17 a18 a19}

/-! ## The reference's stages read at a row and a column -/

/-- The concatenated input `[x, z, a]` at a column below 512 is the observation. -/
theorem v71_at0 (r : Fin 4096) (k : Fin 512) :
    val_main_v71 (F := Ideal) a0 a1 a2 a3 a8 a9 a10 a11 (ix2 r (⟨k.val, by omega⟩ : Fin 832)) = a0 (ix2 r k) := by
  unfold val_main_v71
  generalize val_main_v32 (F := Ideal) a0 a2 a3 a8 a9 a10 a11 = Z
  refine concatenate_apply_piece (t := Cert.ReferenceIdeal.S4096x832) (k := 0) (hk := ?_) (s₁ := Cert.ReferenceIdeal.S4096x512) (x₁ := a0) (hxk := ?_) (hr := rfl)
    (pre := 0) (hpre := ?_) (i := ix2 r k) (hi := ?_) (ha := ?_) ..
  · show (0 : ℕ) < 3
    omega
  · rfl
  · rfl
  · intro b hb
    match b with
    | ⟨0, _⟩ => rfl
    | ⟨1, _⟩ => exact absurd rfl hb
  · exact Nat.zero_add _

/-- At a column `512 + k`, `k < 256`, it is the sampled latent. -/
theorem v71_at1 (r : Fin 4096) (k : Fin 256) :
    val_main_v71 (F := Ideal) a0 a1 a2 a3 a8 a9 a10 a11 (ix2 r (⟨512 + k.val, by omega⟩ : Fin 832))
      = val_main_v32 (F := Ideal) a0 a2 a3 a8 a9 a10 a11 (ix2 r k) := by
  unfold val_main_v71
  generalize val_main_v32 (F := Ideal) a0 a2 a3 a8 a9 a10 a11 = Z
  refine concatenate_apply_piece (t := Cert.ReferenceIdeal.S4096x832) (k := 1) (hk := ?_) (s₁ := Cert.ReferenceIdeal.S4096x256) (x₁ := Z) (hxk := ?_) (hr := rfl)
    (pre := 512) (hpre := ?_) (i := ix2 r k) (hi := ?_) (ha := ?_) ..
  · show (1 : ℕ) < 3
    omega
  · rfl
  · rfl
  · intro b hb
    match b with
    | ⟨0, _⟩ => rfl
    | ⟨1, _⟩ => exact absurd rfl hb
  · exact rfl

/-- At a column `768 + k`, `k < 64`, it is the action. -/
theorem v71_at2 (r : Fin 4096) (k : Fin 64) :
    val_main_v71 (F := Ideal) a0 a1 a2 a3 a8 a9 a10 a11 (ix2 r (⟨768 + k.val, by omega⟩ : Fin 832)) = a1 (ix2 r k) := by
  unfold val_main_v71
  generalize val_main_v32 (F := Ideal) a0 a2 a3 a8 a9 a10 a11 = Z
  refine concatenate_apply_piece (t := Cert.ReferenceIdeal.S4096x832) (k := 2) (hk := ?_) (s₁ := Cert.ReferenceIdeal.S4096x64) (x₁ := a1) (hxk := ?_) (hr := rfl)
    (pre := 768) (hpre := ?_) (i := ix2 r k) (hi := ?_) (ha := ?_) ..
  · show (2 : ℕ) < 3
    omega
  · rfl
  · rfl
  · intro b hb
    match b with
    | ⟨0, _⟩ => rfl
    | ⟨1, _⟩ => exact absurd rfl hb
  · exact rfl

/-- The operand indices of the input product at `(r, n)` and contraction coordinate `k`. -/
theorem lidx73_eq (r : Fin 4096) (n : Fin 6144) (k : Fin 832) : lidx_main_v73 (ix2 r n) k = ix2 r k := funext fun a => Fin.ext (by match a with | ⟨0, _⟩ => rfl | ⟨1, _⟩ => rfl)
theorem ridx73_eq (r : Fin 4096) (n : Fin 6144) (k : Fin 832) : idx_main_v72 (ridx_main_v73 (ix2 r n) k) = ix2 n k := funext fun a => Fin.ext (by match a with | ⟨0, _⟩ => rfl | ⟨1, _⟩ => rfl)

/-- The input bias broadcast over rows, at `(r, n)`. -/
theorem v75_at (r : Fin 4096) (n : Fin 6144) : val_main_v75 (F := Ideal) a18 (ix2 r n) = a18 (ix1 n) := by
  rw [val_main_v75_apply, val_main_v74_apply]
  exact congrArg a18 (funext fun a => Fin.ext (by match a with | ⟨0, _⟩ => rfl))

/-- The reference's input pre-activation at `(r, n)`: the one contraction over the 832 concatenated features, cut at
    the two seams, plus the bias. -/
theorem v76_r (r : Fin 4096) (n : Fin 6144) :
    val_main_v76 (F := Ideal) a0 a1 a2 a3 a8 a9 a10 a11 a16 a18 (ix2 r n)
      = (((∑ k : Fin 512, a0 (ix2 r k) * a16 (ix2 n (⟨k.val, by omega⟩ : Fin 832)))
            + ∑ k : Fin 256, val_main_v32 (F := Ideal) a0 a2 a3 a8 a9 a10 a11 (ix2 r k)
                * a16 (ix2 n (⟨512 + k.val, by omega⟩ : Fin 832)))
          + ∑ k : Fin 64, a1 (ix2 r k) * a16 (ix2 n (⟨768 + k.val, by omega⟩ : Fin 832))) + a18 (ix1 n) := by
  unfold val_main_v76
  refine (addf_apply _ _ _).trans (congrArg₂ (· + ·) ?_ (v75_at r n))
  rw [val_main_v73_apply]
  refine (sum_832 _).trans (congrArg₂ (· + ·) (congrArg₂ (· + ·) ?_ ?_) ?_)
  · refine Finset.sum_congr rfl fun k _ => ?_
    beta_reduce
    rw [lidx73_eq, val_main_v72_apply, ridx73_eq, v71_at0]
  · refine Finset.sum_congr rfl fun k _ => ?_
    beta_reduce
    rw [lidx73_eq, val_main_v72_apply, ridx73_eq, v71_at1]
  · refine Finset.sum_congr rfl fun k _ => ?_
    beta_reduce
    rw [lidx73_eq, val_main_v72_apply, ridx73_eq, v71_at2]

/-- The reference's state pre-activation at `(r, n)`. -/
theorem v81_r (r : Fin 4096) (n : Fin 6144) :
    val_main_v81 (F := Ideal) a2 a17 a19 (ix2 r n) = (∑ k : Fin 2048, a2 (ix2 r k) * a17 (ix2 n k)) + a19 (ix1 n) := by
  unfold val_main_v81
  refine (addf_apply _ _ _).trans (congrArg₂ (· + ·) ?_ ?_)
  · rw [val_main_v78_apply]
    refine Finset.sum_congr rfl fun k _ => ?_
    rw [val_main_v77_apply]
    exact congrArg₂ (· * ·) (congrArg a2 (funext fun a => Fin.ext (by match a with | ⟨0, _⟩ => rfl | ⟨1, _⟩ => rfl))) (congrArg a17 (funext fun a => Fin.ext (by match a with | ⟨0, _⟩ => rfl | ⟨1, _⟩ => rfl)))
  · rw [val_main_v80_apply, val_main_v79_apply]
    exact congrArg a19 (funext fun a => Fin.ext (by match a with | ⟨0, _⟩ => rfl))

/-- The three column bands of each pre-activation, at `(r, q)`. -/
theorem v82_at (r : Fin 4096) (q : Fin 2048) : val_main_v82 (F := Ideal) a0 a1 a2 a3 a8 a9 a10 a11 a16 a18 (ix2 r q)
    = val_main_v76 (F := Ideal) a0 a1 a2 a3 a8 a9 a10 a11 a16 a18 (ix2 r (⟨q.val, by omega⟩ : Fin 6144)) := by
  rw [val_main_v82_apply]; exact congrArg _ (funext fun a => Fin.ext (by match a with | ⟨0, _⟩ => rfl | ⟨1, _⟩ => rfl))
theorem v83_at (r : Fin 4096) (q : Fin 2048) : val_main_v83 (F := Ideal) a0 a1 a2 a3 a8 a9 a10 a11 a16 a18 (ix2 r q)
    = val_main_v76 (F := Ideal) a0 a1 a2 a3 a8 a9 a10 a11 a16 a18 (ix2 r (⟨2048 + q.val, by omega⟩ : Fin 6144)) := by
  rw [val_main_v83_apply]; exact congrArg _ (funext fun a => Fin.ext (by match a with | ⟨0, _⟩ => rfl | ⟨1, _⟩ => rfl))
theorem v84_at (r : Fin 4096) (q : Fin 2048) : val_main_v84 (F := Ideal) a0 a1 a2 a3 a8 a9 a10 a11 a16 a18 (ix2 r q)
    = val_main_v76 (F := Ideal) a0 a1 a2 a3 a8 a9 a10 a11 a16 a18 (ix2 r (⟨4096 + q.val, by omega⟩ : Fin 6144)) := by
  rw [val_main_v84_apply]; exact congrArg _ (funext fun a => Fin.ext (by match a with | ⟨0, _⟩ => rfl | ⟨1, _⟩ => rfl))
theorem v85_at (r : Fin 4096) (q : Fin 2048) : val_main_v85 (F := Ideal) a2 a17 a19 (ix2 r q)
    = val_main_v81 (F := Ideal) a2 a17 a19 (ix2 r (⟨q.val, by omega⟩ : Fin 6144)) := by
  rw [val_main_v85_apply]; exact congrArg _ (funext fun a => Fin.ext (by match a with | ⟨0, _⟩ => rfl | ⟨1, _⟩ => rfl))
theorem v86_at (r : Fin 4096) (q : Fin 2048) : val_main_v86 (F := Ideal) a2 a17 a19 (ix2 r q)
    = val_main_v81 (F := Ideal) a2 a17 a19 (ix2 r (⟨2048 + q.val, by omega⟩ : Fin 6144)) := by
  rw [val_main_v86_apply]; exact congrArg _ (funext fun a => Fin.ext (by match a with | ⟨0, _⟩ => rfl | ⟨1, _⟩ => rfl))
theorem v87_at (r : Fin 4096) (q : Fin 2048) : val_main_v87 (F := Ideal) a2 a17 a19 (ix2 r q)
    = val_main_v81 (F := Ideal) a2 a17 a19 (ix2 r (⟨4096 + q.val, by omega⟩ : Fin 6144)) := by
  rw [val_main_v87_apply]; exact congrArg _ (funext fun a => Fin.ext (by match a with | ⟨0, _⟩ => rfl | ⟨1, _⟩ => rfl))

/-- The reference's new state at an index, from the six bands and the old state: its `1 / (1 + exp (-x))` is the
    logistic function, and the pattern `0x3F800000` is one. -/
theorem v109_r (i : Cert.ReferenceIdeal.S4096x2048.Idx) :
    val_main_v109 (F := Ideal) a0 a1 a2 a3 a8 a9 a10 a11 a16 a17 a18 a19 i
      = (Ideal.ofBits .f32 0x3F800000#32
            - Ideal.logistic (val_main_v83 (F := Ideal) a0 a1 a2 a3 a8 a9 a10 a11 a16 a18 i + val_main_v86 (F := Ideal) a2 a17 a19 i))
          * Ideal.tanh (val_main_v84 (F := Ideal) a0 a1 a2 a3 a8 a9 a10 a11 a16 a18 i
              + Ideal.logistic (val_main_v82 (F := Ideal) a0 a1 a2 a3 a8 a9 a10 a11 a16 a18 i + val_main_v85 (F := Ideal) a2 a17 a19 i)
                * val_main_v87 (F := Ideal) a2 a17 a19 i)
        + Ideal.logistic (val_main_v83 (F := Ideal) a0 a1 a2 a3 a8 a9 a10 a11 a16 a18 i + val_main_v86 (F := Ideal) a2 a17 a19 i) * a2 i := by
  simp only [val_main_v109_apply, val_main_v108_apply, val_main_v107_apply, val_main_v106_apply, val_main_v105_apply,
    val_main_cst_13_apply, val_main_v104_apply, val_main_v103_apply, val_main_v102_apply, val_main_v101_apply,
    val_main_v100_apply, val_main_cst_12_apply, val_main_v99_apply, val_main_v98_apply, val_main_cst_11_apply,
    val_main_v97_apply, val_main_v96_apply, val_main_v95_apply, val_main_v94_apply, val_main_v93_apply,
    val_main_cst_10_apply, val_main_v92_apply, val_main_v91_apply, val_main_cst_9_apply, val_main_v90_apply,
    val_main_v89_apply, val_main_v88_apply, Ideal.ofBits_def]
  unfold Ideal.logistic
  rw [Ideal.ofBits_one_f32]
  rfl

/-! ## The block against the reference -/

/-- The block's input pre-activation is the reference's at the block's rows. -/
theorem pay2_eq (H : GruBlocks t c0 c1 c2 c3 c4 c5 c6 c7 c8 c9 a0 a1 a2 a3 a8 a9 a10 a11 a16 a17 a18 a19) (p : Fin 128) (n : Fin 6144) :
    k1_pay2 c0 c1 c2 c4 c5 c6 c7 (ix2 p n) = val_main_v76 (F := Ideal) a0 a1 a2 a3 a8 a9 a10 a11 a16 a18 (ix2 (row128 t p) n) := by
  rw [pay2_k, v76_r]
  refine congrArg₂ (· + ·) (congrArg₂ (· + ·) (congrArg₂ (· + ·) ?_ ?_) ?_) (H.g7 n)
  · exact Finset.sum_congr rfl fun k _ => by rw [H.g0 p k, H.g4 k n]
  · exact Finset.sum_congr rfl fun k _ => by rw [H.g1 p k, H.g5 k n]
  · exact Finset.sum_congr rfl fun k _ => by rw [H.g2 p k, H.g6 k n]

/-- The block's state pre-activation is the reference's at the block's rows. -/
theorem pay3_eq (H : GruBlocks t c0 c1 c2 c3 c4 c5 c6 c7 c8 c9 a0 a1 a2 a3 a8 a9 a10 a11 a16 a17 a18 a19) (p : Fin 128) (n : Fin 6144) :
    k1_pay3 c3 c8 c9 (ix2 p n) = val_main_v81 (F := Ideal) a2 a17 a19 (ix2 (row128 t p) n) := by
  rw [pay3_k, v81_r]
  exact congrArg₂ (· + ·) (Finset.sum_congr rfl fun k _ => by rw [H.g3 p k, H.g8 k n]) (H.g9 n)

/-- The reset, update and candidate bands of the input pre-activation, and the reset band of the state pre-activation. -/
theorem pay4_eq (H : GruBlocks t c0 c1 c2 c3 c4 c5 c6 c7 c8 c9 a0 a1 a2 a3 a8 a9 a10 a11 a16 a17 a18 a19) (p : Fin 128) (q : Fin 2048) :
    k1_pay4 c0 c1 c2 c4 c5 c6 c7 (ix2 p q) = val_main_v82 (F := Ideal) a0 a1 a2 a3 a8 a9 a10 a11 a16 a18 (ix2 (row128 t p) q) := by
  unfold k1_pay4
  rw [v82_at]
  exact (slice2_axis1_apply 0 (k1_pay2 c0 c1 c2 c4 c5 c6 c7) _ p q ⟨q.val, by omega⟩ (Nat.zero_add _).symm).trans (pay2_eq H p _)
theorem pay5_eq (H : GruBlocks t c0 c1 c2 c3 c4 c5 c6 c7 c8 c9 a0 a1 a2 a3 a8 a9 a10 a11 a16 a17 a18 a19) (p : Fin 128) (q : Fin 2048) :
    k1_pay5 c0 c1 c2 c4 c5 c6 c7 (ix2 p q) = val_main_v83 (F := Ideal) a0 a1 a2 a3 a8 a9 a10 a11 a16 a18 (ix2 (row128 t p) q) := by
  unfold k1_pay5
  rw [v83_at]
  exact (band_apply 2048 (k1_pay2 c0 c1 c2 c4 c5 c6 c7) _ p q (by omega)).trans (pay2_eq H p _)
theorem pay6_eq (H : GruBlocks t c0 c1 c2 c3 c4 c5 c6 c7 c8 c9 a0 a1 a2 a3 a8 a9 a10 a11 a16 a17 a18 a19) (p : Fin 128) (q : Fin 2048) :
    k1_pay6 c0 c1 c2 c4 c5 c6 c7 (ix2 p q) = val_main_v84 (F := Ideal) a0 a1 a2 a3 a8 a9 a10 a11 a16 a18 (ix2 (row128 t p) q) := by
  unfold k1_pay6
  rw [v84_at]
  exact (band_apply 4096 (k1_pay2 c0 c1 c2 c4 c5 c6 c7) _ p q (by omega)).trans (pay2_eq H p _)
theorem pay7_eq (H : GruBlocks t c0 c1 c2 c3 c4 c5 c6 c7 c8 c9 a0 a1 a2 a3 a8 a9 a10 a11 a16 a17 a18 a19) (p : Fin 128) (q : Fin 2048) :
    k1_pay7 c3 c8 c9 (ix2 p q) = val_main_v85 (F := Ideal) a2 a17 a19 (ix2 (row128 t p) q) := by
  unfold k1_pay7
  rw [v85_at]
  exact (slice2_axis1_apply 0 (k1_pay3 c3 c8 c9) _ p q ⟨q.val, by omega⟩ (Nat.zero_add _).symm).trans (pay3_eq H p _)

/-- The new state the block computes is the reference's, row by row. -/
theorem h_block (H : GruBlocks t c0 c1 c2 c3 c4 c5 c6 c7 c8 c9 a0 a1 a2 a3 a8 a9 a10 a11 a16 a17 a18 a19) (p : Fin 128) (q : Fin 2048) :
    k1_pay1 c3 (k1_pay3 c3 c8 c9) (k1_pay4 c0 c1 c2 c4 c5 c6 c7) (k1_pay5 c0 c1 c2 c4 c5 c6 c7) (k1_pay6 c0 c1 c2 c4 c5 c6 c7) (k1_pay7 c3 c8 c9) (ix2 p q)
      = val_main_v109 (F := Ideal) a0 a1 a2 a3 a8 a9 a10 a11 a16 a17 a18 a19 (ix2 (row128 t p) q) := by
  rw [pay1_k, v109_r, pay4_eq H, pay5_eq H, pay6_eq H, pay7_eq H, pay3_eq H, pay3_eq H, H.g3, v86_at, v87_at]

end Cert.Bridge.Gru

end
-- ==== Proof.Region1.lean ====
/-
  The recurrent call's output array as a whole-array function of the arguments: at each grid point the block it
  writes back is the reference's new state at the block's rows (the bridge), the blocks cover the array.
-/
import proofs.«141820_j69552700391572_2_alg».proof.Proof.Blocks1
import proofs.«141820_j69552700391572_2_alg».proof.Proof.EntryDefs
import proofs.«141820_j69552700391572_2_alg».proof.Proof.BridgeGru
import Idealize.ShloMosaic.Lib.ValueLayout

set_option maxRecDepth 16384

noncomputable section

namespace Cert.KernelIdeal.R1

open Cert.KernelIdeal Cert.KernelIdeal.Gen Cert.KernelIdeal.KV Cert.Bridge Cert.ReferenceIdeal.Read
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)
  (a0 : (⟨S4096x512, .f32⟩ : BufTy).Contents (Elt Ideal)) (a1 : (⟨S4096x64, .f32⟩ : BufTy).Contents (Elt Ideal)) (a2 : (⟨S4096x2048, .f32⟩ : BufTy).Contents (Elt Ideal)) (a3 : (⟨S4096x256, .f32⟩ : BufTy).Contents (Elt Ideal))
  (a8 : (⟨S2048x2560, .f32⟩ : BufTy).Contents (Elt Ideal)) (a9 : (⟨S2048, .f32⟩ : BufTy).Contents (Elt Ideal)) (a10 : (⟨S512x2048, .f32⟩ : BufTy).Contents (Elt Ideal)) (a11 : (⟨S512, .f32⟩ : BufTy).Contents (Elt Ideal))
  (a16 : (⟨S6144x832, .f32⟩ : BufTy).Contents (Elt Ideal)) (a17 : (⟨S6144x2048, .f32⟩ : BufTy).Contents (Elt Ideal)) (a18 : (⟨S6144, .f32⟩ : BufTy).Contents (Elt Ideal)) (a19 : (⟨S6144, .f32⟩ : BufTy).Contents (Elt Ideal))

variable {V c a0 a1 a2 a3 a8 a9 a10 a11 a16 a17 a18 a19}

/-- The recurrent call's blocks at point `t` are rows and transposed slices of the arguments, the latent's block rows of
    the reference's latent. -/
theorem gruBlocks (E : Entry1 V c a0 a1 a2 (val_main_v32 (F := Ideal) a0 a2 a3 a8 a9 a10 a11) a16 a17 a18 a19) (t : Fin cfg1.N) :
    Gru.GruBlocks (tt t) (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) a0 a1 a2 a3 a8 a9 a10 a11 a16 a17 a18 a19 where
  g0 := fun p k => by rw [rd_0 V c t p k, E.e0]
  g1 := fun p k => by rw [rd_1 V c t p k, E.e1]
  g2 := fun p k => by rw [rd_2 V c t p k, E.e2]
  g3 := fun p k => by rw [rd_3 V c t p k, E.e3]
  g4 := fun k n => (rd_4 V c t k n).trans (E.e4 k n)
  g5 := fun k n => (rd_5 V c t k n).trans (E.e5 k n)
  g6 := fun k n => (rd_6 V c t k n).trans (E.e6 k n)
  g7 := fun n => (rd_7 V c t 0 n).trans (E.e7 n)
  g8 := fun k n => (rd_8 V c t k n).trans (E.e8 k n)
  g9 := fun n => (rd_9 V c t 0 n).trans (E.e9 n)

/-- What point `t` writes back to the new state's array is the reference's new state at the block's rows. -/
theorem flushed10_eq (E : Entry1 V c a0 a1 a2 (val_main_v32 (F := Ideal) a0 a2 a3 a8 a9 a10 a11) a16 a17 a18 a19) (t : Fin cfg1.N) :
    (dat1 V c).flushed 10 t = ((cfg1.win 10).blk t).view.read (Elt Ideal) (val_main_v109 (F := Ideal) a0 a1 a2 a3 a8 a9 a10 a11 a16 a17 a18 a19) := by
  show (cfg1.win 10).cut (grid1.coords t) ((dat1 V c).after 10 t) = _
  rw [after1_10]
  unfold out1_10
  rw [View.canon_unit_zero hz2]
  simp only [View.ld_unit_zero (S := S128x512) hz2, View.ld_unit_zero (S := S128x256) hz2, View.ld_unit_zero (S := S128x64) hz2, View.ld_unit_zero (S := S128x2048) hz2, View.ld_unit_zero (S := S512x6144) hz2, View.ld_unit_zero (S := S256x6144) hz2, View.ld_unit_zero (S := S64x6144) hz2, View.ld_unit_zero (S := S1x6144) hz2, View.ld_unit_zero (S := S2048x6144) hz2]
  funext j
  obtain ⟨p, q, rfl⟩ : ∃ (p : Fin 128) (q : Fin 2048), j = ix2 p q := ⟨j 0, j 1, eq_ix2 j⟩
  show k1_pay1 (iblk1 V c 3 t) (k1_pay3 (iblk1 V c 3 t) (iblk1 V c 8 t) (iblk1 V c 9 t)) (k1_pay4 (iblk1 V c 0 t) (iblk1 V c 1 t) (iblk1 V c 2 t) (iblk1 V c 4 t) (iblk1 V c 5 t) (iblk1 V c 6 t) (iblk1 V c 7 t)) (k1_pay5 (iblk1 V c 0 t) (iblk1 V c 1 t) (iblk1 V c 2 t) (iblk1 V c 4 t) (iblk1 V c 5 t) (iblk1 V c 6 t) (iblk1 V c 7 t)) (k1_pay6 (iblk1 V c 0 t) (iblk1 V c 1 t) (iblk1 V c 2 t) (iblk1 V c 4 t) (iblk1 V c 5 t) (iblk1 V c 6 t) (iblk1 V c 7 t)) (k1_pay7 (iblk1 V c 3 t) (iblk1 V c 8 t) (iblk1 V c 9 t)) (ix2 p q)
    = val_main_v109 (F := Ideal) a0 a1 a2 a3 a8 a9 a10 a11 a16 a17 a18 a19 (((cfg1.win 10).blk t).view.emb (ix2 p q))
  rw [emb_10 t p q]
  exact Gru.h_block (gruBlocks E t) p q

/-- The new state's array after the call, when the call finds the arguments re-laid and, as its latent, the
    reference's. -/
theorem arr10 (E : Entry1 V c a0 a1 a2 (val_main_v32 (F := Ideal) a0 a2 a3 a8 a9 a10 a11) a16 a17 a18 a19) :
    (dat1 V c).arrAt 10 cfg1.N = val_main_v109 (F := Ideal) a0 a1 a2 a3 a8 a9 a10 a11 a16 a17 a18 a19 :=
  (dat1 V c).arrAt_eq_of_cover 10 _ (fun t _ => flushed10_eq E t) cover_10

end Cert.KernelIdeal.R1

end
-- ==== Proof.Finite.lean ====
/-
  What the precondition gives: it is a conjunction, over the twenty argument arrays, of "every entry's absolute value is
  below +∞"; an extended real whose absolute value is below +∞ is a real number. The KL term needs this of the state and
  of the prior net's parameters.
-/
import proofs.«141820_j69552700391572_2_alg».proof.Defs
import proofs.«141820_j69552700391572_2_alg».proof.Proof.Gen.Pre_finite_inputs
import Idealize.ShloMosaic.Lib.ReduceAll
import Idealize.ShloMosaic.Lib.ValueIdx

noncomputable section

open Idealize.ShloMosaic Idealize.ShloMosaic.TcCoe Idealize.SL.Sem

namespace Cert.Finite

/-- An extended real that is a real number. -/
def IsReal (x : EReal) : Prop := ∃ r : ℝ, x = (r : EReal)

open Cert.Pre_finite_inputs Cert.Pre_finite_inputs.Facts Idealize.ShloMosaic.ValueIdx

/-- The scalar shape has one index. -/
instance subsingleton_scalar_idx : Subsingleton S_.Idx := ⟨fun a b => funext fun d => d.elim0⟩

/-- The bit pattern of positive infinity denotes the top element. -/
theorem ofBits_inf : Ideal.ofBits .f32 0x7F800000#32 = (⊤ : EReal) := by
  simp [Ideal.ofBits, Ideal.ieee]

/-- An extended real whose absolute value max x (-x) is strictly below the top element is a real number:
    the bottom element has absolute value top, and top is not below itself. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One conjunct of the precondition: if the conjunction over all indices of |x i| < +inf is one,
    then every entry of x is a real number. Generic in the shape and in the reduced axes. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1) :
    ∀ i, IsReal (x i) := by
  intro i
  have h1 := Host.reduce_andi_all _ _ hr hu ix0 e i
  have h2 : Ideal.cmp .olt (max (x i) (-(x i))) ⊤ = 1#1 := by
    rw [← ofBits_inf]; exact h1
  exact isReal_of_abs_lt_top _ h2

/-- A conjunction of two one-bit scalars that is one has both conjuncts one. -/
theorem and_one {a b : IVec S_ 1} (h : andi a b ix0 = 1#1) : a ix0 = 1#1 ∧ b ix0 = 1#1 :=
  IntOp.andi_eq_one.1 h

/-! ## The walk through the predicate, from its last piece back to its first

The predicate is a left-nested conjunction of twenty one-bit scalars, given in six pieces; each
piece hands the conjunction so far to the next. Read backwards: the final value being one forces the
value handed in to be one, and along the way each conjunct met is one. -/

/-- Last piece: the conjunction handed in is one. -/
theorem part5_one [Facts] (a18 a19 : FVec Ideal S6144 .f32) (v83 : IVec S_ 1)
    (v84 : FVec Ideal S6144x2048 .f32) (cst : FVec Ideal S_ .f32)
    (e : fn_part5 (F := Ideal) a18 a19 v83 v84 cst ix0 = 1#1) : v83 ix0 = 1#1 := by
  dsimp only [fn_part5] at e
  exact (and_one (and_one (and_one e).1).1).1

/-- Fifth piece: the conjunction handed in is one. -/
theorem part4_one [Facts] (a14 : FVec Ideal S1024x2048 .f32) (a15 : FVec Ideal S1024 .f32)
    (a16 : FVec Ideal S6144x832 .f32) (a17 : FVec Ideal S6144x2048 .f32)
    (a18 a19 : FVec Ideal S6144 .f32) (v63 v67 : IVec S_ 1)
    (e : fn_part4 (F := Ideal) a14 a15 a16 a17 a18 a19 v63 v67 ix0 = 1#1) : v63 ix0 = 1#1 := by
  dsimp only [fn_part4] at e
  have h := part5_one _ _ _ _ _ e
  exact (and_one (and_one (and_one (and_one h).1).1).1).1

/-- Fourth piece: the conjunction handed in is one. -/
theorem part3_one [Facts] (a11 : FVec Ideal S512 .f32) (a12 : FVec Ideal S2048x2304 .f32)
    (a13 : FVec Ideal S2048 .f32) (a14 : FVec Ideal S1024x2048 .f32) (a15 : FVec Ideal S1024 .f32)
    (a16 : FVec Ideal S6144x832 .f32) (a17 : FVec Ideal S6144x2048 .f32)
    (a18 a19 : FVec Ideal S6144 .f32) (v48 : IVec S_ 1) (v49 v50 : FVec Ideal S512x2048 .f32)
    (e : fn_part3 (F := Ideal) a11 a12 a13 a14 a15 a16 a17 a18 a19 v48 v49 v50 ix0 = 1#1) :
    v48 ix0 = 1#1 := by
  dsimp only [fn_part3] at e
  have h := part4_one _ _ _ _ _ _ _ _ e
  exact (and_one (and_one (and_one h).1).1).1

/-- Third piece: the conjunction handed in is one, and its first array holds reals. -/
theorem part2_one [Facts] (a7 : FVec Ideal S512 .f32) (a8 : FVec Ideal S2048x2560 .f32)
    (a9 : FVec Ideal S2048 .f32) (a10 : FVec Ideal S512x2048 .f32)
    (a11 : FVec Ideal S512 .f32) (a12 : FVec Ideal S2048x2304 .f32)
    (a13 : FVec Ideal S2048 .f32) (a14 : FVec Ideal S1024x2048 .f32) (a15 : FVec Ideal S1024 .f32)
    (a16 : FVec Ideal S6144x832 .f32) (a17 : FVec Ideal S6144x2048 .f32)
    (a18 a19 : FVec Ideal S6144 .f32) (v33 : IVec S_ 1)
    (e : fn_part2 (F := Ideal) a7 a8 a9 a10 a11 a12 a13 a14 a15 a16 a17 a18 a19 v33 ix0 = 1#1) :
    v33 ix0 = 1#1 ∧ ∀ i, IsReal (a7 i) := by
  dsimp only [fn_part2] at e
  have h := part3_one _ _ _ _ _ _ _ _ _ _ _ _ e
  have h38 := and_one (and_one (and_one h).1).1
  exact ⟨h38.1, real_of_all a7 _ _ _ h38.2⟩

/-- Second piece: the conjunction handed in is one, and its first four arrays hold reals. -/
theorem part1_one [Facts] (a4 : FVec Ideal S2048x2048 .f32) (a5 : FVec Ideal S2048 .f32)
    (a6 : FVec Ideal S512x2048 .f32) (a7 : FVec Ideal S512 .f32) (a8 : FVec Ideal S2048x2560 .f32)
    (a9 : FVec Ideal S2048 .f32) (a10 : FVec Ideal S512x2048 .f32)
    (a11 : FVec Ideal S512 .f32) (a12 : FVec Ideal S2048x2304 .f32)
    (a13 : FVec Ideal S2048 .f32) (a14 : FVec Ideal S1024x2048 .f32) (a15 : FVec Ideal S1024 .f32)
    (a16 : FVec Ideal S6144x832 .f32) (a17 : FVec Ideal S6144x2048 .f32)
    (a18 a19 : FVec Ideal S6144 .f32) (v13 : IVec S_ 1) (v16 : IVec S4096x256 1)
    (e : fn_part1 (F := Ideal) a4 a5 a6 a7 a8 a9 a10 a11 a12 a13 a14 a15 a16 a17 a18 a19 v13 v16 ix0 = 1#1) :
    v13 ix0 = 1#1 ∧ (∀ i, IsReal (a4 i)) ∧ (∀ i, IsReal (a5 i)) ∧ (∀ i, IsReal (a6 i))
      ∧ ∀ i, IsReal (a7 i) := by
  dsimp only [fn_part1] at e
  obtain ⟨h33, r7⟩ := part2_one _ _ _ _ _ _ _ _ _ _ _ _ _ _ e
  have h28 := and_one h33
  have h23 := and_one h28.1
  have h18 := and_one h23.1
  exact ⟨(and_one h18.1).1, real_of_all a4 _ _ _ h18.2, real_of_all a5 _ _ _ h23.2,
    real_of_all a6 _ _ _ h28.2, r7⟩

/-- The whole predicate: if it is one, the five arrays hold reals. -/
theorem fn_real [Facts] (a0 : FVec Ideal S4096x512 .f32) (a1 : FVec Ideal S4096x64 .f32)
    (a2 : FVec Ideal S4096x2048 .f32) (a3 : FVec Ideal S4096x256 .f32)
    (a4 : FVec Ideal S2048x2048 .f32) (a5 : FVec Ideal S2048 .f32)
    (a6 : FVec Ideal S512x2048 .f32) (a7 : FVec Ideal S512 .f32) (a8 : FVec Ideal S2048x2560 .f32)
    (a9 : FVec Ideal S2048 .f32) (a10 : FVec Ideal S512x2048 .f32)
    (a11 : FVec Ideal S512 .f32) (a12 : FVec Ideal S2048x2304 .f32)
    (a13 : FVec Ideal S2048 .f32) (a14 : FVec Ideal S1024x2048 .f32) (a15 : FVec Ideal S1024 .f32)
    (a16 : FVec Ideal S6144x832 .f32) (a17 : FVec Ideal S6144x2048 .f32)
    (a18 a19 : FVec Ideal S6144 .f32)
    (e : fn (F := Ideal) a0 a1 a2 a3 a4 a5 a6 a7 a8 a9 a10 a11 a12 a13 a14 a15 a16 a17 a18 a19 ix0 = 1#1) :
    (∀ i, IsReal (a2 i)) ∧ (∀ i, IsReal (a4 i)) ∧ (∀ i, IsReal (a5 i)) ∧ (∀ i, IsReal (a6 i))
      ∧ ∀ i, IsReal (a7 i) := by
  dsimp only [fn] at e
  obtain ⟨h13, r4, r5, r6, r7⟩ := part1_one _ _ _ _ _ _ _ _ _ _ _ _ _ _ _ _ _ _ e
  exact ⟨real_of_all a2 _ _ _ (and_one h13).2, r4, r5, r6, r7⟩

/-- Under the precondition (every float input finite) the state rows, the prior net's two weight matrices and its two
    bias vectors hold real numbers at every index, on every core. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i)) :=
  fn_real _ _ _ _ _ _ _ _ _ _ _ _ _ _ _ _ _ _ _ _ (congrFun (h c) ix0)

end Cert.Finite

end
-- ==== Proof.KValue.lean ====
/-
  The kernel program's run with its six results read: every weakly fair execution of @main ends with the new state,
  the two loss vectors, the sampled latent and the posterior mean and log-variance at the reference's stages of the
  argument arrays, and the arguments unchanged. The whole last boundary (KRun) is read at the result buffers (KRead),
  each call's arrays are the stages (Region0, Region1) because each call finds the arguments re-laid (Entry), and the
  precondition makes the prior net's inputs real numbers (Finite), which the KL term's law needs.
-/
import proofs.«141820_j69552700391572_2_alg».proof.Proof.KRun
import proofs.«141820_j69552700391572_2_alg».proof.Proof.KRead
import proofs.«141820_j69552700391572_2_alg».proof.Proof.Entry
import proofs.«141820_j69552700391572_2_alg».proof.Proof.Region0
import proofs.«141820_j69552700391572_2_alg».proof.Proof.Region1
import proofs.«141820_j69552700391572_2_alg».proof.Proof.Finite

set_option maxRecDepth 16384

noncomputable section

namespace Cert.KernelIdeal.KV

open Cert.KernelIdeal Cert.KernelIdeal.Gen Cert.ReferenceIdeal.Read
open Idealize.ShloMosaic Idealize.ShloMosaic.TcCoe Idealize.SL.Sem Idealize.ShloMosaic.ValueIdx

variable (m : (ℓ : Loc nD τ sig) → Buf (Elt Ideal) ℓ) (ρ : Dev nD → PrngReg)

/-- A row whose entry at column r is f r, re-laid as a vector, is f. -/
theorem cast_row (f : (⟨S4096, .f32⟩ : BufTy).Contents (Elt Ideal))
    (x : (⟨S1x4096, .f32⟩ : BufTy).Contents (Elt Ideal)) (hx : x = fun i : S1x4096.Idx => f (ix1 (i 1))) :
    shapeCast S4096 x shapeCasts_S1x4096_S4096 = f := by
  subst hx
  funext i
  obtain ⟨r, rfl⟩ : ∃ r : Fin 4096, i = ix1 r := ⟨i 0, eq_ix1 i⟩
  rw [shapeCast_1a_a_apply]

/-- The precondition's five realness facts in the form the KL term's law takes them. -/
theorem reals [hPre_finite_inputs : Cert.Pre_finite_inputs.Facts] (hpre : Cert.Pre_KernelIdeal m) (c : Dev nD) :
    R0.Reals (m ((c : Thread nD τ).loc main_arg2)) (m ((c : Thread nD τ).loc main_arg4)) (m ((c : Thread nD τ).loc main_arg5))
      (m ((c : Thread nD τ).loc main_arg6)) (m ((c : Thread nD τ).loc main_arg7)) := by
  obtain ⟨h2, h4, h5, h6, h7⟩ := Cert.Finite.real_of_pre m hpre c
  exact
    { r2 := fun i => (h2 i)
      r4 := fun i => (h4 i)
      r5 := fun i => (h5 i)
      r6 := fun i => (h6 i)
      r7 := fun i => (h7 i) }

/-- The recurrent call's entry with the latent named as the reference's stage. -/
theorem entry1' (c : Dev nD) : Entry1 (V3 m ρ) c (m ((c : Thread nD τ).loc main_arg0)) (m ((c : Thread nD τ).loc main_arg1)) (m ((c : Thread nD τ).loc main_arg2))
    (val_main_v32 (F := Ideal) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)))
    (m ((c : Thread nD τ).loc main_arg16)) (m ((c : Thread nD τ).loc main_arg17)) (m ((c : Thread nD τ).loc main_arg18)) (m ((c : Thread nD τ).loc main_arg19)) := by
  have E1 := entry1 m ρ c
  rw [R0.arr17 (entry0 m ρ c)] at E1
  exact E1

/-- The last boundary at the new state's buffer is the reference's new state. -/
theorem res_h (c : Dev nD) : W4 m ρ c (Proc.devRef .tc main_v34) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) :=
  (W4_h m ρ c).trans (R1.arr10 (entry1' m ρ c))

/-- The last boundary at the reconstruction loss's buffer is the reference's stage. -/
theorem res_nll (c : Dev nD) : (W4 m ρ c (Proc.devRef .tc main_v33) : FVec Ideal S4096 .f32) = val_main_v56 (F := Ideal) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W4_nll m ρ c).trans (cast_row _ _ (R0.arr21 (entry0 m ρ c)))

/-- The last boundary at the KL term's buffer is the reference's stage. -/
theorem res_kl [hPre_finite_inputs : Cert.Pre_finite_inputs.Facts] (hpre : Cert.Pre_KernelIdeal m) (c : Dev nD) : (W4 m ρ c (Proc.devRef .tc main_v32) : FVec Ideal S4096 .f32) = val_main_v70 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W4_kl m ρ c).trans (cast_row _ _ (R0.arr20 (entry0 m ρ c) (reals m hpre c)))

/-- The last boundary at the sampled latent's buffer is the reference's stage. -/
theorem res_z (c : Dev nD) : W4 m ρ c (Proc.devRef .tc main_v31_0) = val_main_v32 (F := Ideal) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) :=
  (W4_z m ρ c).trans (R0.arr17 (entry0 m ρ c))

/-- The last boundary at the posterior mean's buffer is the reference's stage. -/
theorem res_muq (c : Dev nD) : W4 m ρ c (Proc.devRef .tc main_v31_1) = val_main_v25 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) :=
  (W4_muq m ρ c).trans (R0.arr18 (entry0 m ρ c))

/-- The last boundary at the posterior log-variance's buffer is the reference's stage. -/
theorem res_lvq (c : Dev nD) : W4 m ρ c (Proc.devRef .tc main_v31_2) = val_main_v27 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) :=
  (W4_lvq m ρ c).trans (R0.arr19 (entry0 m ρ c))

theorem kernel_run [hPre_finite_inputs : Cert.Pre_finite_inputs.Facts] (hpre : Cert.Pre_KernelIdeal m) :
    θ_run defs (onTc (τ := τ) (main (F := Ideal))) ⟨m, fun _ => 0, ρ⟩ (fun r => ∀ c : Dev nD,
      r.2.mem ((c : Thread nD τ).loc main_v34) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19))
      ∧ r.2.mem ((c : Thread nD τ).loc main_v33) = val_main_v56 (F := Ideal) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_v32) = val_main_v70 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v31_0) = val_main_v32 (F := Ideal) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))
      ∧ r.2.mem ((c : Thread nD τ).loc main_v31_1) = val_main_v25 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11))
      ∧ r.2.mem ((c : Thread nD τ).loc main_v31_2) = val_main_v27 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)) :=
  (θ_run defs _ _).mono (fun r h c =>
    ⟨(h c _ (mem_uc main_v34 (by decide))).trans (res_h m ρ c),
     (h c _ (mem_uc main_v33 (by decide))).trans (res_nll m ρ c),
     (h c _ (mem_uc main_v32 (by decide))).trans (res_kl m ρ hpre c),
     (h c _ (mem_uc main_v31_0 (by decide))).trans (res_z m ρ c),
     (h c _ (mem_uc main_v31_1 (by decide))).trans (res_muq m ρ c),
     (h c _ (mem_uc main_v31_2 (by decide))).trans (res_lvq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c)⟩) (run_W4 m ρ)

end Cert.KernelIdeal.KV

end
-- ==== Proof.lean ====
/-
  The certificate of a VRNN cell step — prior net, encoder, reparameterised latent, decoder, the two losses and a
  GRU update over 4096 rows — computed by two pipelined calls (one fused call over blocks of 256 rows, one recurrent
  call over blocks of 128 rows) against the plain reference.

  At the ideal instance every float is an extended real, every operation exact and a change of float format the
  identity. There the two programs differ only in arrangement: the kernel multiplies row blocks by weight matrices
  transposed once on the host where the reference transposes each matrix and multiplies all rows; where the reference
  joins inputs along the feature axis and multiplies once, the kernel adds the partial products against the
  corresponding rows of the transposed matrix — a sum over the joined axis regrouped, which needs no finiteness; the
  kernel negates as `0 - x` and spells the logistic function as one operation. One difference is not mere
  arrangement: in the KL term the kernel multiplies by `exp (-logvar_p)` where the reference divides by
  `exp logvar_p`. On the extended reals the two agree when `logvar_p` is a real number (and at `+∞`) but not at
  `-∞`, where `0 · ∞ = 0` and `0 / 0` differ; the precondition — every input finite — makes the prior net's
  statistics sums of products of real numbers, hence real, and that is the one place it is used.

  The three frames are the generated ones (the reference's is its run with the results dropped), `preserves` is
  trivial (the ideal pass rewrote nothing), and `algebraic` sets the kernel program's run, read at its six results
  (Proof/KValue.lean), beside the reference's run: both end at the reference's stages of the arguments.
-/
import proofs.«141820_j69552700391572_2_alg».proof.Defs
import proofs.«141820_j69552700391572_2_alg».proof.Proof.Gen.Kernel
import proofs.«141820_j69552700391572_2_alg».proof.Proof.Gen.Kernel.Frame
import proofs.«141820_j69552700391572_2_alg».proof.Proof.Gen.KernelIdeal
import proofs.«141820_j69552700391572_2_alg».proof.Proof.Gen.KernelIdeal.Frame
import proofs.«141820_j69552700391572_2_alg».proof.Proof.Gen.ReferenceIdeal
import proofs.«141820_j69552700391572_2_alg».proof.Proof.Gen.ReferenceIdeal.Read
import proofs.«141820_j69552700391572_2_alg».proof.Proof.Gen.Pre_finite_inputs
import proofs.«141820_j69552700391572_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no call: its frame is its run with the six results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

theorem preserves : Cert.preserves_Kernel_KernelIdeal := trivial

/-- Both programs end with their six results at the reference's stages of arguments that agree. -/
theorem algebraic : Cert.algebraic_KernelIdeal_ReferenceIdeal := by
  intro m ρ m' ρ' hpre hagree
  refine ⟨_, _, _, _, _, _, Cert.KernelIdeal.KV.kernel_run m ρ hpre, ?_⟩
  refine (θ_run Cert.ReferenceIdeal.defs _ _).mono (fun r h c => ?_) (Cert.ReferenceIdeal.Value.run (F := Ideal) m' ρ')
  obtain ⟨g0, g1, g2, g3, g4, g5, g6, g7, g8, g9, g10, g11, g12, g13, g14, g15, g16, g17, g18, g19⟩ := hagree c
  obtain ⟨h109, h56, h70, h32, h25, h27, hargs⟩ := h c
  refine ⟨?_, ?_, ?_, ?_, ?_, ?_, hargs⟩
  · rw [h109, Cert.ReferenceIdeal.Read.val_main_v109_eq, g0, g1, g2, g3, g8, g9, g10, g11, g16, g17, g18, g19]
  · rw [h56, Cert.ReferenceIdeal.Read.val_main_v56_eq, g0, g2, g3, g8, g9, g10, g11, g12, g13, g14, g15]
  · rw [h70, Cert.ReferenceIdeal.Read.val_main_v70_eq, g0, g2, g4, g5, g6, g7, g8, g9, g10, g11]
  · rw [h32, Cert.ReferenceIdeal.Read.val_main_v32_eq, g0, g2, g3, g8, g9, g10, g11]
  · rw [h25, Cert.ReferenceIdeal.Read.val_main_v25_eq, g0, g2, g8, g9, g10, g11]
  · rw [h27, Cert.ReferenceIdeal.Read.val_main_v27_eq, g0, g2, g8, g9, g10, g11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
